-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S64x64x64x64 : Shape := ⟨4, ![64, 64, 64, 64]⟩
abbrev S4096x256 : Shape := ⟨2, ![4096, 256]⟩
abbrev S128x4096 : Shape := ⟨2, ![128, 4096]⟩
abbrev S8192x128 : Shape := ⟨2, ![8192, 128]⟩
abbrev S512x1x512x1 : Shape := ⟨4, ![512, 1, 512, 1]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S128x4096 : S_.BroadcastsInDim S128x4096 (![] : Fin 0 → Fin S128x4096.rank)
  reducesTo_S128x4096_S_d0_1 : S128x4096.ReducesTo [0, 1] S_
  bcast_S_S8192x128 : S_.BroadcastsInDim S8192x128 (![] : Fin 0 → Fin S8192x128.rank)
  reducesTo_S8192x128_S_d0_1 : S8192x128.ReducesTo [0, 1] S_
  bcast_S_S512x1x512x1 : S_.BroadcastsInDim S512x1x512x1 (![] : Fin 0 → Fin S512x1x512x1.rank)
  reducesTo_S512x1x512x1_S_d0_1_2_3 : S512x1x512x1.ReducesTo [0, 1, 2, 3] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg8 : FVec F S4096 .f32) (main_v33 : IVec S_ 1) : IVec S_ 1 :=
  let main_v34 : FVec F S4096 .f32 := Host.absf main_arg8
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  main_v38

def fn_part1 {F : FTy → Type} [FloatOps F] (main_arg5 : FVec F S512x1x512x1 .f32) (main_arg6 : FVec F S512x1x512x1 .f32) (main_arg7 : FVec F S4096 .f32) (main_arg8 : FVec F S4096 .f32) (main_v13 : IVec S_ 1) (main_v16 : IVec S8192x128 1) : IVec S_ 1 :=
  let main_c_5 : IVec S_ 1 := constantI S_ 1 1#1
  let main_v17 : IVec S_ 1 := (fun x v => Host.reduce IntOp.andi x v reducesTo_S8192x128_S_d0_1 h_S_) main_v16 main_c_5
  let main_v18 : IVec S_ 1 := andi main_v13 main_v17
  let main_v19 : FVec F S512x1x512x1 .f32 := Host.absf main_arg5
  let main_cst_6 : FVec F S_ .f32 := constant S_ .f32 0x7F800000#32
  let main_v20 : FVec F S512x1x512x1 .f32 := broadcastInDim S512x1x512x1 ![] bcast_S_S512x1x512x1 main_cst_6
  let main_v21 : IVec S512x1x512x1 1 := cmpf .olt main_v19 main_v20
  let main_c_7 : IVec S_ 1 := constantI S_ 1 1#1
  let main_v22 : IVec S_ 1 := (fun x v => Host.reduce IntOp.andi x v reducesTo_S512x1x512x1_S_d0_1_2_3 h_S_) main_v21 main_c_7
  let main_v23 : IVec S_ 1 := andi main_v18 main_v22
  let main_v24 : FVec F S512x1x512x1 .f32 := Host.absf main_arg6
  let main_cst_8 : FVec F S_ .f32 := constant S_ .f32 0x7F800000#32
  let main_v25 : FVec F S512x1x512x1 .f32 := broadcastInDim S512x1x512x1 ![] bcast_S_S512x1x512x1 main_cst_8
  let main_v26 : IVec S512x1x512x1 1 := cmpf .olt main_v24 main_v25
  let main_c_9 : IVec S_ 1 := constantI S_ 1 1#1
  let main_v27 : IVec S_ 1 := (fun x v => Host.reduce IntOp.andi x v reducesTo_S512x1x512x1_S_d0_1_2_3 h_S_) main_v26 main_c_9
  let main_v28 : IVec S_ 1 := andi main_v23 main_v27
  let main_v29 : FVec F S4096 .f32 := Host.absf main_arg7
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg8 main_v33

def fn {F : FTy → Type} [FloatOps F] (main_arg0 : FVec F S4x2048x4096 .f32) (main_arg1 : IVec S64x64x64x64 32) (main_arg2 : FVec F S4096x256 .f32) (main_arg3 : FVec F S128x4096 .f32) (main_arg4 : FVec F S8192x128 .f32) (main_arg5 : FVec F S512x1x512x1 .f32) (main_arg6 : FVec F S512x1x512x1 .f32) (main_arg7 : FVec F S4096 .f32) (main_arg8 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x256 .f32 := Host.absf main_arg2
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S128x4096 .f32 := Host.absf main_arg3
  let main_cst_2 : FVec F S_ .f32 := constant S_ .f32 0x7F800000#32
  let main_v10 : FVec F S128x4096 .f32 := broadcastInDim S128x4096 ![] bcast_S_S128x4096 main_cst_2
  let main_v11 : IVec S128x4096 1 := cmpf .olt main_v9 main_v10
  let main_c_3 : IVec S_ 1 := constantI S_ 1 1#1
  let main_v12 : IVec S_ 1 := (fun x v => Host.reduce IntOp.andi x v reducesTo_S128x4096_S_d0_1 h_S_) main_v11 main_c_3
  let main_v13 : IVec S_ 1 := andi main_v8 main_v12
  let main_v14 : FVec F S8192x128 .f32 := Host.absf main_arg4
  let main_cst_4 : FVec F S_ .f32 := constant S_ .f32 0x7F800000#32
  let main_v15 : FVec F S8192x128 .f32 := broadcastInDim S8192x128 ![] bcast_S_S8192x128 main_cst_4
  let main_v16 : IVec S8192x128 1 := cmpf .olt main_v14 main_v15
  fn_part1 (F := F) main_arg5 main_arg6 main_arg7 main_arg8 main_v13 main_v16
-- ==== Kernel.lean ====
abbrev S4x2048x4096 : Shape := ⟨3, ![4, 2048, 4096]⟩
abbrev S64x64x64x64 : Shape := ⟨4, ![64, 64, 64, 64]⟩
abbrev S4096x256 : Shape := ⟨2, ![4096, 256]⟩
abbrev S128x4096 : Shape := ⟨2, ![128, 4096]⟩
abbrev S8192x128 : Shape := ⟨2, ![8192, 128]⟩
abbrev S512x1x512x1 : Shape := ⟨4, ![512, 1, 512, 1]⟩
abbrev S4096 : Shape := ⟨1, ![4096]⟩
abbrev S4096x4096 : Shape := ⟨2, ![4096, 4096]⟩
abbrev S_ : Shape := ⟨0, ![]⟩
abbrev S4096x4096x1 : Shape := ⟨3, ![4096, 4096, 1]⟩
abbrev S1 : Shape := ⟨1, ![1]⟩
abbrev S1x1x1 : Shape := ⟨3, ![1, 1, 1]⟩
abbrev S512x8x512x8 : Shape := ⟨4, ![512, 8, 512, 8]⟩
abbrev S8192x4096 : Shape := ⟨2, ![8192, 4096]⟩
abbrev S4096x128 : Shape := ⟨2, ![4096, 128]⟩
abbrev S1x4096 : Shape := ⟨2, ![1, 4096]⟩
abbrev S1024x1024 : Shape := ⟨2, ![1024, 1024]⟩
abbrev S1024x128 : Shape := ⟨2, ![1024, 128]⟩
abbrev S128x1024 : Shape := ⟨2, ![128, 1024]⟩
abbrev S1x1024 : Shape := ⟨2, ![1, 1024]⟩

abbrev nBuf : Space → Nat
  | .hbm => 59
  | .vmem => 26
  | .smem => 0
  | _ => 0

abbrev bufTy : (tb : Table) → Fin (tcTables nBuf tb) → BufTy
  | .hbm, ⟨0, _⟩ => ⟨S4x2048x4096, .f32⟩
  | .hbm, ⟨1, _⟩ => ⟨S64x64x64x64, .i32⟩
  | .hbm, ⟨2, _⟩ => ⟨S4096x256, .f32⟩
  | .hbm, ⟨3, _⟩ => ⟨S128x4096, .f32⟩
  | .hbm, ⟨4, _⟩ => ⟨S8192x128, .f32⟩
  | .hbm, ⟨5, _⟩ => ⟨S512x1x512x1, .f32⟩
  | .hbm, ⟨6, _⟩ => ⟨S512x1x512x1, .f32⟩
  | .hbm, ⟨7, _⟩ => ⟨S4096, .f32⟩
  | .hbm, ⟨8, _⟩ => ⟨S4096, .f32⟩
  | .hbm, ⟨9, _⟩ => ⟨S4096x4096, .i32⟩
  | .hbm, ⟨10, _⟩ => ⟨S_, .i32⟩
  | .hbm, ⟨11, _⟩ => ⟨S4096x4096, .i32⟩
  | .hbm, ⟨12, _⟩ => ⟨S4096x4096, .i1⟩
  | .hbm, ⟨13, _⟩ => ⟨S_, .i32⟩
  | .hbm, ⟨14, _⟩ => ⟨S4096x4096, .i32⟩
  | .hbm, ⟨15, _⟩ => ⟨S4096x4096, .i32⟩
  | .hbm, ⟨16, _⟩ => ⟨S4096x4096, .i32⟩
  | .hbm, ⟨17, _⟩ => ⟨S4096x4096x1, .i32⟩
  | .hbm, ⟨18, _⟩ => ⟨S1, .i32⟩
  | .hbm, ⟨19, _⟩ => ⟨S_, .i32⟩
  | .hbm, ⟨20, _⟩ => ⟨S4096x4096x1, .i32⟩
  | .hbm, ⟨21, _⟩ => ⟨S4096x4096x1, .i1⟩
  | .hbm, ⟨22, _⟩ => ⟨S1x1x1, .i32⟩
  | .hbm, ⟨23, _⟩ => ⟨S4096x4096x1, .i32⟩
  | .hbm, ⟨24, _⟩ => ⟨S4096x4096x1, .i1⟩
  | .hbm, ⟨25, _⟩ => ⟨S4096x4096x1, .i1⟩
  | .hbm, ⟨26, _⟩ => ⟨S_, .i1⟩
  | .hbm, ⟨27, _⟩ => ⟨S4096x4096, .i1⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S64x64x64x64, .f32⟩
  | .hbm, ⟨33, _⟩ => ⟨S64x64x64x64, .f32⟩
  | .hbm, ⟨34, _⟩ => ⟨S4096x4096, .f32⟩
  | .hbm, ⟨35, _⟩ => ⟨S512x8x512x8, .f32⟩
  | .hbm, ⟨36, _⟩ => ⟨S512x1x512x1, .f32⟩
  | .hbm, ⟨37, _⟩ => ⟨S512x1x512x1, .f32⟩
  | .hbm, ⟨38, _⟩ => ⟨S512x8x512x8, .f32⟩
  | .hbm, ⟨39, _⟩ => ⟨S512x8x512x8, .f32⟩
  | .hbm, ⟨40, _⟩ => ⟨S512x8x512x8, .f32⟩
  | .hbm, ⟨41, _⟩ => ⟨S512x8x512x8, .f32⟩
  | .hbm, ⟨42, _⟩ => ⟨S4096x4096, .f32⟩
  | .hbm, ⟨43, _⟩ => ⟨S4096x4096, .bf16⟩
  | .hbm, ⟨44, _⟩ => ⟨S8192x4096, .f32⟩
  | .hbm, ⟨45, _⟩ => ⟨S4096x128, .f32⟩
  | .hbm, ⟨46, _⟩ => ⟨S4096x128, .bf16⟩
  | .hbm, ⟨47, _⟩ => ⟨S4096x128, .f32⟩
  | .hbm, ⟨48, _⟩ => ⟨S128x4096, .f32⟩
  | .hbm, ⟨49, _⟩ => ⟨S128x4096, .bf16⟩
  | .hbm, ⟨50, _⟩ => ⟨S4096x128, .f32⟩
  | .hbm, ⟨51, _⟩ => ⟨S128x4096, .f32⟩
  | .hbm, ⟨52, _⟩ => ⟨S128x4096, .bf16⟩
  | .hbm, ⟨53, _⟩ => ⟨S1x4096, .f32⟩
  | .hbm, ⟨54, _⟩ => ⟨S1x4096, .f32⟩
  | .hbm, ⟨55, _⟩ => ⟨S8192x128, .bf16⟩
  | .hbm, ⟨56, _⟩ => ⟨S8192x4096, .bf16⟩
  | .hbm, ⟨57, _⟩ => ⟨S8192x4096, .f32⟩
  | .hbm, ⟨58, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x1024, .bf16⟩
  | .local _ .vmem, ⟨7, _⟩ => ⟨S1024x1024, .bf16⟩
  | .local _ .vmem, ⟨8, _⟩ => ⟨S1024x128, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x128, .bf16⟩
  | .local _ .vmem, ⟨14, _⟩ => ⟨S1024x128, .bf16⟩
  | .local _ .vmem, ⟨15, _⟩ => ⟨S128x1024, .bf16⟩
  | .local _ .vmem, ⟨16, _⟩ => ⟨S128x1024, .bf16⟩
  | .local _ .vmem, ⟨17, _⟩ => ⟨S128x1024, .bf16⟩
  | .local _ .vmem, ⟨18, _⟩ => ⟨S128x1024, .bf16⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1024x1024, .f32⟩
  | .local _ .vmem, ⟨24, _⟩ => ⟨S1024x1024, .f32⟩
  | .local _ .vmem, ⟨25, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_cst : Ref sig .tc := ⟨.hbm, 29, rfl⟩
abbrev main_call0_v14 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25_0 : Ref sig .tc := ⟨.hbm, 55, rfl⟩
abbrev main_v25_1 : Ref sig .tc := ⟨.hbm, 56, rfl⟩
abbrev main_v26 : Ref sig .tc := ⟨.hbm, 57, rfl⟩
abbrev main_v27 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc1_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S128x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S128x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true, false]

abbrev stage1_6 : Fin 2 → Memref sig .tc .vmem S1x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true, false]

abbrev stage1_7 : Fin 2 → Memref sig .tc .vmem S1024x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

class Facts₀ : Prop where
  shapeCasts_S64x64x64x64_S4096x4096 : S64x64x64x64.ShapeCasts S4096x4096
  bcast_S_S4096x4096 : S_.BroadcastsInDim S4096x4096 (![] : Fin 0 → Fin S4096x4096.rank)
  shapeCasts_S4096x4096_S4096x4096x1 : S4096x4096.ShapeCasts S4096x4096x1
  bcast_S_S4096x4096x1 : S_.BroadcastsInDim S4096x4096x1 (![] : Fin 0 → Fin S4096x4096x1.rank)
  bcast_S1_S1x1x1_2 : S1.BroadcastsInDim S1x1x1 (![2] : Fin 1 → Fin S1x1x1.rank)
  bcast_S1x1x1_S4096x4096x1_0_1_2 : S1x1x1.BroadcastsInDim S4096x4096x1 (![0, 1, 2] : Fin 3 → Fin S4096x4096x1.rank)
  reducesTo_S4096x4096x1_S4096x4096_d2 : S4096x4096x1.ReducesTo [2] S4096x4096
  h_S_ : 0 < S_.numel
  shapeCasts_S4096x4096_S64x64x64x64 : S4096x4096.ShapeCasts S64x64x64x64
  transposes_S64x64x64x64_S64x64x64x64_1_3_0_2 : S64x64x64x64.Transposes [1, 3, 0, 2] S64x64x64x64
  shapeCasts_S4096x4096_S512x8x512x8 : S4096x4096.ShapeCasts S512x8x512x8
  transposes_S512x1x512x1_S512x1x512x1_2_1_0_3 : S512x1x512x1.Transposes [2, 1, 0, 3] S512x1x512x1
  bcast_S512x1x512x1_S512x8x512x8_0_1_2_3 : S512x1x512x1.BroadcastsInDim S512x8x512x8 (![0, 1, 2, 3] : Fin 4 → Fin S512x8x512x8.rank)
  shapeCasts_S512x8x512x8_S4096x4096 : S512x8x512x8.ShapeCasts S4096x4096
  bitsLt_bf16_f32 : FTy.bits .bf16 < FTy.bits .f32
  shapeCasts_S4x2048x4096_S8192x4096 : S4x2048x4096.ShapeCasts S8192x4096
  transposes_S128x4096_S4096x128_1_0 : S128x4096.Transposes [1, 0] S4096x128
  slices_S8192x128_S4096x128_0_0 : S8192x128.Slices ![0, 0] S4096x128
  transposes_S4096x128_S128x4096_1_0 : S4096x128.Transposes [1, 0] S128x4096
  slices_S8192x128_S4096x128_4096_0 : S8192x128.Slices ![4096, 0] S4096x128
  shapeCasts_S4096_S1x4096 : S4096.ShapeCasts S1x4096
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  packedbf16_S1024x128_S1024x128_0_0 : (Rect.unit (s := S1024x128) ![0, 0] S1024x128.size inb_S1024x128_S1024x128_0_0).PackedRows (EltTy.packing .bf16)
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  gather_S4096x256_S4096x4096x1_S4096x4096_n_1_0_0_1_2_11_wf : GatherDims.WF S4096x256 S4096x4096x1 S4096x4096 [] [1] [0] [1] [0] 2 ![1, 1]
  dot_S1024x1024_S1024x128_S1024x128_1_0_0_1_n_n_wf : DotDims.WF S1024x1024 S1024x128 S1024x128 [1] [0] [0] [1] [] []
  dot_S1024x1024_S1024x1024_S1024x1024_1_0_0_1_n_n_wf : DotDims.WF S1024x1024 S1024x1024 S1024x1024 [1] [0] [0] [1] [] []
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S4096x128.size a
  hwx0_1 : ∀ i : grid0.Coords, EltTy.bits .bf16 = 32 ∨ (Rect.block (s := S4096x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .bf16 = 32 ∨ (Rect.block (s := S8192x128) S1024x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .bf16 = 32 ∨ (Rect.block (s := S8192x4096) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .bf16 = 32 ∨ (Rect.block (s := S8192x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .bf16 = 32 ∨ (Rect.block (s := S8192x128) S1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x1024.size a ≤ S128x4096.size a
  hwx1_3 : ∀ i : grid1.Coords, EltTy.bits .bf16 = 32 ∨ (Rect.block (s := S128x4096) S128x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x1024.size a ≤ S128x4096.size a
  hwx1_4 : ∀ i : grid1.Coords, EltTy.bits .bf16 = 32 ∨ (Rect.block (s := S128x4096) S128x1024.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x4096.size a
  hwx1_5 : ∀ i : grid1.Coords, EltTy.bits .f32 = 32 ∨ (Rect.block (s := S1x4096) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x4096.size a
  hwx1_6 : ∀ i : grid1.Coords, EltTy.bits .f32 = 32 ∨ (Rect.block (s := S1x4096) S1x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x1024.size a ≤ S8192x4096.size a
  hwx1_7 : ∀ i : grid1.Coords, EltTy.bits .f32 = 32 ∨ (Rect.block (s := S8192x4096) S1024x1024.size (cc1_transform_7 i) (hinb1_7 i)).WholeWords (EltTy.packing .f32)

variable [Facts₀]

def gather_S4096x256_S4096x4096x1_S4096x4096_n_1_0_0_1_2_11 : GatherDims S4096x256 S4096x4096x1 S4096x4096 where
  offsetDims := []
  collapsedSliceDims := [1]
  operandBatchingDims := [0]
  startIndicesBatchingDims := [0]
  startIndexMap := [1]
  indexVectorDim := 2
  sliceSizes := ![1, 1]
  wf := gather_S4096x256_S4096x4096x1_S4096x4096_n_1_0_0_1_2_11_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v14) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25_0) S1024x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25_1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun _ => false | ⟨_ + 4, h⟩ => absurd h (Nat.not_lt.2 (Nat.le_add_left _ _))

abbrev win1_0 : Pipeline.Window sig grid1 :=
  Pipeline.Window.ofSpec (Memref.whole main_v25_1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25_0) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S128x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v22) S128x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v23) S1x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v24) S1x1024.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v26) S1024x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S64x64x64x64 : Shape := ⟨4, ![64, 64, 64, 64]⟩
abbrev S4096x256 : Shape := ⟨2, ![4096, 256]⟩
abbrev S128x4096 : Shape := ⟨2, ![128, 4096]⟩
abbrev S8192x128 : Shape := ⟨2, ![8192, 128]⟩
abbrev S512x1x512x1 : Shape := ⟨4, ![512, 1, 512, 1]⟩
abbrev S4096 : Shape := ⟨1, ![4096]⟩
abbrev S4096x4096 : Shape := ⟨2, ![4096, 4096]⟩
abbrev S_ : Shape := ⟨0, ![]⟩
abbrev S4096x4096x1 : Shape := ⟨3, ![4096, 4096, 1]⟩
abbrev S1 : Shape := ⟨1, ![1]⟩
abbrev S1x1x1 : Shape := ⟨3, ![1, 1, 1]⟩
abbrev S512x8x512x8 : Shape := ⟨4, ![512, 8, 512, 8]⟩
abbrev S4x2048x128 : Shape := ⟨3, ![4, 2048, 128]⟩
abbrev S8192 : Shape := ⟨1, ![8192]⟩
abbrev S4x2048x8192 : Shape := ⟨3, ![4, 2048, 8192]⟩
abbrev S1x1x8192 : Shape := ⟨3, ![1, 1, 8192]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S64x64x64x64, .i32⟩
  | .hbm, ⟨2, _⟩ => ⟨S4096x256, .f32⟩
  | .hbm, ⟨3, _⟩ => ⟨S128x4096, .f32⟩
  | .hbm, ⟨4, _⟩ => ⟨S8192x128, .f32⟩
  | .hbm, ⟨5, _⟩ => ⟨S512x1x512x1, .f32⟩
  | .hbm, ⟨6, _⟩ => ⟨S512x1x512x1, .f32⟩
  | .hbm, ⟨7, _⟩ => ⟨S4096, .f32⟩
  | .hbm, ⟨8, _⟩ => ⟨S4096, .f32⟩
  | .hbm, ⟨9, _⟩ => ⟨S4096x4096, .i32⟩
  | .hbm, ⟨10, _⟩ => ⟨S_, .i32⟩
  | .hbm, ⟨11, _⟩ => ⟨S4096x4096, .i32⟩
  | .hbm, ⟨12, _⟩ => ⟨S4096x4096, .i1⟩
  | .hbm, ⟨13, _⟩ => ⟨S_, .i32⟩
  | .hbm, ⟨14, _⟩ => ⟨S4096x4096, .i32⟩
  | .hbm, ⟨15, _⟩ => ⟨S4096x4096, .i32⟩
  | .hbm, ⟨16, _⟩ => ⟨S4096x4096, .i32⟩
  | .hbm, ⟨17, _⟩ => ⟨S4096x4096x1, .i32⟩
  | .hbm, ⟨18, _⟩ => ⟨S1, .i32⟩
  | .hbm, ⟨19, _⟩ => ⟨S_, .i32⟩
  | .hbm, ⟨20, _⟩ => ⟨S4096x4096x1, .i32⟩
  | .hbm, ⟨21, _⟩ => ⟨S4096x4096x1, .i1⟩
  | .hbm, ⟨22, _⟩ => ⟨S1x1x1, .i32⟩
  | .hbm, ⟨23, _⟩ => ⟨S4096x4096x1, .i32⟩
  | .hbm, ⟨24, _⟩ => ⟨S4096x4096x1, .i1⟩
  | .hbm, ⟨25, _⟩ => ⟨S4096x4096x1, .i1⟩
  | .hbm, ⟨26, _⟩ => ⟨S_, .i1⟩
  | .hbm, ⟨27, _⟩ => ⟨S4096x4096, .i1⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S64x64x64x64, .f32⟩
  | .hbm, ⟨33, _⟩ => ⟨S64x64x64x64, .f32⟩
  | .hbm, ⟨34, _⟩ => ⟨S4096x4096, .f32⟩
  | .hbm, ⟨35, _⟩ => ⟨S512x8x512x8, .f32⟩
  | .hbm, ⟨36, _⟩ => ⟨S512x8x512x8, .f32⟩
  | .hbm, ⟨37, _⟩ => ⟨S512x8x512x8, .f32⟩
  | .hbm, ⟨38, _⟩ => ⟨S512x8x512x8, .f32⟩
  | .hbm, ⟨39, _⟩ => ⟨S512x8x512x8, .f32⟩
  | .hbm, ⟨40, _⟩ => ⟨S4096x4096, .f32⟩
  | .hbm, ⟨41, _⟩ => ⟨S4x2048x4096, .f32⟩
  | .hbm, ⟨42, _⟩ => ⟨S4x2048x128, .f32⟩
  | .hbm, ⟨43, _⟩ => ⟨S8192, .f32⟩
  | .hbm, ⟨44, _⟩ => ⟨S4x2048x8192, .f32⟩
  | .hbm, ⟨45, _⟩ => ⟨S1x1x8192, .f32⟩
  | .hbm, ⟨46, _⟩ => ⟨S4x2048x8192, .f32⟩
  | .hbm, ⟨47, _⟩ => ⟨S4x2048x8192, .f32⟩
  | .hbm, ⟨48, _⟩ => ⟨S4x2048x4096, .f32⟩
  | .hbm, ⟨49, _⟩ => ⟨S4x2048x4096, .f32⟩
  | .hbm, ⟨50, _⟩ => ⟨S4x2048x4096, .f32⟩
  | .hbm, ⟨51, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_cst : Ref sig .tc := ⟨.hbm, 29, rfl⟩
abbrev main_call0_v14 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩

abbrev nD : Nat := 1
abbrev τ : Topo := Topo.v7x

variable {F : FTy → Type} [FloatOps F]

class Facts₀ : Prop where
  shapeCasts_S64x64x64x64_S4096x4096 : S64x64x64x64.ShapeCasts S4096x4096
  bcast_S_S4096x4096 : S_.BroadcastsInDim S4096x4096 (![] : Fin 0 → Fin S4096x4096.rank)
  shapeCasts_S4096x4096_S4096x4096x1 : S4096x4096.ShapeCasts S4096x4096x1
  bcast_S_S4096x4096x1 : S_.BroadcastsInDim S4096x4096x1 (![] : Fin 0 → Fin S4096x4096x1.rank)
  bcast_S1_S1x1x1_2 : S1.BroadcastsInDim S1x1x1 (![2] : Fin 1 → Fin S1x1x1.rank)
  bcast_S1x1x1_S4096x4096x1_0_1_2 : S1x1x1.BroadcastsInDim S4096x4096x1 (![0, 1, 2] : Fin 3 → Fin S4096x4096x1.rank)
  reducesTo_S4096x4096x1_S4096x4096_d2 : S4096x4096x1.ReducesTo [2] S4096x4096
  h_S_ : 0 < S_.numel
  shapeCasts_S4096x4096_S64x64x64x64 : S4096x4096.ShapeCasts S64x64x64x64
  transposes_S64x64x64x64_S64x64x64x64_0_2_1_3 : S64x64x64x64.Transposes [0, 2, 1, 3] S64x64x64x64
  shapeCasts_S4096x4096_S512x8x512x8 : S4096x4096.ShapeCasts S512x8x512x8
  bcast_S512x1x512x1_S512x8x512x8_0_1_2_3 : S512x1x512x1.BroadcastsInDim S512x8x512x8 (![0, 1, 2, 3] : Fin 4 → Fin S512x8x512x8.rank)
  shapeCasts_S512x8x512x8_S4096x4096 : S512x8x512x8.ShapeCasts S4096x4096
  concatenates_S4096_S4096_S8192_d0 : Shape.Concatenates [S4096, S4096] S8192 0
  bcast_S8192_S1x1x8192_2 : S8192.BroadcastsInDim S1x1x8192 (![2] : Fin 1 → Fin S1x1x8192.rank)
  bcast_S1x1x8192_S4x2048x8192_0_1_2 : S1x1x8192.BroadcastsInDim S4x2048x8192 (![0, 1, 2] : Fin 3 → Fin S4x2048x8192.rank)
  slices_S4x2048x8192_S4x2048x4096_0_0_0 : S4x2048x8192.Slices ![0, 0, 0] S4x2048x4096
  slices_S4x2048x8192_S4x2048x4096_0_0_4096 : S4x2048x8192.Slices ![0, 0, 4096] S4x2048x4096
  gather_S4096x256_S4096x4096x1_S4096x4096_n_1_0_0_1_2_11_wf : GatherDims.WF S4096x256 S4096x4096x1 S4096x4096 [] [1] [0] [1] [0] 2 ![1, 1]
  dot_S4x2048x4096_S4096x4096_S4x2048x4096_2_1_01_0_n_n_wf : DotDims.WF S4x2048x4096 S4096x4096 S4x2048x4096 [2] [1] [0, 1] [0] [] []
  dot_S4x2048x4096_S128x4096_S4x2048x128_2_1_01_0_n_n_wf : DotDims.WF S4x2048x4096 S128x4096 S4x2048x128 [2] [1] [0, 1] [0] [] []
  dot_S4x2048x128_S8192x128_S4x2048x8192_2_1_01_0_n_n_wf : DotDims.WF S4x2048x128 S8192x128 S4x2048x8192 [2] [1] [0, 1] [0] [] []

variable [Facts₀]

def gather_S4096x256_S4096x4096x1_S4096x4096_n_1_0_0_1_2_11 : GatherDims S4096x256 S4096x4096x1 S4096x4096 where
  offsetDims := []
  collapsedSliceDims := [1]
  operandBatchingDims := [0]
  startIndicesBatchingDims := [0]
  startIndexMap := [1]
  indexVectorDim := 2
  sliceSizes := ![1, 1]
  wf := gather_S4096x256_S4096x4096x1_S4096x4096_n_1_0_0_1_2_11_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S128x4096_S4x2048x128_2_1_01_0_n_n : DotDims S4x2048x4096 S128x4096 S4x2048x128 where
  lhsContracting := [2]
  rhsContracting := [1]
  lhsNonContracting := [0, 1]
  rhsNonContracting := [0]
  lhsBatch := []
  rhsBatch := []
  wf := dot_S4x2048x4096_S128x4096_S4x2048x128_2_1_01_0_n_n_wf
def dot_S4x2048x128_S8192x128_S4x2048x8192_2_1_01_0_n_n : DotDims S4x2048x128 S8192x128 S4x2048x8192 where
  lhsContracting := [2]
  rhsContracting := [1]
  lhsNonContracting := [0, 1]
  rhsNonContracting := [0]
  lhsBatch := []
  rhsBatch := []
  wf := dot_S4x2048x128_S8192x128_S4x2048x8192_2_1_01_0_n_n_wf

class Facts : Prop extends Facts₀ where

variable [Facts]
-- ==== Proof.K.R0Kit.lean ====
import proofs.«108895_j83004537962674_2_alg».proof.Proof.Gen.Kernel.Launch
import proofs.«108895_j83004537962674_2_alg».proof.Proof.Gen.Kernel.Skeleton
import proofs.«108895_j83004537962674_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the first kernel call, at the entry contents `V` — what the case runs share -/

section Blocks
-- the TensorCore's buffer contents when the region is entered
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The body's branch conditions -/

/-- The condition of the body's first `scf.if` (the reduction index is 0), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The condition of the body's second `scf.if` (the reduction index is the last). -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_3 : ∀ t : Fin cfg0.N, cfg0.idle 3 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The staging and scratch memrefs -/

/-- One staging buffer of each output window, through which its contents are stated. -/
abbrev VO0_2 : View sig .tc .vmem S1024x128 .bf16 := (Memref.whole cc0_stg2_0 : Memref sig .tc .vmem S1024x128 .bf16).view
abbrev VO0_3 : View sig .tc .vmem S1024x1024 .bf16 := (Memref.whole cc0_stg3_0 : Memref sig .tc .vmem S1024x1024 .bf16).view
/-- Each window's current staging memref at point `t`, as the pipeline passes it, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
/-- The scratch accumulator: a whole scoped buffer of the kernel's own. -/
abbrev scM0_0 : Memref sig .tc .vmem S1024x128 .f32 := Memref.whole cc0_scratch0
abbrev VS0_0 : View sig .tc .vmem S1024x128 .f32 := scM0_0.view

/-- The scoped buffers of the core that region 0 neither stages through nor accumulates in (the second call's
    staging buffers and scratch), each whole at some contents: carried through region 0 untouched. -/
def Rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg6_1), ((c : Thread nD τ).loc cc1_stg6_1) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg7_1), ((c : Thread nD τ).loc cc1_stg7_1) ↦{fullShare} f)
    ∗ (∃ f : Buf (Elt F) ((c : Thread nD τ).loc cc1_scratch0), ((c : Thread nD τ).loc cc1_scratch0) ↦{fullShare} f))

/-- The region's invariant before its first point: the scratch accumulator owned at some contents, the other
    scoped buffers, the generator register at some state. -/
theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA Rest0; rw [scopedRest0_eq]; simp only [scM0_0, owns_whole]; try rfl

end Cert.Kernel.Hand

end
-- ==== Proof.K.R0RunA.lean ====
import proofs.«108895_j83004537962674_2_alg».proof.Proof.K.R0Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case A (the reduction index is 0 and not the last: the accumulator is zeroed, then accumulated; the
    first output is not stored): on whole staging memrefs — the inputs' at their contents, the first output's at
    contents handed back untouched, the second output's and the scratch at anything — it runs to the continuation
    holding the inputs' as they were, the second output's buffer and the scratch with the pieces its stores wrote. -/
noncomputable def kernelRun0_A (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : cond0_0 i) (hc1 : ¬cond0_1 i)
    (x0 : Vec F S1024x1024 .f32) (x1 : Vec F S1024x128 .bf16) :
    Σ' (L2 : List (View.Piece (Elt F) S1024x128 .bf16)) (L3 : List (View.Piece (Elt F) S1024x1024 .bf16)), { LS0 : List (View.Piece (Elt F) S1024x128 .f32) //
      ∀ (xi2 : Vec F S1024x128 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__hid_kernel i arg2 harg2 arg3 harg3 arg4 harg4 arg5 harg5 arg6 harg6) K } := by
  refine ⟨[], ?_, ?_, fun xi2 E K => ?run⟩
  case run =>
    simp only [cc0__hid_kernel_eq_skeleton]; unfold cc0__hid_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.R0RunB.lean ====
import proofs.«108895_j83004537962674_2_alg».proof.Proof.K.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case B (the reduction index is neither 0 nor the last: the accumulator is accumulated; the first
    output is not stored): as in case A, the scratch now at the contents the point before left. -/
noncomputable def kernelRun0_B (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : ¬cond0_0 i) (hc1 : ¬cond0_1 i)
    (x0 : Vec F S1024x1024 .f32) (x1 : Vec F S1024x128 .bf16) (xs0 : Vec F S1024x128 .f32) :
    Σ' (L2 : List (View.Piece (Elt F) S1024x128 .bf16)) (L3 : List (View.Piece (Elt F) S1024x1024 .bf16)), { LS0 : List (View.Piece (Elt F) S1024x128 .f32) //
      ∀ (xi2 : Vec F S1024x128 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__hid_kernel i arg2 harg2 arg3 harg3 arg4 harg4 arg5 harg5 arg6 harg6) K } := by
  refine ⟨[], ?_, ?_, fun xi2 E K => ?run⟩
  case run =>
    simp only [cc0__hid_kernel_eq_skeleton]; unfold cc0__hid_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.R0RunC.lean ====
import proofs.«108895_j83004537962674_2_alg».proof.Proof.K.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case C (the reduction index is the last and not 0: the accumulator is accumulated and read out into
    the first output): the scratch at the contents the point before left, both outputs' buffers at anything; it
    runs to the continuation holding the inputs' as they were and each output's buffer and the scratch with the
    pieces its stores wrote. -/
noncomputable def kernelRun0_C (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : ¬cond0_0 i) (hc1 : cond0_1 i)
    (x0 : Vec F S1024x1024 .f32) (x1 : Vec F S1024x128 .bf16) (xs0 : Vec F S1024x128 .f32) :
    Σ' (L2 : List (View.Piece (Elt F) S1024x128 .bf16)) (L3 : List (View.Piece (Elt F) S1024x1024 .bf16)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__hid_kernel i arg2 harg2 arg3 harg3 arg4 harg4 arg5 harg5 arg6 harg6) K } := by
  refine ⟨?_, ?_, ?_, fun E K => ?run⟩
  case run =>
    simp only [cc0__hid_kernel_eq_skeleton]; unfold cc0__hid_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg2.eq_unread hf0; obtain rfl := harg3.eq_unread hf1; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS0

end Cert.Kernel.Hand

end
-- ==== Proof.K.R0Body.lean ====
import proofs.«108895_j83004537962674_2_alg».proof.Proof.K.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what the outputs and the accumulator hold case by case and point by point, the proof data, the body
    obligation -/

/-- Case A stores nothing into the first output (the window is idle at its points and not written back there): a
    placeholder nothing consults. -/
def out0_A_2 (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : cond0_0 i) (hc1 : ¬cond0_1 i)
    (x0 : Vec F S1024x1024 .f32) (x1 : Vec F S1024x128 .bf16) : Vec F S1024x128 .bf16 :=
  VO0_2.read (Elt F) (VO0_2.writes (Elt F) VO0_2.junk (kernelRun0_A c i arg2 harg2 arg3 harg3 arg4 harg4 arg5 harg5 arg6 harg6 hc0 hc1 x0 x1).1)

/-- Case A's pieces for the second output tile its block, so they cover it. -/
theorem cover0_A_3 (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : cond0_0 i) (hc1 : ¬cond0_1 i)
    (x0 : Vec F S1024x1024 .f32) (x1 : Vec F S1024x128 .bf16) (y : S1024x1024.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S1024x1024.size (by sl_kernel_rfl) y

/-- What case A leaves in the second output's staging buffer: its pieces read back. -/
def out0_A_3 (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : cond0_0 i) (hc1 : ¬cond0_1 i)
    (x0 : Vec F S1024x1024 .f32) (x1 : Vec F S1024x128 .bf16) : Vec F S1024x1024 .bf16 :=
  VO0_3.read (Elt F) (VO0_3.writes (Elt F) VO0_3.junk (kernelRun0_A c i arg2 harg2 arg3 harg3 arg4 harg4 arg5 harg5 arg6 harg6 hc0 hc1 x0 x1).2.1)

/-- Case A's pieces for the accumulator cover it. -/
theorem scover0_A_0 (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : cond0_0 i) (hc1 : ¬cond0_1 i)
    (x0 : Vec F S1024x1024 .f32) (x1 : Vec F S1024x128 .bf16) (y : S1024x128.Idx) :
    ∃ pc ∈ (kernelRun0_A c i arg2 harg2 arg3 harg3 arg4 harg4 arg5 harg5 arg6 harg6 hc0 hc1 x0 x1).2.2.1, y ∈ pc.1.set :=
  View.cover_of_tiledL (kernelRun0_A c i arg2 harg2 arg3 harg3 arg4 harg4 arg5 harg5 arg6 harg6 hc0 hc1 x0 x1).2.2.1 S1024x128.size (by sl_kernel_rfl) y

/-- What case A leaves in the accumulator: its pieces read back. -/
def sout0_A_0 (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : cond0_0 i) (hc1 : ¬cond0_1 i)
    (x0 : Vec F S1024x1024 .f32) (x1 : Vec F S1024x128 .bf16) : Vec F S1024x128 .f32 :=
  VS0_0.read (Elt F) (VS0_0.writes (Elt F) VS0_0.junk (kernelRun0_A c i arg2 harg2 arg3 harg3 arg4 harg4 arg5 harg5 arg6 harg6 hc0 hc1 x0 x1).2.2.1)

/-- Case B stores nothing into the first output (the window is idle at its points and not written back there): a
    placeholder nothing consults. -/
def out0_B_2 (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : ¬cond0_0 i) (hc1 : ¬cond0_1 i)
    (x0 : Vec F S1024x1024 .f32) (x1 : Vec F S1024x128 .bf16) (xs0 : Vec F S1024x128 .f32) : Vec F S1024x128 .bf16 :=
  VO0_2.read (Elt F) (VO0_2.writes (Elt F) VO0_2.junk (kernelRun0_B c i arg2 harg2 arg3 harg3 arg4 harg4 arg5 harg5 arg6 harg6 hc0 hc1 x0 x1 xs0).1)

/-- Case B's pieces for the second output tile its block, so they cover it. -/
theorem cover0_B_3 (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : ¬cond0_0 i) (hc1 : ¬cond0_1 i)
    (x0 : Vec F S1024x1024 .f32) (x1 : Vec F S1024x128 .bf16) (xs0 : Vec F S1024x128 .f32) (y : S1024x1024.Idx) :
    ∃ pc ∈ (kernelRun0_B c i arg2 harg2 arg3 harg3 arg4 harg4 arg5 harg5 arg6 harg6 hc0 hc1 x0 x1 xs0).2.1, y ∈ pc.1.set :=
  View.cover_of_tiledL (kernelRun0_B c i arg2 harg2 arg3 harg3 arg4 harg4 arg5 harg5 arg6 harg6 hc0 hc1 x0 x1 xs0).2.1 S1024x1024.size (by sl_kernel_rfl) y

/-- What case B leaves in the second output's staging buffer: its pieces read back. -/
def out0_B_3 (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : ¬cond0_0 i) (hc1 : ¬cond0_1 i)
    (x0 : Vec F S1024x1024 .f32) (x1 : Vec F S1024x128 .bf16) (xs0 : Vec F S1024x128 .f32) : Vec F S1024x1024 .bf16 :=
  VO0_3.read (Elt F) (VO0_3.writes (Elt F) VO0_3.junk (kernelRun0_B c i arg2 harg2 arg3 harg3 arg4 harg4 arg5 harg5 arg6 harg6 hc0 hc1 x0 x1 xs0).2.1)

/-- Case B's pieces for the accumulator cover it. -/
theorem scover0_B_0 (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : ¬cond0_0 i) (hc1 : ¬cond0_1 i)
    (x0 : Vec F S1024x1024 .f32) (x1 : Vec F S1024x128 .bf16) (xs0 : Vec F S1024x128 .f32) (y : S1024x128.Idx) :
    ∃ pc ∈ (kernelRun0_B c i arg2 harg2 arg3 harg3 arg4 harg4 arg5 harg5 arg6 harg6 hc0 hc1 x0 x1 xs0).2.2.1, y ∈ pc.1.set :=
  View.cover_of_tiledL (kernelRun0_B c i arg2 harg2 arg3 harg3 arg4 harg4 arg5 harg5 arg6 harg6 hc0 hc1 x0 x1 xs0).2.2.1 S1024x128.size (by sl_kernel_rfl) y

/-- What case B leaves in the accumulator: its pieces read back. -/
def sout0_B_0 (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : ¬cond0_0 i) (hc1 : ¬cond0_1 i)
    (x0 : Vec F S1024x1024 .f32) (x1 : Vec F S1024x128 .bf16) (xs0 : Vec F S1024x128 .f32) : Vec F S1024x128 .f32 :=
  VS0_0.read (Elt F) (VS0_0.writes (Elt F) VS0_0.junk (kernelRun0_B c i arg2 harg2 arg3 harg3 arg4 harg4 arg5 harg5 arg6 harg6 hc0 hc1 x0 x1 xs0).2.2.1)

/-- Case C's pieces for the first output tile its block, so they cover it. -/
theorem cover0_C_2 (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : ¬cond0_0 i) (hc1 : cond0_1 i)
    (x0 : Vec F S1024x1024 .f32) (x1 : Vec F S1024x128 .bf16) (xs0 : Vec F S1024x128 .f32) (y : S1024x128.Idx) :
    ∃ pc ∈ (kernelRun0_C c i arg2 harg2 arg3 harg3 arg4 harg4 arg5 harg5 arg6 harg6 hc0 hc1 x0 x1 xs0).1, y ∈ pc.1.set :=
  View.cover_of_tiledL (kernelRun0_C c i arg2 harg2 arg3 harg3 arg4 harg4 arg5 harg5 arg6 harg6 hc0 hc1 x0 x1 xs0).1 S1024x128.size (by sl_kernel_rfl) y

/-- What case C leaves in the first output's staging buffer: its pieces read back. -/
def out0_C_2 (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : ¬cond0_0 i) (hc1 : cond0_1 i)
    (x0 : Vec F S1024x1024 .f32) (x1 : Vec F S1024x128 .bf16) (xs0 : Vec F S1024x128 .f32) : Vec F S1024x128 .bf16 :=
  VO0_2.read (Elt F) (VO0_2.writes (Elt F) VO0_2.junk (kernelRun0_C c i arg2 harg2 arg3 harg3 arg4 harg4 arg5 harg5 arg6 harg6 hc0 hc1 x0 x1 xs0).1)

/-- Case C's pieces for the second output tile its block, so they cover it. -/
theorem cover0_C_3 (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : ¬cond0_0 i) (hc1 : cond0_1 i)
    (x0 : Vec F S1024x1024 .f32) (x1 : Vec F S1024x128 .bf16) (xs0 : Vec F S1024x128 .f32) (y : S1024x1024.Idx) :
    ∃ pc ∈ (kernelRun0_C c i arg2 harg2 arg3 harg3 arg4 harg4 arg5 harg5 arg6 harg6 hc0 hc1 x0 x1 xs0).2.1, y ∈ pc.1.set :=
  View.cover_of_tiledL (kernelRun0_C c i arg2 harg2 arg3 harg3 arg4 harg4 arg5 harg5 arg6 harg6 hc0 hc1 x0 x1 xs0).2.1 S1024x1024.size (by sl_kernel_rfl) y

/-- What case C leaves in the second output's staging buffer: its pieces read back. -/
def out0_C_3 (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : ¬cond0_0 i) (hc1 : cond0_1 i)
    (x0 : Vec F S1024x1024 .f32) (x1 : Vec F S1024x128 .bf16) (xs0 : Vec F S1024x128 .f32) : Vec F S1024x1024 .bf16 :=
  VO0_3.read (Elt F) (VO0_3.writes (Elt F) VO0_3.junk (kernelRun0_C c i arg2 harg2 arg3 harg3 arg4 harg4 arg5 harg5 arg6 harg6 hc0 hc1 x0 x1 xs0).2.1)

/-- Case C's pieces for the accumulator cover it. -/
theorem scover0_C_0 (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : ¬cond0_0 i) (hc1 : cond0_1 i)
    (x0 : Vec F S1024x1024 .f32) (x1 : Vec F S1024x128 .bf16) (xs0 : Vec F S1024x128 .f32) (y : S1024x128.Idx) :
    ∃ pc ∈ (kernelRun0_C c i arg2 harg2 arg3 harg3 arg4 harg4 arg5 harg5 arg6 harg6 hc0 hc1 x0 x1 xs0).2.2.1, y ∈ pc.1.set :=
  View.cover_of_tiledL (kernelRun0_C c i arg2 harg2 arg3 harg3 arg4 harg4 arg5 harg5 arg6 harg6 hc0 hc1 x0 x1 xs0).2.2.1 S1024x128.size (by sl_kernel_rfl) y

/-- What case C leaves in the accumulator: its pieces read back. -/
def sout0_C_0 (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : ¬cond0_0 i) (hc1 : cond0_1 i)
    (x0 : Vec F S1024x1024 .f32) (x1 : Vec F S1024x128 .bf16) (xs0 : Vec F S1024x128 .f32) : Vec F S1024x128 .f32 :=
  VS0_0.read (Elt F) (VS0_0.writes (Elt F) VS0_0.junk (kernelRun0_C c i arg2 harg2 arg3 harg3 arg4 harg4 arg5 harg5 arg6 harg6 hc0 hc1 x0 x1 xs0).2.2.1)

section Region
-- the TensorCore's buffer contents when the region is entered
variable (V : (c : Dev nD) → (b : Ref sig .tc) → Buf (Elt F) ((c : Thread nD τ).loc b))

/-! ## What the outputs and the accumulator hold after each point -/

/-- What the two outputs' staging buffers and the accumulator hold after the body at position `n` (the first output,
    the second output, the accumulator): the case the point is in, run at the point's memrefs and input blocks, the
    accumulator it finds being what the point before left. -/
def outsAt0 (c : Dev nD) : (n : ℕ) → n < cfg0.N → Vec F S1024x128 .bf16 × Vec F S1024x1024 .bf16 × Vec F S1024x128 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 4 = 0 then
      if h1 : (n + 1) % 4 = 3 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2)

/-- `outsAt0` at a point of case A. -/
theorem outsAt0_A (c : Dev nD) (t : Fin cfg0.N) (h0 : t.val % 4 = 0) (h1 : ¬t.val % 4 = 3) :
    outsAt0 V c t.val t.isLt = (out0_A_2 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t), out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point of case B: over what the point before left. -/
theorem outsAt0_B (c : Dev nD) (t : Fin cfg0.N) (h0 : ¬t.val % 4 = 0) (h1 : ¬t.val % 4 = 3) :
    outsAt0 V c t.val t.isLt = (out0_B_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2, out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: over what the point before left. -/
theorem outsAt0_C (c : Dev nD) (t : Fin cfg0.N) (h0 : ¬t.val % 4 = 0) (h1 : t.val % 4 = 3) :
    outsAt0 V c t.val t.isLt = (out0_C_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2, out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scoped buffer at anything);
    afterwards the accumulator at what the point before left in it, the other scoped buffers at anything, the generator
    register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ Rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2) ∗ Rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ Rest0 c) ∗ (∃ r, prngReg c r)) := by
  cases n with
  | zero => exact absurd rfl hz
  | succ n => rfl

/-! ## The pipeline's proof data -/

/-- The proof data of pipeline 0 on core `c`: the arrays as the region finds them (`V`); after the body at point
    `t` each input's buffer at its block and the outputs' at `outsAt0`; the invariant `PhiS0`; nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 8000000 in
/-- The body at any point: the inputs' memrefs hold their blocks; the point is in one of the three cases, whose run
    applies; the invariant hands the body the accumulator at what the point before left (at anything at the first
    point) and takes it back at this point's contents; the other scoped buffers, the generator register and what the
    core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
        unfold Dat.leavesExact; rw [liveAt0_0 t], after0_0]
  rw [show (dat0 V c).leavesExact 1 t = owns (c : Thread nD τ) (ms0_1 t) fullShare ((dat0 V c).after 1 t) from by
        unfold Dat.leavesExact; rw [liveAt0_1 t], after0_1]
  rw [show (dat0 V c).leavesExact 3 t = owns (c : Thread nD τ) (ms0_3 t) fullShare ((dat0 V c).after 3 t) from by
        unfold Dat.leavesExact; rw [liveAt0_3 t], after0_3]
  by_cases h0 : t.val % 4 = 0
  · by_cases h1 : t.val % 4 = 3
    · exfalso; omega
    · rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0 out0_A_3; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t)).2.2.2 _ Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _)
            iexact HR
          iexact Hg
        isplitl [Ho]; · iexact Ho
        isplitl [H0]; · iexact H0
        isplitl [H1]; · iexact H1
        isplitl [H2]
        · iexists _; iexact H2
        unfold owns; iexists _; isplitr
        swap; · iexact H3
        ipureintro; exact View.read_writes_of_cover _ _ _ _ _ (cover0_A_3 c _ _ _ _ _ _ _ _ _ _ _ _ _ _ _)
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t)).2.2.2 _ Set.univ _)
        isplitl [H0]; · iexact H0
        isplitl [H1]; · iexact H1
        isplitl [H2]; · iexact H2
        isplitl [H3]; · iexists _; iexact H3
        isplitl [HS0]; · iexists _; iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _)
            iexact HR
          iexact Hg
        isplitl [Ho]; · iexact Ho
        isplitl [H0]; · iexact H0
        isplitl [H1]; · iexact H1
        isplitl [H2]
        · iexists _; iexact H2
        unfold owns; iexists _; isplitr
        swap; · iexact H3
        ipureintro; exact View.read_writes_of_cover _ _ _ _ _ (cover0_A_3 c _ _ _ _ _ _ _ _ _ _ _ _ _ _ _)
  · by_cases h1 : t.val % 4 = 3
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 out0_C_3 sout0_C_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk0 V c 0 t) (iblk0 V c 1 t) _).2.2.2 Set.univ _)
        isplitl [H0]; · iexact H0
        isplitl [H1]; · iexact H1
        isplitl [H2]; · iexists _; iexact H2
        isplitl [H3]; · iexists _; iexact H3
        isplitl [HS0]; · iexact HS0
        iintro ⟨H0, H1, ⟨%e2, H2⟩, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_C_2 c _ _ _ _ _ _ _ _ _ _ _ _ _ _ _ _)
        unfold owns; iexists _; isplitr
        swap; · iexact H3
        ipureintro; exact View.read_writes_of_cover _ _ _ _ _ (cover0_C_3 c _ _ _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0 out0_B_3; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk0 V c 0 t) (iblk0 V c 1 t) _).2.2.2 _ Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _)
            iexact HR
          iexact Hg
        isplitl [Ho]; · iexact Ho
        isplitl [H0]; · iexact H0
        isplitl [H1]; · iexact H1
        isplitl [H2]
        · iexists _; iexact H2
        unfold owns; iexists _; isplitr
        swap; · iexact H3
        ipureintro; exact View.read_writes_of_cover _ _ _ _ _ (cover0_B_3 c _ _ _ _ _ _ _ _ _ _ _ _ _ _ _ _)

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Region

end Cert.Kernel.Hand

end
-- ==== Proof.K.R1Kit.lean ====
import proofs.«108895_j83004537962674_2_alg».proof.Proof.Gen.Kernel.Launch
import proofs.«108895_j83004537962674_2_alg».proof.Proof.Gen.Kernel.Skeleton
import proofs.«108895_j83004537962674_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not: where it
    is not fetched its block index has not moved since the previous point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The first conditional's condition (first step of the reduction axis), from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional's condition (last step of the reduction axis). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem idleAt1_7_A : ∀ t : Fin cfg1.N, cond1_0 (grid1.coords t) → ¬cond1_1 (grid1.coords t) → cfg1.idle 7 (grid1.coords t) = true := by decide +kernel
theorem noFlush1_7_A : ∀ t : Fin cfg1.N, cond1_0 (grid1.coords t) → ¬cond1_1 (grid1.coords t) → (cfg1.win 7).flush t = false := by decide +kernel
theorem idleAt1_7_B : ∀ t : Fin cfg1.N, ¬cond1_0 (grid1.coords t) → ¬cond1_1 (grid1.coords t) → cfg1.idle 7 (grid1.coords t) = true := by decide +kernel
theorem noFlush1_7_B : ∀ t : Fin cfg1.N, ¬cond1_0 (grid1.coords t) → ¬cond1_1 (grid1.coords t) → (cfg1.win 7).flush t = false := by decide +kernel
theorem liveAt1_7_C : ∀ t : Fin cfg1.N, ¬cond1_0 (grid1.coords t) → cond1_1 (grid1.coords t) → cfg1.idle 7 (grid1.coords t) = false := by decide +kernel

/-! ## The staging and scratch memrefs -/

/-- One staging buffer of the output window, through which its contents are stated. -/
abbrev VO1_7 : View sig .tc .vmem S1024x1024 .f32 := (Memref.whole cc1_stg7_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x1024 .f32 := win1_7.stage (cfg1.slots t 7)
abbrev hs1_7 (t : Fin cfg1.N) : (ms1_7 t).IsWhole := hstage1_7 ((cfg1.slots t 7).cast nbuf1_7)
/-- The scratch accumulator: a whole scoped buffer of the kernel's own. -/
abbrev scM1_0 : Memref sig .tc .vmem S1024x1024 .f32 := Memref.whole cc1_scratch0
abbrev VS1_0 : View sig .tc .vmem S1024x1024 .f32 := scM1_0.view

/-! ## The scoped rest -/

/-- The core's scoped buffers that are neither a staging buffer of this call nor its scratch, each whole at some
    contents: the body never touches them. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- What the launch hands the region, with the scratch accumulator as a memref owned at some contents. -/
theorem PhiA1_in (c : Dev nD) :
    (Pipeline.ΦA spec1 c : sProp 𝕄) ⊢ iprop(iprop(Rest1 (F := F) c ∗ (∃ d, owns (c : Thread nD τ) scM1_0 fullShare d)) ∗ (∃ r, prngReg c r)) := by
  unfold Pipeline.ΦA Rest1; rw [scopedRest1_eq]; simp only [scM1_0, owns_whole]
  iintro ⟨⟨R0, R1, R2, R3, R4, R5, R6, R7, R8, HS⟩, Hg⟩
  isplitr [Hg]
  · isplitr [HS]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      iexact R8
    · iexact HS
  · iexact Hg

/-- And back. -/
theorem PhiA1_out (c : Dev nD) :
    iprop(iprop(Rest1 (F := F) c ∗ (∃ d, owns (c : Thread nD τ) scM1_0 fullShare d)) ∗ (∃ r, prngReg c r)) ⊢ (Pipeline.ΦA spec1 c : sProp 𝕄) := by
  unfold Pipeline.ΦA Rest1; rw [scopedRest1_eq]; simp only [scM1_0, owns_whole]
  iintro ⟨⟨⟨R0, R1, R2, R3, R4, R5, R6, R7, R8⟩, HS⟩, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact HS
  · iexact Hg

end Cert.Kernel.Hand

end
-- ==== Proof.K.R1RunA.lean ====
import proofs.«108895_j83004537962674_2_alg».proof.Proof.K.R1Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case A (first conditional taken, second not taken): on whole memrefs, the two matrix
    operands at their contents and the accumulator at anything, it runs to the continuation holding
    the operands as they were and the accumulator with the pieces written; the pieces are the witness. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : cond1_0 i) (hc1 : ¬cond1_1 i)
    (x0 : Vec F S1024x1024 .bf16) (x1 : Vec F S1024x1024 .bf16) :
    { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg11 fullShare d)
            ∗ (iprop(owns (c : Thread nD τ) arg3 fullShare x0 ∗ owns (c : Thread nD τ) arg4 fullShare x1 ∗ (∃ f, arg11.view.loc (c : Thread nD τ) ↦[arg11.view.set]{fullShare} arg11.view.writes (Elt F) f LS0)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10 arg11 harg11) K } := by
  refine ⟨?_, fun E K => ?run⟩
  case run =>
    simp only [cc1__main_kernel_eq_skeleton]; unfold cc1__main_kernel_skel
    unfold owns
    iintro ⟨⟨%f0, %hf0, H0⟩, ⟨%f1, %hf1, H1⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.Kernel.Hand

end
-- ==== Proof.K.R1RunB.lean ====
import proofs.«108895_j83004537962674_2_alg».proof.Proof.K.R1Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case B (first conditional not taken, second not taken): on whole memrefs, the two matrix
    operands at their contents and the accumulator at what the point before left, it runs to the continuation holding
    the operands as they were and the accumulator with the pieces written; the pieces are the witness. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond1_0 i) (hc1 : ¬cond1_1 i)
    (x0 : Vec F S1024x1024 .bf16) (x1 : Vec F S1024x1024 .bf16) (xs0 : Vec F S1024x1024 .f32) :
    { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg11 fullShare xs0
            ∗ (iprop(owns (c : Thread nD τ) arg3 fullShare x0 ∗ owns (c : Thread nD τ) arg4 fullShare x1 ∗ (∃ f, arg11.view.loc (c : Thread nD τ) ↦[arg11.view.set]{fullShare} arg11.view.writes (Elt F) f LS0)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10 arg11 harg11) K } := by
  refine ⟨?_, fun E K => ?run⟩
  case run =>
    simp only [cc1__main_kernel_eq_skeleton]; unfold cc1__main_kernel_skel
    unfold owns
    iintro ⟨⟨%f0, %hf0, H0⟩, ⟨%f1, %hf1, H1⟩, ⟨%fs0, %hfs0, HS0⟩, Hk⟩
    obtain rfl := harg3.eq_unread hf0; obtain rfl := harg4.eq_unread hf1; obtain rfl := harg11.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.Kernel.Hand

end
-- ==== Proof.K.R1RunC.lean ====
import proofs.«108895_j83004537962674_2_alg».proof.Proof.K.R1Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case C (first conditional not taken, second taken): on whole memrefs, every operand at its contents,
    the output's at anything and the accumulator at what the point before left, it runs to the continuation holding the
    operands as they were and the output and the accumulator with the pieces written; the pieces are the witness. -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond1_0 i) (hc1 : cond1_1 i)
    (x0 : Vec F S1024x1024 .bf16) (x1 : Vec F S1024x1024 .bf16) (x2 : Vec F S1024x128 .bf16) (x3 : Vec F S128x1024 .bf16) (x4 : Vec F S128x1024 .bf16) (x5 : Vec F S1x1024 .f32) (x6 : Vec F S1x1024 .f32) (xs0 : Vec F S1024x1024 .f32) :
    Σ' (L7 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10 arg11 harg11) K } := by
  refine ⟨?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    iexists _; iexact HS0

end Cert.Kernel.Hand

end
-- ==== Proof.K.R1Body.lean ====
import proofs.«108895_j83004537962674_2_alg».proof.Proof.K.R1RunA
import proofs.«108895_j83004537962674_2_alg».proof.Proof.K.R1RunB
import proofs.«108895_j83004537962674_2_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the accumulator and the output -/

/-- The output window's buffer where the body stores nothing into it (the window is idle there and not written
    back): a placeholder nothing consults. -/
def out1_idle_7 : Vec F S1024x1024 .f32 := VO1_7.read (Elt F) VO1_7.junk

theorem scover1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : cond1_0 i) (hc1 : ¬cond1_1 i) (x0 : Vec F S1024x1024 .bf16) (x1 : Vec F S1024x1024 .bf16) (y : S1024x1024.Idx) :
    ∃ pc ∈ (kernelRun1_A c i arg3 harg3 arg4 harg4 arg5 harg5 arg6 harg6 arg7 harg7 arg8 harg8 arg9 harg9 arg10 harg10 arg11 harg11 hc0 hc1 x0 x1).1, y ∈ pc.1.set :=
  View.cover_of_tiledL (kernelRun1_A c i arg3 harg3 arg4 harg4 arg5 harg5 arg6 harg6 arg7 harg7 arg8 harg8 arg9 harg9 arg10 harg10 arg11 harg11 hc0 hc1 x0 x1).1 S1024x1024.size (by sl_kernel_rfl) y
/-- What case A leaves in the accumulator: its pieces read back. -/
def sout1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : cond1_0 i) (hc1 : ¬cond1_1 i) (x0 : Vec F S1024x1024 .bf16) (x1 : Vec F S1024x1024 .bf16) : Vec F S1024x1024 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 hc0 hc1 x0 x1).1)

theorem scover1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond1_0 i) (hc1 : ¬cond1_1 i) (x0 : Vec F S1024x1024 .bf16) (x1 : Vec F S1024x1024 .bf16) (xs0 : Vec F S1024x1024 .f32) (y : S1024x1024.Idx) :
    ∃ pc ∈ (kernelRun1_B c i arg3 harg3 arg4 harg4 arg5 harg5 arg6 harg6 arg7 harg7 arg8 harg8 arg9 harg9 arg10 harg10 arg11 harg11 hc0 hc1 x0 x1 xs0).1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 xs0).1 S1024x1024.size (by sl_kernel_rfl) y
/-- What case B leaves in the accumulator. -/
def sout1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond1_0 i) (hc1 : ¬cond1_1 i) (x0 : Vec F S1024x1024 .bf16) (x1 : Vec F S1024x1024 .bf16) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 hc0 hc1 x0 x1 xs0).1)

theorem cover1_C_7 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond1_0 i) (hc1 : cond1_1 i) (x0 : Vec F S1024x1024 .bf16) (x1 : Vec F S1024x1024 .bf16) (x2 : Vec F S1024x128 .bf16) (x3 : Vec F S128x1024 .bf16) (x4 : Vec F S128x1024 .bf16) (x5 : Vec F S1x1024 .f32) (x6 : Vec F S1x1024 .f32) (xs0 : Vec F S1024x1024 .f32) (y : S1024x1024.Idx) :
    ∃ pc ∈ (kernelRun1_C c i arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 x5 x6 xs0).1 S1024x1024.size (by sl_kernel_rfl) y
/-- What case C leaves in the output window's buffer. -/
def out1_C_7 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond1_0 i) (hc1 : cond1_1 i) (x0 : Vec F S1024x1024 .bf16) (x1 : Vec F S1024x1024 .bf16) (x2 : Vec F S1024x128 .bf16) (x3 : Vec F S128x1024 .bf16) (x4 : Vec F S128x1024 .bf16) (x5 : Vec F S1x1024 .f32) (x6 : Vec F S1x1024 .f32) (xs0 : Vec F S1024x1024 .f32) : Vec F S1024x1024 .f32 :=
  VO1_7.read (Elt F) (VO1_7.writes (Elt F) VO1_7.junk (kernelRun1_C c i arg3 harg3 arg4 harg4 arg5 harg5 arg6 harg6 arg7 harg7 arg8 harg8 arg9 harg9 arg10 harg10 arg11 harg11 hc0 hc1 x0 x1 x2 x3 x4 x5 x6 xs0).1)
theorem scover1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond1_0 i) (hc1 : cond1_1 i) (x0 : Vec F S1024x1024 .bf16) (x1 : Vec F S1024x1024 .bf16) (x2 : Vec F S1024x128 .bf16) (x3 : Vec F S128x1024 .bf16) (x4 : Vec F S128x1024 .bf16) (x5 : Vec F S1x1024 .f32) (x6 : Vec F S1x1024 .f32) (xs0 : Vec F S1024x1024 .f32) (y : S1024x1024.Idx) :
    ∃ pc ∈ (kernelRun1_C c i arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 x5 x6 xs0).2.1 S1024x1024.size (by sl_kernel_rfl) y
/-- What case C leaves in the accumulator. -/
def sout1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond1_0 i) (hc1 : cond1_1 i) (x0 : Vec F S1024x1024 .bf16) (x1 : Vec F S1024x1024 .bf16) (x2 : Vec F S1024x128 .bf16) (x3 : Vec F S128x1024 .bf16) (x4 : Vec F S128x1024 .bf16) (x5 : Vec F S1x1024 .f32) (x6 : Vec F S1x1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 hc0 hc1 x0 x1 x2 x3 x4 x5 x6 xs0).2.1)

section Region1
variable (V : (c : Dev nD) → (b : Ref sig .tc) → Buf (Elt F) ((c : Thread nD τ).loc b))

/-! ## What the output and the accumulator hold after each point -/

/-- The accumulation: the output window's buffer and the accumulator after the body at position `n`: the case the
    position is in (by `n % 4`), run at the point's memrefs and input blocks over what the point before left. -/
def outsAt1 (c : Dev nD) : (n : ℕ) → n < cfg1.N → Vec F S1024x1024 .f32 × Vec F S1024x1024 .f32
  | 0, hn => (out1_idle_7, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_idle_7, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)
      else
        (out1_idle_7, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_idle_7, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_idle_7, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scoped rest with the accumulator at
    anything; afterwards with the accumulator at what the point before left; the generator register at some state. -/
def PhiS1 (c : Dev nD) : (n : ℕ) → n ≤ cfg1.N → sProp 𝕄
  | 0, _ => iprop(iprop(Rest1 (F := F) c ∗ (∃ d, owns (c : Thread nD τ) scM1_0 fullShare d)) ∗ (∃ r, prngReg c r))
  | n + 1, hn => iprop(iprop(Rest1 (F := F) c ∗ owns (c : Thread nD τ) scM1_0 fullShare ((outsAt1 V c n hn).2)) ∗ (∃ r, prngReg c r))

theorem PhiS1_zero (c : Dev nD) (n : ℕ) (h : n ≤ cfg1.N) (hz : n = 0) :
    PhiS1 V c n h = iprop(iprop(Rest1 (F := F) c ∗ (∃ d, owns (c : Thread nD τ) scM1_0 fullShare d)) ∗ (∃ r, prngReg c r)) := by
  subst hz; rfl

theorem PhiS1_succ (c : Dev nD) (n : ℕ) (hn : n < cfg1.N) :
    PhiS1 V c (n + 1) hn = iprop(iprop(Rest1 (F := F) c ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop(Rest1 (F := F) c ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of this pipeline on core `c`: the arrays as the region finds them; after the body at point `t`
    each input's buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 8000000 in
/-- The body at any point: the inputs' memrefs hold their blocks; `t % 4` says which case the point is in; the
    invariant hands the body the accumulator at what the point before left (at anything at the first point) and takes
    it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h0 : t.val % 4 = 0
  · by_cases h1 : t.val % 4 = 3
    · exfalso; omega
    · rw [Dat.leavesExact_idle (dat1 V c) 7 t (idleAt1_7_A t ((hcond1_0 t).mpr h0) (fun h => h1 ((hcond1_1 t).mp h))) (noFlush1_7_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz]
        iintro ⟨⟨⟨HR, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t)).2 Set.univ _)
        isplitl [H0]; · iexact H0
        isplitl [H1]; · iexact H1
        isplitl [HS0]; · iexact HS0
        iintro ⟨H0, H1, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_A_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · rw [PhiS1_castSucc V c t, PhiS1_pos V c _ _ hz]
        iintro ⟨⟨⟨HR, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t)).2 Set.univ _)
        isplitl [H0]; · iexact H0
        isplitl [H1]; · iexact H1
        isplitl [HS0]; · iexists _; iexact HS0
        iintro ⟨H0, H1, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_A_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · by_cases h1 : t.val % 4 = 3
    · rw [show (dat1 V c).leavesExact 7 t = owns (c : Thread nD τ) (ms1_7 t) fullShare ((dat1 V c).after 7 t) from by
        unfold Dat.leavesExact; rw [liveAt1_7_C t (fun h => h0 ((hcond1_0 t).mp h)) ((hcond1_1 t).mpr h1)], after1_7]
      rw [outsAt1_C V c t h0 h1]
      unfold out1_C_7 sout1_C_0; (try dsimp only)
      have hz : t.val ≠ 0 := by omega
      rw [PhiS1_castSucc V c t, PhiS1_pos V c _ _ hz]
      · iintro ⟨⟨⟨HR, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        iintro ⟨H0, H1, H2, H3, H4, H5, H6, ⟨%e7, H7⟩, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover1_C_7 c _ _ _ _ _ _ _ _ _ _ _ _ _ _ _ _ _ _ _ _ _ _ _ _ _ _ _ _ _)
    · rw [Dat.leavesExact_idle (dat1 V c) 7 t (idleAt1_7_B t (fun h => h0 ((hcond1_0 t).mp h)) (fun h => h1 ((hcond1_1 t).mp h))) (noFlush1_7_B t (fun h => h0 ((hcond1_0 t).mp h)) (fun h => h1 ((hcond1_1 t).mp h)))]
      rw [outsAt1_B V c t h0 h1]
      unfold sout1_B_0; (try dsimp only)
      have hz : t.val ≠ 0 := by omega
      rw [PhiS1_castSucc V c t, PhiS1_pos V c _ _ hz]
      · iintro ⟨⟨⟨HR, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) _).2 Set.univ _)
        isplitl [H0]; · iexact H0
        isplitl [H1]; · iexact H1
        isplitl [HS0]; · iexact HS0
        iintro ⟨H0, H1, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_B_0 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  exact PhiA1_in c

/-- After any point but the first the invariant gives the launch's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine BIBase.Entails.trans ?_ (PhiA1_out c)
  iintro ⟨⟨HR, HS0⟩, Hg⟩
  isplitl [HR HS0]
  · isplitl [HR]; · iexact HR
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Region1

end Cert.Kernel.Hand

end
-- ==== Proof.K.Frame.lean ====
/-
  The run of the whole program: @main is three stretches of host operations, the two kernel regions, and one last
  reshape. The buffer contents at each boundary are a fold from the launch memory: a host stretch applies its
  operations; a region leaves each of its windows' arrays at what its write-backs make of it and every other buffer
  as it found it. Each region is entered with every unscoped buffer held at the boundary's contents, the generator
  register at some state and nothing owed, and is left in the same form; its invariant is the kernel's own
  (the scratch accumulator at the contents the point before left), which begins and ends as the plain scoped rest.
  The conclusion names every unscoped buffer's final contents, so both the frame claim (the arguments end as
  launched: no operation and no region writes one) and the value of the result buffer are read off it.
-/
import proofs.«108895_j83004537962674_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«108895_j83004537962674_2_alg».proof.Proof.K.R0Body
import proofs.«108895_j83004537962674_2_alg».proof.Proof.K.R1Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers when region 0 is entered: the launch memory after the three host stretches. -/
abbrev W3 : Dev nD → Valuation τ sig (Elt F) := fun c => V3 m c
/-- The same read at the TensorCore's references. -/
abbrev VA : (c : Dev nD) → (b : Ref sig .tc) → Buf (Elt F) ((c : Thread nD τ).loc b) := fun c b => W3 m c b
/-- At region 0's exit: its arrays at what the pipeline leaves, every other buffer as entered. -/
def W4 (c : Dev nD) : Valuation τ sig (Elt F) :=
  Pipeline.withArrays spec0 c (W3 m c) fun w => (dat0 (VA m) c).arrAt w cfg0.N
theorem W4_arr (c : Dev nD) (w : Fin cfg0.W) :
    W4 m c (Proc.devRef .tc (Pipeline.arrRef spec0 w)) = (dat0 (VA m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- Region 0's exit contents = region 1's entry contents, read at the TensorCore's references. -/
abbrev VB : (c : Dev nD) → (b : Ref sig .tc) → Buf (Elt F) ((c : Thread nD τ).loc b) := fun c b => W4 m c b
theorem hF0 (c : Dev nD) (w : Fin cfg0.W) : (dat0 (VA m) c).arrAt w cfg0.N = VB m c (Pipeline.arrRef spec0 w) :=
  (W4_arr m c w).symm
theorem hrest0 (c : Dev nD) : ∀ b, b ∉ Finset.univ.image (Pipeline.arrRef spec0) → VB m c b = VA m c b :=
  fun b hb => W4_of_ne m c b fun w e => hb (Finset.mem_image.mpr ⟨w, Finset.mem_univ _, e⟩)

/-- At region 1's exit: its arrays at what the pipeline leaves, every other buffer as entered. -/
def W5 (c : Dev nD) : Valuation τ sig (Elt F) :=
  Pipeline.withArrays spec1 c (W4 m c) fun w => (dat1 (VB m) c).arrAt w cfg1.N
theorem W5_arr (c : Dev nD) (w : Fin cfg1.W) :
    W5 m c (Proc.devRef .tc (Pipeline.arrRef spec1 w)) = (dat1 (VB m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev VC : (c : Dev nD) → (b : Ref sig .tc) → Buf (Elt F) ((c : Thread nD τ).loc b) := fun c b => W5 m c b
theorem hF1 (c : Dev nD) (w : Fin cfg1.W) : (dat1 (VB m) c).arrAt w cfg1.N = VC m c (Pipeline.arrRef spec1 w) :=
  (W5_arr m c w).symm
theorem hrest1 (c : Dev nD) : ∀ b, b ∉ Finset.univ.image (Pipeline.arrRef spec1) → VC m c b = VB m c b :=
  fun b hb => W5_of_ne m c b fun w e => hb (Finset.mem_image.mpr ⟨w, Finset.mem_univ _, e⟩)
/-- After the last reshape. -/
abbrev W6 : Dev nD → Valuation τ sig (Elt F) := fun c => StableHlo.after hostOps2 (W5 m c)

/-! ### The arguments end as launched -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_writes_sub hostOps2 _ hostOps2_writes (by decide)
    _ = W4 m c (Proc.devRef .tc main_arg0) := W5_of_ne m c main_arg0 (by decide)
    _ = W3 m c (Proc.devRef .tc main_arg0) := W4_of_ne m c main_arg0 (by decide)
    _ = m ((c : Thread nD τ).loc main_arg0) := (V3_of m c main_arg0 (by decide)).trans <| (V2_of m c main_arg0 (by decide)).trans <| (V1_of m c main_arg0 (by decide)).trans rfl
theorem W6_main_arg1 (c : Dev nD) : W6 m c (Proc.devRef .tc main_arg1) = m ((c : Thread nD τ).loc main_arg1) :=
  calc W6 m c (Proc.devRef .tc main_arg1)
    _ = W5 m c (Proc.devRef .tc main_arg1) := StableHlo.after_of_writes_sub hostOps2 _ hostOps2_writes (by decide)
    _ = W4 m c (Proc.devRef .tc main_arg1) := W5_of_ne m c main_arg1 (by decide)
    _ = W3 m c (Proc.devRef .tc main_arg1) := W4_of_ne m c main_arg1 (by decide)
    _ = m ((c : Thread nD τ).loc main_arg1) := (V3_of m c main_arg1 (by decide)).trans <| (V2_of m c main_arg1 (by decide)).trans <| (V1_of m c main_arg1 (by decide)).trans rfl
theorem W6_main_arg2 (c : Dev nD) : W6 m c (Proc.devRef .tc main_arg2) = m ((c : Thread nD τ).loc main_arg2) :=
  calc W6 m c (Proc.devRef .tc main_arg2)
    _ = W5 m c (Proc.devRef .tc main_arg2) := StableHlo.after_of_writes_sub hostOps2 _ hostOps2_writes (by decide)
    _ = W4 m c (Proc.devRef .tc main_arg2) := W5_of_ne m c main_arg2 (by decide)
    _ = W3 m c (Proc.devRef .tc main_arg2) := W4_of_ne m c main_arg2 (by decide)
    _ = m ((c : Thread nD τ).loc main_arg2) := (V3_of m c main_arg2 (by decide)).trans <| (V2_of m c main_arg2 (by decide)).trans <| (V1_of m c main_arg2 (by decide)).trans rfl
theorem W6_main_arg3 (c : Dev nD) : W6 m c (Proc.devRef .tc main_arg3) = m ((c : Thread nD τ).loc main_arg3) :=
  calc W6 m c (Proc.devRef .tc main_arg3)
    _ = W5 m c (Proc.devRef .tc main_arg3) := StableHlo.after_of_writes_sub hostOps2 _ hostOps2_writes (by decide)
    _ = W4 m c (Proc.devRef .tc main_arg3) := W5_of_ne m c main_arg3 (by decide)
    _ = W3 m c (Proc.devRef .tc main_arg3) := W4_of_ne m c main_arg3 (by decide)
    _ = m ((c : Thread nD τ).loc main_arg3) := (V3_of m c main_arg3 (by decide)).trans <| (V2_of m c main_arg3 (by decide)).trans <| (V1_of m c main_arg3 (by decide)).trans rfl
theorem W6_main_arg4 (c : Dev nD) : W6 m c (Proc.devRef .tc main_arg4) = m ((c : Thread nD τ).loc main_arg4) :=
  calc W6 m c (Proc.devRef .tc main_arg4)
    _ = W5 m c (Proc.devRef .tc main_arg4) := StableHlo.after_of_writes_sub hostOps2 _ hostOps2_writes (by decide)
    _ = W4 m c (Proc.devRef .tc main_arg4) := W5_of_ne m c main_arg4 (by decide)
    _ = W3 m c (Proc.devRef .tc main_arg4) := W4_of_ne m c main_arg4 (by decide)
    _ = m ((c : Thread nD τ).loc main_arg4) := (V3_of m c main_arg4 (by decide)).trans <| (V2_of m c main_arg4 (by decide)).trans <| (V1_of m c main_arg4 (by decide)).trans rfl
theorem W6_main_arg5 (c : Dev nD) : W6 m c (Proc.devRef .tc main_arg5) = m ((c : Thread nD τ).loc main_arg5) :=
  calc W6 m c (Proc.devRef .tc main_arg5)
    _ = W5 m c (Proc.devRef .tc main_arg5) := StableHlo.after_of_writes_sub hostOps2 _ hostOps2_writes (by decide)
    _ = W4 m c (Proc.devRef .tc main_arg5) := W5_of_ne m c main_arg5 (by decide)
    _ = W3 m c (Proc.devRef .tc main_arg5) := W4_of_ne m c main_arg5 (by decide)
    _ = m ((c : Thread nD τ).loc main_arg5) := (V3_of m c main_arg5 (by decide)).trans <| (V2_of m c main_arg5 (by decide)).trans <| (V1_of m c main_arg5 (by decide)).trans rfl
theorem W6_main_arg6 (c : Dev nD) : W6 m c (Proc.devRef .tc main_arg6) = m ((c : Thread nD τ).loc main_arg6) :=
  calc W6 m c (Proc.devRef .tc main_arg6)
    _ = W5 m c (Proc.devRef .tc main_arg6) := StableHlo.after_of_writes_sub hostOps2 _ hostOps2_writes (by decide)
    _ = W4 m c (Proc.devRef .tc main_arg6) := W5_of_ne m c main_arg6 (by decide)
    _ = W3 m c (Proc.devRef .tc main_arg6) := W4_of_ne m c main_arg6 (by decide)
    _ = m ((c : Thread nD τ).loc main_arg6) := (V3_of m c main_arg6 (by decide)).trans <| (V2_of m c main_arg6 (by decide)).trans <| (V1_of m c main_arg6 (by decide)).trans rfl
theorem W6_main_arg7 (c : Dev nD) : W6 m c (Proc.devRef .tc main_arg7) = m ((c : Thread nD τ).loc main_arg7) :=
  calc W6 m c (Proc.devRef .tc main_arg7)
    _ = W5 m c (Proc.devRef .tc main_arg7) := StableHlo.after_of_writes_sub hostOps2 _ hostOps2_writes (by decide)
    _ = W4 m c (Proc.devRef .tc main_arg7) := W5_of_ne m c main_arg7 (by decide)
    _ = W3 m c (Proc.devRef .tc main_arg7) := W4_of_ne m c main_arg7 (by decide)
    _ = m ((c : Thread nD τ).loc main_arg7) := (V3_of m c main_arg7 (by decide)).trans <| (V2_of m c main_arg7 (by decide)).trans <| (V1_of m c main_arg7 (by decide)).trans rfl
theorem W6_main_arg8 (c : Dev nD) : W6 m c (Proc.devRef .tc main_arg8) = m ((c : Thread nD τ).loc main_arg8) :=
  calc W6 m c (Proc.devRef .tc main_arg8)
    _ = W5 m c (Proc.devRef .tc main_arg8) := StableHlo.after_of_writes_sub hostOps2 _ hostOps2_writes (by decide)
    _ = W4 m c (Proc.devRef .tc main_arg8) := W5_of_ne m c main_arg8 (by decide)
    _ = W3 m c (Proc.devRef .tc main_arg8) := W4_of_ne m c main_arg8 (by decide)
    _ = m ((c : Thread nD τ).loc main_arg8) := (V3_of m c main_arg8 (by decide)).trans <| (V2_of m c main_arg8 (by decide)).trans <| (V1_of m c main_arg8 (by decide)).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: entered from every unscoped buffer at `W3`, left at `W4`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (show Pipeline.ΦA spec0 c ⊢ (pdats m 0 c).Φ 0 from hin0 (VA m) c)
    show iprop((∃ r, prngReg c r) ∗ Pipeline.prefHeld (pcfgs (F := F) 0).pre c (fun _ => fullShare) (adm 0).1 ∗ Pipeline.scopedRest spec0 c) ⊢ iprop(Pipeline.scopedRest spec0 c ∗ ∃ r, prngReg c r)
    iintro ⟨Hp, -, Hr⟩
    isplitl [Hr]; · iexact Hr
    iexact Hp
  hout c := by
    rw [Pipeline.ownSems0_none]
    refine BI.Entails.trans (show (pdats m 0 c).Φ (Fin.last _) ⊢ Pipeline.ΦA spec0 c from hout0 (VA m) c) ?_
    show iprop(Pipeline.scopedRest spec0 c ∗ ∃ r, prngReg c r) ⊢ iprop((∃ r, prngReg c r) ∗ BI.emp ∗ Pipeline.scopedRest spec0 c)
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W4`, left at `W5`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (show Pipeline.ΦA spec1 c ⊢ (pdats m 1 c).Φ 0 from hin1 (VB m) c)
    show iprop((∃ r, prngReg c r) ∗ Pipeline.prefHeld (pcfgs (F := F) 1).pre c (fun _ => fullShare) (adm 1).1 ∗ Pipeline.scopedRest spec1 c) ⊢ iprop(Pipeline.scopedRest spec1 c ∗ ∃ r, prngReg c r)
    iintro ⟨Hp, -, Hr⟩
    isplitl [Hr]; · iexact Hr
    iexact Hp
  hout c := by
    rw [Pipeline.ownSems0_none]
    refine BI.Entails.trans (show (pdats m 1 c).Φ (Fin.last _) ⊢ Pipeline.ΦA spec1 c from hout1 (VB m) c) ?_
    show iprop(Pipeline.scopedRest spec1 c ∗ ∃ r, prngReg c r) ⊢ iprop((∃ r, prngReg c r) ∗ BI.emp ∗ Pipeline.scopedRest spec1 c)
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (VC m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .region (reg0 m),
    .region (reg1 m),
    .host (hseg hostOps2 hostOps2_sub hostOps2_fresh (W5 m)) ]

set_option backward.isDefEq.respectTransparency.types false in
/-- THE RUN: from any memory with zero counters every weakly fair execution of @main terminates, nothing faulting,
    and every final state holds every unscoped buffer of every core at the fold's last contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c _ (mem_uc main_arg0 (by decide))).trans (W6_main_arg0 m c),
    (h c _ (mem_uc main_arg1 (by decide))).trans (W6_main_arg1 m c),
    (h c _ (mem_uc main_arg2 (by decide))).trans (W6_main_arg2 m c),
    (h c _ (mem_uc main_arg3 (by decide))).trans (W6_main_arg3 m c),
    (h c _ (mem_uc main_arg4 (by decide))).trans (W6_main_arg4 m c),
    (h c _ (mem_uc main_arg5 (by decide))).trans (W6_main_arg5 m c),
    (h c _ (mem_uc main_arg6 (by decide))).trans (W6_main_arg6 m c),
    (h c _ (mem_uc main_arg7 (by decide))).trans (W6_main_arg7 m c),
    (h c _ (mem_uc main_arg8 (by decide))).trans (W6_main_arg8 m c)⟩) (run_all m ρ)

end Cert.Kernel.Hand

end
-- ==== Proof.KI.R0Kit.lean ====
import proofs.«108895_j83004537962674_2_alg».proof.Proof.Gen.KernelIdeal.Launch
import proofs.«108895_j83004537962674_2_alg».proof.Proof.Gen.KernelIdeal.Skeleton
import proofs.«108895_j83004537962674_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the first kernel call, at the entry contents `V` — what the case runs share -/

section Blocks
-- the TensorCore's buffer contents when the region is entered
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The body's branch conditions -/

/-- The condition of the body's first `scf.if` (the reduction index is 0), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The condition of the body's second `scf.if` (the reduction index is the last). -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_3 : ∀ t : Fin cfg0.N, cfg0.idle 3 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The staging and scratch memrefs -/

/-- One staging buffer of each output window, through which its contents are stated. -/
abbrev VO0_2 : View sig .tc .vmem S1024x128 .bf16 := (Memref.whole cc0_stg2_0 : Memref sig .tc .vmem S1024x128 .bf16).view
abbrev VO0_3 : View sig .tc .vmem S1024x1024 .bf16 := (Memref.whole cc0_stg3_0 : Memref sig .tc .vmem S1024x1024 .bf16).view
/-- Each window's current staging memref at point `t`, as the pipeline passes it, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
/-- The scratch accumulator: a whole scoped buffer of the kernel's own. -/
abbrev scM0_0 : Memref sig .tc .vmem S1024x128 .f32 := Memref.whole cc0_scratch0
abbrev VS0_0 : View sig .tc .vmem S1024x128 .f32 := scM0_0.view

/-- The scoped buffers of the core that region 0 neither stages through nor accumulates in (the second call's
    staging buffers and scratch), each whole at some contents: carried through region 0 untouched. -/
def Rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg6_1), ((c : Thread nD τ).loc cc1_stg6_1) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg7_1), ((c : Thread nD τ).loc cc1_stg7_1) ↦{fullShare} f)
    ∗ (∃ f : Buf (Elt F) ((c : Thread nD τ).loc cc1_scratch0), ((c : Thread nD τ).loc cc1_scratch0) ↦{fullShare} f))

/-- The region's invariant before its first point: the scratch accumulator owned at some contents, the other
    scoped buffers, the generator register at some state. -/
theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA Rest0; rw [scopedRest0_eq]; simp only [scM0_0, owns_whole]; try rfl

end Cert.KernelIdeal.Hand

end
-- ==== Proof.KI.R0RunA.lean ====
import proofs.«108895_j83004537962674_2_alg».proof.Proof.KI.R0Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case A (the reduction index is 0 and not the last: the accumulator is zeroed, then accumulated; the
    first output is not stored): on whole staging memrefs — the inputs' at their contents, the first output's at
    contents handed back untouched, the second output's and the scratch at anything — it runs to the continuation
    holding the inputs' as they were, the second output's buffer and the scratch with the pieces its stores wrote. -/
noncomputable def kernelRun0_A (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : cond0_0 i) (hc1 : ¬cond0_1 i)
    (x0 : Vec F S1024x1024 .f32) (x1 : Vec F S1024x128 .bf16) :
    Σ' (L2 : List (View.Piece (Elt F) S1024x128 .bf16)) (L3 : List (View.Piece (Elt F) S1024x1024 .bf16)), { LS0 : List (View.Piece (Elt F) S1024x128 .f32) //
      ∀ (xi2 : Vec F S1024x128 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__hid_kernel i arg2 harg2 arg3 harg3 arg4 harg4 arg5 harg5 arg6 harg6) K } := by
  refine ⟨[], ?_, ?_, fun xi2 E K => ?run⟩
  case run =>
    simp only [cc0__hid_kernel_eq_skeleton]; unfold cc0__hid_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.R0RunB.lean ====
import proofs.«108895_j83004537962674_2_alg».proof.Proof.KI.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case B (the reduction index is neither 0 nor the last: the accumulator is accumulated; the first
    output is not stored): as in case A, the scratch now at the contents the point before left. -/
noncomputable def kernelRun0_B (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : ¬cond0_0 i) (hc1 : ¬cond0_1 i)
    (x0 : Vec F S1024x1024 .f32) (x1 : Vec F S1024x128 .bf16) (xs0 : Vec F S1024x128 .f32) :
    Σ' (L2 : List (View.Piece (Elt F) S1024x128 .bf16)) (L3 : List (View.Piece (Elt F) S1024x1024 .bf16)), { LS0 : List (View.Piece (Elt F) S1024x128 .f32) //
      ∀ (xi2 : Vec F S1024x128 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__hid_kernel i arg2 harg2 arg3 harg3 arg4 harg4 arg5 harg5 arg6 harg6) K } := by
  refine ⟨[], ?_, ?_, fun xi2 E K => ?run⟩
  case run =>
    simp only [cc0__hid_kernel_eq_skeleton]; unfold cc0__hid_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.R0RunC.lean ====
import proofs.«108895_j83004537962674_2_alg».proof.Proof.KI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case C (the reduction index is the last and not 0: the accumulator is accumulated and read out into
    the first output): the scratch at the contents the point before left, both outputs' buffers at anything; it
    runs to the continuation holding the inputs' as they were and each output's buffer and the scratch with the
    pieces its stores wrote. -/
noncomputable def kernelRun0_C (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : ¬cond0_0 i) (hc1 : cond0_1 i)
    (x0 : Vec F S1024x1024 .f32) (x1 : Vec F S1024x128 .bf16) (xs0 : Vec F S1024x128 .f32) :
    Σ' (L2 : List (View.Piece (Elt F) S1024x128 .bf16)) (L3 : List (View.Piece (Elt F) S1024x1024 .bf16)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__hid_kernel i arg2 harg2 arg3 harg3 arg4 harg4 arg5 harg5 arg6 harg6) K } := by
  refine ⟨?_, ?_, ?_, fun E K => ?run⟩
  case run =>
    simp only [cc0__hid_kernel_eq_skeleton]; unfold cc0__hid_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg2.eq_unread hf0; obtain rfl := harg3.eq_unread hf1; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS0

end Cert.KernelIdeal.Hand

end
-- ==== Proof.KI.R0Body.lean ====
import proofs.«108895_j83004537962674_2_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what the outputs and the accumulator hold case by case and point by point, the proof data, the body
    obligation -/

/-- Case A stores nothing into the first output (the window is idle at its points and not written back there): a
    placeholder nothing consults. -/
def out0_A_2 (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : cond0_0 i) (hc1 : ¬cond0_1 i)
    (x0 : Vec F S1024x1024 .f32) (x1 : Vec F S1024x128 .bf16) : Vec F S1024x128 .bf16 :=
  VO0_2.read (Elt F) (VO0_2.writes (Elt F) VO0_2.junk (kernelRun0_A c i arg2 harg2 arg3 harg3 arg4 harg4 arg5 harg5 arg6 harg6 hc0 hc1 x0 x1).1)

/-- Case A's pieces for the second output tile its block, so they cover it. -/
theorem cover0_A_3 (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : cond0_0 i) (hc1 : ¬cond0_1 i)
    (x0 : Vec F S1024x1024 .f32) (x1 : Vec F S1024x128 .bf16) (y : S1024x1024.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S1024x1024.size (by sl_kernel_rfl) y

/-- What case A leaves in the second output's staging buffer: its pieces read back. -/
def out0_A_3 (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : cond0_0 i) (hc1 : ¬cond0_1 i)
    (x0 : Vec F S1024x1024 .f32) (x1 : Vec F S1024x128 .bf16) : Vec F S1024x1024 .bf16 :=
  VO0_3.read (Elt F) (VO0_3.writes (Elt F) VO0_3.junk (kernelRun0_A c i arg2 harg2 arg3 harg3 arg4 harg4 arg5 harg5 arg6 harg6 hc0 hc1 x0 x1).2.1)

/-- Case A's pieces for the accumulator cover it. -/
theorem scover0_A_0 (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : cond0_0 i) (hc1 : ¬cond0_1 i)
    (x0 : Vec F S1024x1024 .f32) (x1 : Vec F S1024x128 .bf16) (y : S1024x128.Idx) :
    ∃ pc ∈ (kernelRun0_A c i arg2 harg2 arg3 harg3 arg4 harg4 arg5 harg5 arg6 harg6 hc0 hc1 x0 x1).2.2.1, y ∈ pc.1.set :=
  View.cover_of_tiledL (kernelRun0_A c i arg2 harg2 arg3 harg3 arg4 harg4 arg5 harg5 arg6 harg6 hc0 hc1 x0 x1).2.2.1 S1024x128.size (by sl_kernel_rfl) y

/-- What case A leaves in the accumulator: its pieces read back. -/
def sout0_A_0 (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : cond0_0 i) (hc1 : ¬cond0_1 i)
    (x0 : Vec F S1024x1024 .f32) (x1 : Vec F S1024x128 .bf16) : Vec F S1024x128 .f32 :=
  VS0_0.read (Elt F) (VS0_0.writes (Elt F) VS0_0.junk (kernelRun0_A c i arg2 harg2 arg3 harg3 arg4 harg4 arg5 harg5 arg6 harg6 hc0 hc1 x0 x1).2.2.1)

/-- Case B stores nothing into the first output (the window is idle at its points and not written back there): a
    placeholder nothing consults. -/
def out0_B_2 (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : ¬cond0_0 i) (hc1 : ¬cond0_1 i)
    (x0 : Vec F S1024x1024 .f32) (x1 : Vec F S1024x128 .bf16) (xs0 : Vec F S1024x128 .f32) : Vec F S1024x128 .bf16 :=
  VO0_2.read (Elt F) (VO0_2.writes (Elt F) VO0_2.junk (kernelRun0_B c i arg2 harg2 arg3 harg3 arg4 harg4 arg5 harg5 arg6 harg6 hc0 hc1 x0 x1 xs0).1)

/-- Case B's pieces for the second output tile its block, so they cover it. -/
theorem cover0_B_3 (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : ¬cond0_0 i) (hc1 : ¬cond0_1 i)
    (x0 : Vec F S1024x1024 .f32) (x1 : Vec F S1024x128 .bf16) (xs0 : Vec F S1024x128 .f32) (y : S1024x1024.Idx) :
    ∃ pc ∈ (kernelRun0_B c i arg2 harg2 arg3 harg3 arg4 harg4 arg5 harg5 arg6 harg6 hc0 hc1 x0 x1 xs0).2.1, y ∈ pc.1.set :=
  View.cover_of_tiledL (kernelRun0_B c i arg2 harg2 arg3 harg3 arg4 harg4 arg5 harg5 arg6 harg6 hc0 hc1 x0 x1 xs0).2.1 S1024x1024.size (by sl_kernel_rfl) y

/-- What case B leaves in the second output's staging buffer: its pieces read back. -/
def out0_B_3 (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : ¬cond0_0 i) (hc1 : ¬cond0_1 i)
    (x0 : Vec F S1024x1024 .f32) (x1 : Vec F S1024x128 .bf16) (xs0 : Vec F S1024x128 .f32) : Vec F S1024x1024 .bf16 :=
  VO0_3.read (Elt F) (VO0_3.writes (Elt F) VO0_3.junk (kernelRun0_B c i arg2 harg2 arg3 harg3 arg4 harg4 arg5 harg5 arg6 harg6 hc0 hc1 x0 x1 xs0).2.1)

/-- Case B's pieces for the accumulator cover it. -/
theorem scover0_B_0 (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : ¬cond0_0 i) (hc1 : ¬cond0_1 i)
    (x0 : Vec F S1024x1024 .f32) (x1 : Vec F S1024x128 .bf16) (xs0 : Vec F S1024x128 .f32) (y : S1024x128.Idx) :
    ∃ pc ∈ (kernelRun0_B c i arg2 harg2 arg3 harg3 arg4 harg4 arg5 harg5 arg6 harg6 hc0 hc1 x0 x1 xs0).2.2.1, y ∈ pc.1.set :=
  View.cover_of_tiledL (kernelRun0_B c i arg2 harg2 arg3 harg3 arg4 harg4 arg5 harg5 arg6 harg6 hc0 hc1 x0 x1 xs0).2.2.1 S1024x128.size (by sl_kernel_rfl) y

/-- What case B leaves in the accumulator: its pieces read back. -/
def sout0_B_0 (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : ¬cond0_0 i) (hc1 : ¬cond0_1 i)
    (x0 : Vec F S1024x1024 .f32) (x1 : Vec F S1024x128 .bf16) (xs0 : Vec F S1024x128 .f32) : Vec F S1024x128 .f32 :=
  VS0_0.read (Elt F) (VS0_0.writes (Elt F) VS0_0.junk (kernelRun0_B c i arg2 harg2 arg3 harg3 arg4 harg4 arg5 harg5 arg6 harg6 hc0 hc1 x0 x1 xs0).2.2.1)

/-- Case C's pieces for the first output tile its block, so they cover it. -/
theorem cover0_C_2 (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : ¬cond0_0 i) (hc1 : cond0_1 i)
    (x0 : Vec F S1024x1024 .f32) (x1 : Vec F S1024x128 .bf16) (xs0 : Vec F S1024x128 .f32) (y : S1024x128.Idx) :
    ∃ pc ∈ (kernelRun0_C c i arg2 harg2 arg3 harg3 arg4 harg4 arg5 harg5 arg6 harg6 hc0 hc1 x0 x1 xs0).1, y ∈ pc.1.set :=
  View.cover_of_tiledL (kernelRun0_C c i arg2 harg2 arg3 harg3 arg4 harg4 arg5 harg5 arg6 harg6 hc0 hc1 x0 x1 xs0).1 S1024x128.size (by sl_kernel_rfl) y

/-- What case C leaves in the first output's staging buffer: its pieces read back. -/
def out0_C_2 (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : ¬cond0_0 i) (hc1 : cond0_1 i)
    (x0 : Vec F S1024x1024 .f32) (x1 : Vec F S1024x128 .bf16) (xs0 : Vec F S1024x128 .f32) : Vec F S1024x128 .bf16 :=
  VO0_2.read (Elt F) (VO0_2.writes (Elt F) VO0_2.junk (kernelRun0_C c i arg2 harg2 arg3 harg3 arg4 harg4 arg5 harg5 arg6 harg6 hc0 hc1 x0 x1 xs0).1)

/-- Case C's pieces for the second output tile its block, so they cover it. -/
theorem cover0_C_3 (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : ¬cond0_0 i) (hc1 : cond0_1 i)
    (x0 : Vec F S1024x1024 .f32) (x1 : Vec F S1024x128 .bf16) (xs0 : Vec F S1024x128 .f32) (y : S1024x1024.Idx) :
    ∃ pc ∈ (kernelRun0_C c i arg2 harg2 arg3 harg3 arg4 harg4 arg5 harg5 arg6 harg6 hc0 hc1 x0 x1 xs0).2.1, y ∈ pc.1.set :=
  View.cover_of_tiledL (kernelRun0_C c i arg2 harg2 arg3 harg3 arg4 harg4 arg5 harg5 arg6 harg6 hc0 hc1 x0 x1 xs0).2.1 S1024x1024.size (by sl_kernel_rfl) y

/-- What case C leaves in the second output's staging buffer: its pieces read back. -/
def out0_C_3 (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : ¬cond0_0 i) (hc1 : cond0_1 i)
    (x0 : Vec F S1024x1024 .f32) (x1 : Vec F S1024x128 .bf16) (xs0 : Vec F S1024x128 .f32) : Vec F S1024x1024 .bf16 :=
  VO0_3.read (Elt F) (VO0_3.writes (Elt F) VO0_3.junk (kernelRun0_C c i arg2 harg2 arg3 harg3 arg4 harg4 arg5 harg5 arg6 harg6 hc0 hc1 x0 x1 xs0).2.1)

/-- Case C's pieces for the accumulator cover it. -/
theorem scover0_C_0 (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : ¬cond0_0 i) (hc1 : cond0_1 i)
    (x0 : Vec F S1024x1024 .f32) (x1 : Vec F S1024x128 .bf16) (xs0 : Vec F S1024x128 .f32) (y : S1024x128.Idx) :
    ∃ pc ∈ (kernelRun0_C c i arg2 harg2 arg3 harg3 arg4 harg4 arg5 harg5 arg6 harg6 hc0 hc1 x0 x1 xs0).2.2.1, y ∈ pc.1.set :=
  View.cover_of_tiledL (kernelRun0_C c i arg2 harg2 arg3 harg3 arg4 harg4 arg5 harg5 arg6 harg6 hc0 hc1 x0 x1 xs0).2.2.1 S1024x128.size (by sl_kernel_rfl) y

/-- What case C leaves in the accumulator: its pieces read back. -/
def sout0_C_0 (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : ¬cond0_0 i) (hc1 : cond0_1 i)
    (x0 : Vec F S1024x1024 .f32) (x1 : Vec F S1024x128 .bf16) (xs0 : Vec F S1024x128 .f32) : Vec F S1024x128 .f32 :=
  VS0_0.read (Elt F) (VS0_0.writes (Elt F) VS0_0.junk (kernelRun0_C c i arg2 harg2 arg3 harg3 arg4 harg4 arg5 harg5 arg6 harg6 hc0 hc1 x0 x1 xs0).2.2.1)

section Region
-- the TensorCore's buffer contents when the region is entered
variable (V : (c : Dev nD) → (b : Ref sig .tc) → Buf (Elt F) ((c : Thread nD τ).loc b))

/-! ## What the outputs and the accumulator hold after each point -/

/-- What the two outputs' staging buffers and the accumulator hold after the body at position `n` (the first output,
    the second output, the accumulator): the case the point is in, run at the point's memrefs and input blocks, the
    accumulator it finds being what the point before left. -/
def outsAt0 (c : Dev nD) : (n : ℕ) → n < cfg0.N → Vec F S1024x128 .bf16 × Vec F S1024x1024 .bf16 × Vec F S1024x128 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 4 = 0 then
      if h1 : (n + 1) % 4 = 3 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2)

/-- `outsAt0` at a point of case A. -/
theorem outsAt0_A (c : Dev nD) (t : Fin cfg0.N) (h0 : t.val % 4 = 0) (h1 : ¬t.val % 4 = 3) :
    outsAt0 V c t.val t.isLt = (out0_A_2 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t), out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point of case B: over what the point before left. -/
theorem outsAt0_B (c : Dev nD) (t : Fin cfg0.N) (h0 : ¬t.val % 4 = 0) (h1 : ¬t.val % 4 = 3) :
    outsAt0 V c t.val t.isLt = (out0_B_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2, out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: over what the point before left. -/
theorem outsAt0_C (c : Dev nD) (t : Fin cfg0.N) (h0 : ¬t.val % 4 = 0) (h1 : t.val % 4 = 3) :
    outsAt0 V c t.val t.isLt = (out0_C_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2, out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scoped buffer at anything);
    afterwards the accumulator at what the point before left in it, the other scoped buffers at anything, the generator
    register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ Rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2) ∗ Rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ Rest0 c) ∗ (∃ r, prngReg c r)) := by
  cases n with
  | zero => exact absurd rfl hz
  | succ n => rfl

/-! ## The pipeline's proof data -/

/-- The proof data of pipeline 0 on core `c`: the arrays as the region finds them (`V`); after the body at point
    `t` each input's buffer at its block and the outputs' at `outsAt0`; the invariant `PhiS0`; nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 8000000 in
/-- The body at any point: the inputs' memrefs hold their blocks; the point is in one of the three cases, whose run
    applies; the invariant hands the body the accumulator at what the point before left (at anything at the first
    point) and takes it back at this point's contents; the other scoped buffers, the generator register and what the
    core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
        unfold Dat.leavesExact; rw [liveAt0_0 t], after0_0]
  rw [show (dat0 V c).leavesExact 1 t = owns (c : Thread nD τ) (ms0_1 t) fullShare ((dat0 V c).after 1 t) from by
        unfold Dat.leavesExact; rw [liveAt0_1 t], after0_1]
  rw [show (dat0 V c).leavesExact 3 t = owns (c : Thread nD τ) (ms0_3 t) fullShare ((dat0 V c).after 3 t) from by
        unfold Dat.leavesExact; rw [liveAt0_3 t], after0_3]
  by_cases h0 : t.val % 4 = 0
  · by_cases h1 : t.val % 4 = 3
    · exfalso; omega
    · rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0 out0_A_3; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t)).2.2.2 _ Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _)
            iexact HR
          iexact Hg
        isplitl [Ho]; · iexact Ho
        isplitl [H0]; · iexact H0
        isplitl [H1]; · iexact H1
        isplitl [H2]
        · iexists _; iexact H2
        unfold owns; iexists _; isplitr
        swap; · iexact H3
        ipureintro; exact View.read_writes_of_cover _ _ _ _ _ (cover0_A_3 c _ _ _ _ _ _ _ _ _ _ _ _ _ _ _)
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t)).2.2.2 _ Set.univ _)
        isplitl [H0]; · iexact H0
        isplitl [H1]; · iexact H1
        isplitl [H2]; · iexact H2
        isplitl [H3]; · iexists _; iexact H3
        isplitl [HS0]; · iexists _; iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _)
            iexact HR
          iexact Hg
        isplitl [Ho]; · iexact Ho
        isplitl [H0]; · iexact H0
        isplitl [H1]; · iexact H1
        isplitl [H2]
        · iexists _; iexact H2
        unfold owns; iexists _; isplitr
        swap; · iexact H3
        ipureintro; exact View.read_writes_of_cover _ _ _ _ _ (cover0_A_3 c _ _ _ _ _ _ _ _ _ _ _ _ _ _ _)
  · by_cases h1 : t.val % 4 = 3
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 out0_C_3 sout0_C_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩⟩
        iapply ((kernelRun0_C c (grid0.coords t) _ _ _ _ _ _ _ _ _ _ (fun h => h0 ((hcond0_0 t).mp h)) ((hcond0_1 t).mpr h1) (iblk0 V c 0 t) (iblk0 V c 1 t) _).2.2.2 Set.univ _)
        isplitl [H0]; · iexact H0
        isplitl [H1]; · iexact H1
        isplitl [H2]; · iexists _; iexact H2
        isplitl [H3]; · iexists _; iexact H3
        isplitl [HS0]; · iexact HS0
        iintro ⟨H0, H1, ⟨%e2, H2⟩, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_C_2 c _ _ _ _ _ _ _ _ _ _ _ _ _ _ _ _)
        unfold owns; iexists _; isplitr
        swap; · iexact H3
        ipureintro; exact View.read_writes_of_cover _ _ _ _ _ (cover0_C_3 c _ _ _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0 out0_B_3; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩⟩
        iapply ((kernelRun0_B c (grid0.coords t) _ _ _ _ _ _ _ _ _ _ (fun h => h0 ((hcond0_0 t).mp h)) (fun h => h1 ((hcond0_1 t).mp h)) (iblk0 V c 0 t) (iblk0 V c 1 t) _).2.2.2 _ Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _)
            iexact HR
          iexact Hg
        isplitl [Ho]; · iexact Ho
        isplitl [H0]; · iexact H0
        isplitl [H1]; · iexact H1
        isplitl [H2]
        · iexists _; iexact H2
        unfold owns; iexists _; isplitr
        swap; · iexact H3
        ipureintro; exact View.read_writes_of_cover _ _ _ _ _ (cover0_B_3 c _ _ _ _ _ _ _ _ _ _ _ _ _ _ _ _)

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Region

end Cert.KernelIdeal.Hand

end
-- ==== Proof.KI.R1Kit.lean ====
import proofs.«108895_j83004537962674_2_alg».proof.Proof.Gen.KernelIdeal.Launch
import proofs.«108895_j83004537962674_2_alg».proof.Proof.Gen.KernelIdeal.Skeleton
import proofs.«108895_j83004537962674_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not: where it
    is not fetched its block index has not moved since the previous point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The first conditional's condition (first step of the reduction axis), from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional's condition (last step of the reduction axis). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem idleAt1_7_A : ∀ t : Fin cfg1.N, cond1_0 (grid1.coords t) → ¬cond1_1 (grid1.coords t) → cfg1.idle 7 (grid1.coords t) = true := by decide +kernel
theorem noFlush1_7_A : ∀ t : Fin cfg1.N, cond1_0 (grid1.coords t) → ¬cond1_1 (grid1.coords t) → (cfg1.win 7).flush t = false := by decide +kernel
theorem idleAt1_7_B : ∀ t : Fin cfg1.N, ¬cond1_0 (grid1.coords t) → ¬cond1_1 (grid1.coords t) → cfg1.idle 7 (grid1.coords t) = true := by decide +kernel
theorem noFlush1_7_B : ∀ t : Fin cfg1.N, ¬cond1_0 (grid1.coords t) → ¬cond1_1 (grid1.coords t) → (cfg1.win 7).flush t = false := by decide +kernel
theorem liveAt1_7_C : ∀ t : Fin cfg1.N, ¬cond1_0 (grid1.coords t) → cond1_1 (grid1.coords t) → cfg1.idle 7 (grid1.coords t) = false := by decide +kernel

/-! ## The staging and scratch memrefs -/

/-- One staging buffer of the output window, through which its contents are stated. -/
abbrev VO1_7 : View sig .tc .vmem S1024x1024 .f32 := (Memref.whole cc1_stg7_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x1024 .f32 := win1_7.stage (cfg1.slots t 7)
abbrev hs1_7 (t : Fin cfg1.N) : (ms1_7 t).IsWhole := hstage1_7 ((cfg1.slots t 7).cast nbuf1_7)
/-- The scratch accumulator: a whole scoped buffer of the kernel's own. -/
abbrev scM1_0 : Memref sig .tc .vmem S1024x1024 .f32 := Memref.whole cc1_scratch0
abbrev VS1_0 : View sig .tc .vmem S1024x1024 .f32 := scM1_0.view

/-! ## The scoped rest -/

/-- The core's scoped buffers that are neither a staging buffer of this call nor its scratch, each whole at some
    contents: the body never touches them. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- What the launch hands the region, with the scratch accumulator as a memref owned at some contents. -/
theorem PhiA1_in (c : Dev nD) :
    (Pipeline.ΦA spec1 c : sProp 𝕄) ⊢ iprop(iprop(Rest1 (F := F) c ∗ (∃ d, owns (c : Thread nD τ) scM1_0 fullShare d)) ∗ (∃ r, prngReg c r)) := by
  unfold Pipeline.ΦA Rest1; rw [scopedRest1_eq]; simp only [scM1_0, owns_whole]
  iintro ⟨⟨R0, R1, R2, R3, R4, R5, R6, R7, R8, HS⟩, Hg⟩
  isplitr [Hg]
  · isplitr [HS]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      iexact R8
    · iexact HS
  · iexact Hg

/-- And back. -/
theorem PhiA1_out (c : Dev nD) :
    iprop(iprop(Rest1 (F := F) c ∗ (∃ d, owns (c : Thread nD τ) scM1_0 fullShare d)) ∗ (∃ r, prngReg c r)) ⊢ (Pipeline.ΦA spec1 c : sProp 𝕄) := by
  unfold Pipeline.ΦA Rest1; rw [scopedRest1_eq]; simp only [scM1_0, owns_whole]
  iintro ⟨⟨⟨R0, R1, R2, R3, R4, R5, R6, R7, R8⟩, HS⟩, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact HS
  · iexact Hg

end Cert.KernelIdeal.Hand

end
-- ==== Proof.KI.R1RunA.lean ====
import proofs.«108895_j83004537962674_2_alg».proof.Proof.KI.R1Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case A (first conditional taken, second not taken): on whole memrefs, the two matrix
    operands at their contents and the accumulator at anything, it runs to the continuation holding
    the operands as they were and the accumulator with the pieces written; the pieces are the witness. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : cond1_0 i) (hc1 : ¬cond1_1 i)
    (x0 : Vec F S1024x1024 .bf16) (x1 : Vec F S1024x1024 .bf16) :
    { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg11 fullShare d)
            ∗ (iprop(owns (c : Thread nD τ) arg3 fullShare x0 ∗ owns (c : Thread nD τ) arg4 fullShare x1 ∗ (∃ f, arg11.view.loc (c : Thread nD τ) ↦[arg11.view.set]{fullShare} arg11.view.writes (Elt F) f LS0)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10 arg11 harg11) K } := by
  refine ⟨?_, fun E K => ?run⟩
  case run =>
    simp only [cc1__main_kernel_eq_skeleton]; unfold cc1__main_kernel_skel
    unfold owns
    iintro ⟨⟨%f0, %hf0, H0⟩, ⟨%f1, %hf1, H1⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.KernelIdeal.Hand

end
-- ==== Proof.KI.R1RunB.lean ====
import proofs.«108895_j83004537962674_2_alg».proof.Proof.KI.R1Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case B (first conditional not taken, second not taken): on whole memrefs, the two matrix
    operands at their contents and the accumulator at what the point before left, it runs to the continuation holding
    the operands as they were and the accumulator with the pieces written; the pieces are the witness. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond1_0 i) (hc1 : ¬cond1_1 i)
    (x0 : Vec F S1024x1024 .bf16) (x1 : Vec F S1024x1024 .bf16) (xs0 : Vec F S1024x1024 .f32) :
    { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg11 fullShare xs0
            ∗ (iprop(owns (c : Thread nD τ) arg3 fullShare x0 ∗ owns (c : Thread nD τ) arg4 fullShare x1 ∗ (∃ f, arg11.view.loc (c : Thread nD τ) ↦[arg11.view.set]{fullShare} arg11.view.writes (Elt F) f LS0)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10 arg11 harg11) K } := by
  refine ⟨?_, fun E K => ?run⟩
  case run =>
    simp only [cc1__main_kernel_eq_skeleton]; unfold cc1__main_kernel_skel
    unfold owns
    iintro ⟨⟨%f0, %hf0, H0⟩, ⟨%f1, %hf1, H1⟩, ⟨%fs0, %hfs0, HS0⟩, Hk⟩
    obtain rfl := harg3.eq_unread hf0; obtain rfl := harg4.eq_unread hf1; obtain rfl := harg11.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.KernelIdeal.Hand

end
-- ==== Proof.KI.R1RunC.lean ====
import proofs.«108895_j83004537962674_2_alg».proof.Proof.KI.R1Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case C (first conditional not taken, second taken): on whole memrefs, every operand at its contents,
    the output's at anything and the accumulator at what the point before left, it runs to the continuation holding the
    operands as they were and the output and the accumulator with the pieces written; the pieces are the witness. -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond1_0 i) (hc1 : cond1_1 i)
    (x0 : Vec F S1024x1024 .bf16) (x1 : Vec F S1024x1024 .bf16) (x2 : Vec F S1024x128 .bf16) (x3 : Vec F S128x1024 .bf16) (x4 : Vec F S128x1024 .bf16) (x5 : Vec F S1x1024 .f32) (x6 : Vec F S1x1024 .f32) (xs0 : Vec F S1024x1024 .f32) :
    Σ' (L7 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10 arg11 harg11) K } := by
  refine ⟨?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    iexists _; iexact HS0

end Cert.KernelIdeal.Hand

end
-- ==== Proof.KI.R1Body.lean ====
import proofs.«108895_j83004537962674_2_alg».proof.Proof.KI.R1RunA
import proofs.«108895_j83004537962674_2_alg».proof.Proof.KI.R1RunB
import proofs.«108895_j83004537962674_2_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the accumulator and the output -/

/-- The output window's buffer where the body stores nothing into it (the window is idle there and not written
    back): a placeholder nothing consults. -/
def out1_idle_7 : Vec F S1024x1024 .f32 := VO1_7.read (Elt F) VO1_7.junk

theorem scover1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : cond1_0 i) (hc1 : ¬cond1_1 i) (x0 : Vec F S1024x1024 .bf16) (x1 : Vec F S1024x1024 .bf16) (y : S1024x1024.Idx) :
    ∃ pc ∈ (kernelRun1_A c i arg3 harg3 arg4 harg4 arg5 harg5 arg6 harg6 arg7 harg7 arg8 harg8 arg9 harg9 arg10 harg10 arg11 harg11 hc0 hc1 x0 x1).1, y ∈ pc.1.set :=
  View.cover_of_tiledL (kernelRun1_A c i arg3 harg3 arg4 harg4 arg5 harg5 arg6 harg6 arg7 harg7 arg8 harg8 arg9 harg9 arg10 harg10 arg11 harg11 hc0 hc1 x0 x1).1 S1024x1024.size (by sl_kernel_rfl) y
/-- What case A leaves in the accumulator: its pieces read back. -/
def sout1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : cond1_0 i) (hc1 : ¬cond1_1 i) (x0 : Vec F S1024x1024 .bf16) (x1 : Vec F S1024x1024 .bf16) : Vec F S1024x1024 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 hc0 hc1 x0 x1).1)

theorem scover1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond1_0 i) (hc1 : ¬cond1_1 i) (x0 : Vec F S1024x1024 .bf16) (x1 : Vec F S1024x1024 .bf16) (xs0 : Vec F S1024x1024 .f32) (y : S1024x1024.Idx) :
    ∃ pc ∈ (kernelRun1_B c i arg3 harg3 arg4 harg4 arg5 harg5 arg6 harg6 arg7 harg7 arg8 harg8 arg9 harg9 arg10 harg10 arg11 harg11 hc0 hc1 x0 x1 xs0).1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 xs0).1 S1024x1024.size (by sl_kernel_rfl) y
/-- What case B leaves in the accumulator. -/
def sout1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond1_0 i) (hc1 : ¬cond1_1 i) (x0 : Vec F S1024x1024 .bf16) (x1 : Vec F S1024x1024 .bf16) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 hc0 hc1 x0 x1 xs0).1)

theorem cover1_C_7 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond1_0 i) (hc1 : cond1_1 i) (x0 : Vec F S1024x1024 .bf16) (x1 : Vec F S1024x1024 .bf16) (x2 : Vec F S1024x128 .bf16) (x3 : Vec F S128x1024 .bf16) (x4 : Vec F S128x1024 .bf16) (x5 : Vec F S1x1024 .f32) (x6 : Vec F S1x1024 .f32) (xs0 : Vec F S1024x1024 .f32) (y : S1024x1024.Idx) :
    ∃ pc ∈ (kernelRun1_C c i arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 x5 x6 xs0).1 S1024x1024.size (by sl_kernel_rfl) y
/-- What case C leaves in the output window's buffer. -/
def out1_C_7 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond1_0 i) (hc1 : cond1_1 i) (x0 : Vec F S1024x1024 .bf16) (x1 : Vec F S1024x1024 .bf16) (x2 : Vec F S1024x128 .bf16) (x3 : Vec F S128x1024 .bf16) (x4 : Vec F S128x1024 .bf16) (x5 : Vec F S1x1024 .f32) (x6 : Vec F S1x1024 .f32) (xs0 : Vec F S1024x1024 .f32) : Vec F S1024x1024 .f32 :=
  VO1_7.read (Elt F) (VO1_7.writes (Elt F) VO1_7.junk (kernelRun1_C c i arg3 harg3 arg4 harg4 arg5 harg5 arg6 harg6 arg7 harg7 arg8 harg8 arg9 harg9 arg10 harg10 arg11 harg11 hc0 hc1 x0 x1 x2 x3 x4 x5 x6 xs0).1)
theorem scover1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond1_0 i) (hc1 : cond1_1 i) (x0 : Vec F S1024x1024 .bf16) (x1 : Vec F S1024x1024 .bf16) (x2 : Vec F S1024x128 .bf16) (x3 : Vec F S128x1024 .bf16) (x4 : Vec F S128x1024 .bf16) (x5 : Vec F S1x1024 .f32) (x6 : Vec F S1x1024 .f32) (xs0 : Vec F S1024x1024 .f32) (y : S1024x1024.Idx) :
    ∃ pc ∈ (kernelRun1_C c i arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 x4 x5 x6 xs0).2.1 S1024x1024.size (by sl_kernel_rfl) y
/-- What case C leaves in the accumulator. -/
def sout1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond1_0 i) (hc1 : cond1_1 i) (x0 : Vec F S1024x1024 .bf16) (x1 : Vec F S1024x1024 .bf16) (x2 : Vec F S1024x128 .bf16) (x3 : Vec F S128x1024 .bf16) (x4 : Vec F S128x1024 .bf16) (x5 : Vec F S1x1024 .f32) (x6 : Vec F S1x1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 hc0 hc1 x0 x1 x2 x3 x4 x5 x6 xs0).2.1)

section Region1
variable (V : (c : Dev nD) → (b : Ref sig .tc) → Buf (Elt F) ((c : Thread nD τ).loc b))

/-! ## What the output and the accumulator hold after each point -/

/-- The accumulation: the output window's buffer and the accumulator after the body at position `n`: the case the
    position is in (by `n % 4`), run at the point's memrefs and input blocks over what the point before left. -/
def outsAt1 (c : Dev nD) : (n : ℕ) → n < cfg1.N → Vec F S1024x1024 .f32 × Vec F S1024x1024 .f32
  | 0, hn => (out1_idle_7, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_idle_7, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2)
      else
        (out1_idle_7, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_idle_7, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_idle_7, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scoped rest with the accumulator at
    anything; afterwards with the accumulator at what the point before left; the generator register at some state. -/
def PhiS1 (c : Dev nD) : (n : ℕ) → n ≤ cfg1.N → sProp 𝕄
  | 0, _ => iprop(iprop(Rest1 (F := F) c ∗ (∃ d, owns (c : Thread nD τ) scM1_0 fullShare d)) ∗ (∃ r, prngReg c r))
  | n + 1, hn => iprop(iprop(Rest1 (F := F) c ∗ owns (c : Thread nD τ) scM1_0 fullShare ((outsAt1 V c n hn).2)) ∗ (∃ r, prngReg c r))

theorem PhiS1_zero (c : Dev nD) (n : ℕ) (h : n ≤ cfg1.N) (hz : n = 0) :
    PhiS1 V c n h = iprop(iprop(Rest1 (F := F) c ∗ (∃ d, owns (c : Thread nD τ) scM1_0 fullShare d)) ∗ (∃ r, prngReg c r)) := by
  subst hz; rfl

theorem PhiS1_succ (c : Dev nD) (n : ℕ) (hn : n < cfg1.N) :
    PhiS1 V c (n + 1) hn = iprop(iprop(Rest1 (F := F) c ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop(Rest1 (F := F) c ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of this pipeline on core `c`: the arrays as the region finds them; after the body at point `t`
    each input's buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 8000000 in
/-- The body at any point: the inputs' memrefs hold their blocks; `t % 4` says which case the point is in; the
    invariant hands the body the accumulator at what the point before left (at anything at the first point) and takes
    it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h0 : t.val % 4 = 0
  · by_cases h1 : t.val % 4 = 3
    · exfalso; omega
    · rw [Dat.leavesExact_idle (dat1 V c) 7 t (idleAt1_7_A t ((hcond1_0 t).mpr h0) (fun h => h1 ((hcond1_1 t).mp h))) (noFlush1_7_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz]
        iintro ⟨⟨⟨HR, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t)).2 Set.univ _)
        isplitl [H0]; · iexact H0
        isplitl [H1]; · iexact H1
        isplitl [HS0]; · iexact HS0
        iintro ⟨H0, H1, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_A_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · rw [PhiS1_castSucc V c t, PhiS1_pos V c _ _ hz]
        iintro ⟨⟨⟨HR, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t)).2 Set.univ _)
        isplitl [H0]; · iexact H0
        isplitl [H1]; · iexact H1
        isplitl [HS0]; · iexists _; iexact HS0
        iintro ⟨H0, H1, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_A_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · by_cases h1 : t.val % 4 = 3
    · rw [show (dat1 V c).leavesExact 7 t = owns (c : Thread nD τ) (ms1_7 t) fullShare ((dat1 V c).after 7 t) from by
        unfold Dat.leavesExact; rw [liveAt1_7_C t (fun h => h0 ((hcond1_0 t).mp h)) ((hcond1_1 t).mpr h1)], after1_7]
      rw [outsAt1_C V c t h0 h1]
      unfold out1_C_7 sout1_C_0; (try dsimp only)
      have hz : t.val ≠ 0 := by omega
      rw [PhiS1_castSucc V c t, PhiS1_pos V c _ _ hz]
      · iintro ⟨⟨⟨HR, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        iintro ⟨H0, H1, H2, H3, H4, H5, H6, ⟨%e7, H7⟩, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover1_C_7 c _ _ _ _ _ _ _ _ _ _ _ _ _ _ _ _ _ _ _ _ _ _ _ _ _ _ _ _ _)
    · rw [Dat.leavesExact_idle (dat1 V c) 7 t (idleAt1_7_B t (fun h => h0 ((hcond1_0 t).mp h)) (fun h => h1 ((hcond1_1 t).mp h))) (noFlush1_7_B t (fun h => h0 ((hcond1_0 t).mp h)) (fun h => h1 ((hcond1_1 t).mp h)))]
      rw [outsAt1_B V c t h0 h1]
      unfold sout1_B_0; (try dsimp only)
      have hz : t.val ≠ 0 := by omega
      rw [PhiS1_castSucc V c t, PhiS1_pos V c _ _ hz]
      · iintro ⟨⟨⟨HR, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) _).2 Set.univ _)
        isplitl [H0]; · iexact H0
        isplitl [H1]; · iexact H1
        isplitl [HS0]; · iexact HS0
        iintro ⟨H0, H1, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_B_0 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  exact PhiA1_in c

/-- After any point but the first the invariant gives the launch's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine BIBase.Entails.trans ?_ (PhiA1_out c)
  iintro ⟨⟨HR, HS0⟩, Hg⟩
  isplitl [HR HS0]
  · isplitl [HR]; · iexact HR
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Region1

end Cert.KernelIdeal.Hand

end
-- ==== Proof.KI.Frame.lean ====
/-
  The run of the whole program: @main is three stretches of host operations, the two kernel regions, and one last
  reshape. The buffer contents at each boundary are a fold from the launch memory: a host stretch applies its
  operations; a region leaves each of its windows' arrays at what its write-backs make of it and every other buffer
  as it found it. Each region is entered with every unscoped buffer held at the boundary's contents, the generator
  register at some state and nothing owed, and is left in the same form; its invariant is the kernel's own
  (the scratch accumulator at the contents the point before left), which begins and ends as the plain scoped rest.
  The conclusion names every unscoped buffer's final contents, so both the frame claim (the arguments end as
  launched: no operation and no region writes one) and the value of the result buffer are read off it.
-/
import proofs.«108895_j83004537962674_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«108895_j83004537962674_2_alg».proof.Proof.KI.R0Body
import proofs.«108895_j83004537962674_2_alg».proof.Proof.KI.R1Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers when region 0 is entered: the launch memory after the three host stretches. -/
abbrev W3 : Dev nD → Valuation τ sig (Elt F) := fun c => V3 m c
/-- The same read at the TensorCore's references. -/
abbrev VA : (c : Dev nD) → (b : Ref sig .tc) → Buf (Elt F) ((c : Thread nD τ).loc b) := fun c b => W3 m c b
/-- At region 0's exit: its arrays at what the pipeline leaves, every other buffer as entered. -/
def W4 (c : Dev nD) : Valuation τ sig (Elt F) :=
  Pipeline.withArrays spec0 c (W3 m c) fun w => (dat0 (VA m) c).arrAt w cfg0.N
theorem W4_arr (c : Dev nD) (w : Fin cfg0.W) :
    W4 m c (Proc.devRef .tc (Pipeline.arrRef spec0 w)) = (dat0 (VA m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- Region 0's exit contents = region 1's entry contents, read at the TensorCore's references. -/
abbrev VB : (c : Dev nD) → (b : Ref sig .tc) → Buf (Elt F) ((c : Thread nD τ).loc b) := fun c b => W4 m c b
theorem hF0 (c : Dev nD) (w : Fin cfg0.W) : (dat0 (VA m) c).arrAt w cfg0.N = VB m c (Pipeline.arrRef spec0 w) :=
  (W4_arr m c w).symm
theorem hrest0 (c : Dev nD) : ∀ b, b ∉ Finset.univ.image (Pipeline.arrRef spec0) → VB m c b = VA m c b :=
  fun b hb => W4_of_ne m c b fun w e => hb (Finset.mem_image.mpr ⟨w, Finset.mem_univ _, e⟩)

/-- At region 1's exit: its arrays at what the pipeline leaves, every other buffer as entered. -/
def W5 (c : Dev nD) : Valuation τ sig (Elt F) :=
  Pipeline.withArrays spec1 c (W4 m c) fun w => (dat1 (VB m) c).arrAt w cfg1.N
theorem W5_arr (c : Dev nD) (w : Fin cfg1.W) :
    W5 m c (Proc.devRef .tc (Pipeline.arrRef spec1 w)) = (dat1 (VB m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev VC : (c : Dev nD) → (b : Ref sig .tc) → Buf (Elt F) ((c : Thread nD τ).loc b) := fun c b => W5 m c b
theorem hF1 (c : Dev nD) (w : Fin cfg1.W) : (dat1 (VB m) c).arrAt w cfg1.N = VC m c (Pipeline.arrRef spec1 w) :=
  (W5_arr m c w).symm
theorem hrest1 (c : Dev nD) : ∀ b, b ∉ Finset.univ.image (Pipeline.arrRef spec1) → VC m c b = VB m c b :=
  fun b hb => W5_of_ne m c b fun w e => hb (Finset.mem_image.mpr ⟨w, Finset.mem_univ _, e⟩)
/-- After the last reshape. -/
abbrev W6 : Dev nD → Valuation τ sig (Elt F) := fun c => StableHlo.after hostOps2 (W5 m c)

/-! ### The arguments end as launched -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_writes_sub hostOps2 _ hostOps2_writes (by decide)
    _ = W4 m c (Proc.devRef .tc main_arg0) := W5_of_ne m c main_arg0 (by decide)
    _ = W3 m c (Proc.devRef .tc main_arg0) := W4_of_ne m c main_arg0 (by decide)
    _ = m ((c : Thread nD τ).loc main_arg0) := (V3_of m c main_arg0 (by decide)).trans <| (V2_of m c main_arg0 (by decide)).trans <| (V1_of m c main_arg0 (by decide)).trans rfl
theorem W6_main_arg1 (c : Dev nD) : W6 m c (Proc.devRef .tc main_arg1) = m ((c : Thread nD τ).loc main_arg1) :=
  calc W6 m c (Proc.devRef .tc main_arg1)
    _ = W5 m c (Proc.devRef .tc main_arg1) := StableHlo.after_of_writes_sub hostOps2 _ hostOps2_writes (by decide)
    _ = W4 m c (Proc.devRef .tc main_arg1) := W5_of_ne m c main_arg1 (by decide)
    _ = W3 m c (Proc.devRef .tc main_arg1) := W4_of_ne m c main_arg1 (by decide)
    _ = m ((c : Thread nD τ).loc main_arg1) := (V3_of m c main_arg1 (by decide)).trans <| (V2_of m c main_arg1 (by decide)).trans <| (V1_of m c main_arg1 (by decide)).trans rfl
theorem W6_main_arg2 (c : Dev nD) : W6 m c (Proc.devRef .tc main_arg2) = m ((c : Thread nD τ).loc main_arg2) :=
  calc W6 m c (Proc.devRef .tc main_arg2)
    _ = W5 m c (Proc.devRef .tc main_arg2) := StableHlo.after_of_writes_sub hostOps2 _ hostOps2_writes (by decide)
    _ = W4 m c (Proc.devRef .tc main_arg2) := W5_of_ne m c main_arg2 (by decide)
    _ = W3 m c (Proc.devRef .tc main_arg2) := W4_of_ne m c main_arg2 (by decide)
    _ = m ((c : Thread nD τ).loc main_arg2) := (V3_of m c main_arg2 (by decide)).trans <| (V2_of m c main_arg2 (by decide)).trans <| (V1_of m c main_arg2 (by decide)).trans rfl
theorem W6_main_arg3 (c : Dev nD) : W6 m c (Proc.devRef .tc main_arg3) = m ((c : Thread nD τ).loc main_arg3) :=
  calc W6 m c (Proc.devRef .tc main_arg3)
    _ = W5 m c (Proc.devRef .tc main_arg3) := StableHlo.after_of_writes_sub hostOps2 _ hostOps2_writes (by decide)
    _ = W4 m c (Proc.devRef .tc main_arg3) := W5_of_ne m c main_arg3 (by decide)
    _ = W3 m c (Proc.devRef .tc main_arg3) := W4_of_ne m c main_arg3 (by decide)
    _ = m ((c : Thread nD τ).loc main_arg3) := (V3_of m c main_arg3 (by decide)).trans <| (V2_of m c main_arg3 (by decide)).trans <| (V1_of m c main_arg3 (by decide)).trans rfl
theorem W6_main_arg4 (c : Dev nD) : W6 m c (Proc.devRef .tc main_arg4) = m ((c : Thread nD τ).loc main_arg4) :=
  calc W6 m c (Proc.devRef .tc main_arg4)
    _ = W5 m c (Proc.devRef .tc main_arg4) := StableHlo.after_of_writes_sub hostOps2 _ hostOps2_writes (by decide)
    _ = W4 m c (Proc.devRef .tc main_arg4) := W5_of_ne m c main_arg4 (by decide)
    _ = W3 m c (Proc.devRef .tc main_arg4) := W4_of_ne m c main_arg4 (by decide)
    _ = m ((c : Thread nD τ).loc main_arg4) := (V3_of m c main_arg4 (by decide)).trans <| (V2_of m c main_arg4 (by decide)).trans <| (V1_of m c main_arg4 (by decide)).trans rfl
theorem W6_main_arg5 (c : Dev nD) : W6 m c (Proc.devRef .tc main_arg5) = m ((c : Thread nD τ).loc main_arg5) :=
  calc W6 m c (Proc.devRef .tc main_arg5)
    _ = W5 m c (Proc.devRef .tc main_arg5) := StableHlo.after_of_writes_sub hostOps2 _ hostOps2_writes (by decide)
    _ = W4 m c (Proc.devRef .tc main_arg5) := W5_of_ne m c main_arg5 (by decide)
    _ = W3 m c (Proc.devRef .tc main_arg5) := W4_of_ne m c main_arg5 (by decide)
    _ = m ((c : Thread nD τ).loc main_arg5) := (V3_of m c main_arg5 (by decide)).trans <| (V2_of m c main_arg5 (by decide)).trans <| (V1_of m c main_arg5 (by decide)).trans rfl
theorem W6_main_arg6 (c : Dev nD) : W6 m c (Proc.devRef .tc main_arg6) = m ((c : Thread nD τ).loc main_arg6) :=
  calc W6 m c (Proc.devRef .tc main_arg6)
    _ = W5 m c (Proc.devRef .tc main_arg6) := StableHlo.after_of_writes_sub hostOps2 _ hostOps2_writes (by decide)
    _ = W4 m c (Proc.devRef .tc main_arg6) := W5_of_ne m c main_arg6 (by decide)
    _ = W3 m c (Proc.devRef .tc main_arg6) := W4_of_ne m c main_arg6 (by decide)
    _ = m ((c : Thread nD τ).loc main_arg6) := (V3_of m c main_arg6 (by decide)).trans <| (V2_of m c main_arg6 (by decide)).trans <| (V1_of m c main_arg6 (by decide)).trans rfl
theorem W6_main_arg7 (c : Dev nD) : W6 m c (Proc.devRef .tc main_arg7) = m ((c : Thread nD τ).loc main_arg7) :=
  calc W6 m c (Proc.devRef .tc main_arg7)
    _ = W5 m c (Proc.devRef .tc main_arg7) := StableHlo.after_of_writes_sub hostOps2 _ hostOps2_writes (by decide)
    _ = W4 m c (Proc.devRef .tc main_arg7) := W5_of_ne m c main_arg7 (by decide)
    _ = W3 m c (Proc.devRef .tc main_arg7) := W4_of_ne m c main_arg7 (by decide)
    _ = m ((c : Thread nD τ).loc main_arg7) := (V3_of m c main_arg7 (by decide)).trans <| (V2_of m c main_arg7 (by decide)).trans <| (V1_of m c main_arg7 (by decide)).trans rfl
theorem W6_main_arg8 (c : Dev nD) : W6 m c (Proc.devRef .tc main_arg8) = m ((c : Thread nD τ).loc main_arg8) :=
  calc W6 m c (Proc.devRef .tc main_arg8)
    _ = W5 m c (Proc.devRef .tc main_arg8) := StableHlo.after_of_writes_sub hostOps2 _ hostOps2_writes (by decide)
    _ = W4 m c (Proc.devRef .tc main_arg8) := W5_of_ne m c main_arg8 (by decide)
    _ = W3 m c (Proc.devRef .tc main_arg8) := W4_of_ne m c main_arg8 (by decide)
    _ = m ((c : Thread nD τ).loc main_arg8) := (V3_of m c main_arg8 (by decide)).trans <| (V2_of m c main_arg8 (by decide)).trans <| (V1_of m c main_arg8 (by decide)).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: entered from every unscoped buffer at `W3`, left at `W4`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (show Pipeline.ΦA spec0 c ⊢ (pdats m 0 c).Φ 0 from hin0 (VA m) c)
    show iprop((∃ r, prngReg c r) ∗ Pipeline.prefHeld (pcfgs (F := F) 0).pre c (fun _ => fullShare) (adm 0).1 ∗ Pipeline.scopedRest spec0 c) ⊢ iprop(Pipeline.scopedRest spec0 c ∗ ∃ r, prngReg c r)
    iintro ⟨Hp, -, Hr⟩
    isplitl [Hr]; · iexact Hr
    iexact Hp
  hout c := by
    rw [Pipeline.ownSems0_none]
    refine BI.Entails.trans (show (pdats m 0 c).Φ (Fin.last _) ⊢ Pipeline.ΦA spec0 c from hout0 (VA m) c) ?_
    show iprop(Pipeline.scopedRest spec0 c ∗ ∃ r, prngReg c r) ⊢ iprop((∃ r, prngReg c r) ∗ BI.emp ∗ Pipeline.scopedRest spec0 c)
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W4`, left at `W5`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (show Pipeline.ΦA spec1 c ⊢ (pdats m 1 c).Φ 0 from hin1 (VB m) c)
    show iprop((∃ r, prngReg c r) ∗ Pipeline.prefHeld (pcfgs (F := F) 1).pre c (fun _ => fullShare) (adm 1).1 ∗ Pipeline.scopedRest spec1 c) ⊢ iprop(Pipeline.scopedRest spec1 c ∗ ∃ r, prngReg c r)
    iintro ⟨Hp, -, Hr⟩
    isplitl [Hr]; · iexact Hr
    iexact Hp
  hout c := by
    rw [Pipeline.ownSems0_none]
    refine BI.Entails.trans (show (pdats m 1 c).Φ (Fin.last _) ⊢ Pipeline.ΦA spec1 c from hout1 (VB m) c) ?_
    show iprop(Pipeline.scopedRest spec1 c ∗ ∃ r, prngReg c r) ⊢ iprop((∃ r, prngReg c r) ∗ BI.emp ∗ Pipeline.scopedRest spec1 c)
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (VC m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .region (reg0 m),
    .region (reg1 m),
    .host (hseg hostOps2 hostOps2_sub hostOps2_fresh (W5 m)) ]

set_option backward.isDefEq.respectTransparency.types false in
/-- THE RUN: from any memory with zero counters every weakly fair execution of @main terminates, nothing faulting,
    and every final state holds every unscoped buffer of every core at the fold's last contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c _ (mem_uc main_arg0 (by decide))).trans (W6_main_arg0 m c),
    (h c _ (mem_uc main_arg1 (by decide))).trans (W6_main_arg1 m c),
    (h c _ (mem_uc main_arg2 (by decide))).trans (W6_main_arg2 m c),
    (h c _ (mem_uc main_arg3 (by decide))).trans (W6_main_arg3 m c),
    (h c _ (mem_uc main_arg4 (by decide))).trans (W6_main_arg4 m c),
    (h c _ (mem_uc main_arg5 (by decide))).trans (W6_main_arg5 m c),
    (h c _ (mem_uc main_arg6 (by decide))).trans (W6_main_arg6 m c),
    (h c _ (mem_uc main_arg7 (by decide))).trans (W6_main_arg7 m c),
    (h c _ (mem_uc main_arg8 (by decide))).trans (W6_main_arg8 m c)⟩) (run_all m ρ)

end Cert.KernelIdeal.Hand

end
-- ==== Proof.Spec.lean ====
/-
  The function both programs compute, index by index, over the extended reals.

  Shapes: the activations `x` are [4, 2048, 4096]; the gathered codebook entries `g` are laid out [4096, 4096] with
  row `ob·64 + ib` (the pair of 64×64 blocks) and column `r·64 + c` (the place inside the block); the per-8×8-tile
  affine parameters `gs`, `gb` are [512, 1, 512, 1]; `lf` is [128, 4096]; `ls` is [8192, 128] (rows 0…4095 the
  multiplicative half, rows 4096…8191 the additive half); `sc`, `bi` are [4096].

  The dequantised weight at output `o = ob·64 + r` and input `i = ib·64 + c` is
      w(o, i) = gb(o/8, i/8) + g(ob·64 + ib, r·64 + c) · gs(o/8, i/8),
  the low-rank hidden state is h(b, s, r) = Σ_i x(b, s, i) · lf(r, i), and the result is
      (Σ_r h(b,s,r) · ls(4096 + o, r) + bi(o)) + (Σ_r h(b,s,r) · ls(o, r) + sc(o)) · Σ_i x(b,s,i) · w(o, i).
  Only commutativity and associativity of + and · on the extended reals relate the two programs to this
  function (a sum taken in four blocks of 1024 is the whole sum), so no finiteness is used.
-/
import Idealize.ShloMosaic.PureOps.Ideal
import Idealize.ShloMosaic.Lib.ValueIdx

noncomputable section

open scoped BigOperators

namespace Cert.Spec

open Idealize.ShloMosaic Idealize.ShloMosaic.ValueIdx

/-- Output row `o`'s block row and place in it, input column likewise: the gathered entry behind weight (o, i). -/
def gRow (o i : Fin 4096) : Fin 4096 := ⟨(o.val / 64) * 64 + i.val / 64, by have := o.isLt; have := i.isLt; omega⟩
def gCol (o i : Fin 4096) : Fin 4096 := ⟨(o.val % 64) * 64 + i.val % 64, by have := o.isLt; have := i.isLt; omega⟩
/-- The 8×8 tile of weight (o, i). -/
def tile (o i : Fin 4096) : (⟨4, ![512, 1, 512, 1]⟩ : Shape).Idx :=
  ix4 (⟨o.val / 8, by have := o.isLt; omega⟩ : Fin 512) (0 : Fin 1) (⟨i.val / 8, by have := i.isLt; omega⟩ : Fin 512) (0 : Fin 1)

/-- The dequantised weight: bias + gathered entry · scale of its tile. -/
def w (g : (⟨2, ![4096, 4096]⟩ : Shape).Idx → EReal) (gs gb : (⟨4, ![512, 1, 512, 1]⟩ : Shape).Idx → EReal)
    (o i : Fin 4096) : EReal :=
  gb (tile o i) + g (ix2 (gRow o i) (gCol o i)) * gs (tile o i)

/-- The low-rank hidden state. -/
def h (x : (⟨3, ![4, 2048, 4096]⟩ : Shape).Idx → EReal) (lf : (⟨2, ![128, 4096]⟩ : Shape).Idx → EReal)
    (b : Fin 4) (s : Fin 2048) (r : Fin 128) : EReal :=
  ∑ i : Fin 4096, x (ix3 b s i) * lf (ix2 r i)

/-- Row `4096 + o` of the low-rank second factor (its additive half). -/
def hi (o : Fin 4096) : Fin 8192 := ⟨4096 + o.val, by have := o.isLt; omega⟩
/-- Row `o` of it (its multiplicative half). -/
def lo (o : Fin 4096) : Fin 8192 := ⟨o.val, by have := o.isLt; omega⟩

/-- The result at (b, s, o). -/
def G (x : (⟨3, ![4, 2048, 4096]⟩ : Shape).Idx → EReal) (g : (⟨2, ![4096, 4096]⟩ : Shape).Idx → EReal)
    (gs gb : (⟨4, ![512, 1, 512, 1]⟩ : Shape).Idx → EReal) (lf : (⟨2, ![128, 4096]⟩ : Shape).Idx → EReal)
    (ls : (⟨2, ![8192, 128]⟩ : Shape).Idx → EReal) (sc bi : (⟨1, ![4096]⟩ : Shape).Idx → EReal) :
    (⟨3, ![4, 2048, 4096]⟩ : Shape).Idx → EReal := fun j =>
  ((∑ r : Fin 128, h x lf (j 0) (j 1) r * ls (ix2 (hi (j 2)) r)) + bi (ix1 (j 2)))
    + ((∑ r : Fin 128, h x lf (j 0) (j 1) r * ls (ix2 (lo (j 2)) r)) + sc (ix1 (j 2)))
      * ∑ i : Fin 4096, x (ix3 (j 0) (j 1) i) * w g gs gb (j 2) i

end Cert.Spec

end
-- ==== Proof.KI.HostValue.lean ====
/-
  What the host operations before the first kernel region leave in six of the buffers the two kernels read, read at an
  index: each is a re-layout (reshape, transpose, slice) of one argument, and over the extended reals the cast to the
  16-bit format is the identity.
-/
import proofs.«108895_j83004537962674_2_alg».proof.Proof.Gen.KernelIdeal.Regions
import proofs.«108895_j83004537962674_2_alg».proof.Proof.Spec
import Idealize.ShloMosaic.Lib.StableHlo.Run
import Idealize.ShloMosaic.Lib.Pipeline.Value
import Idealize.ShloMosaic.Lib.ValueIdx

noncomputable section

namespace Cert.KernelIdeal.HostValue

open Cert.KernelIdeal Cert.KernelIdeal.Gen Idealize.ShloMosaic Idealize.ShloMosaic.TcCoe Idealize.ShloMosaic.ValueIdx

variable (m : (ℓ : Loc nD τ sig) → Buf (Elt Ideal) ℓ) (c : Dev nD)

/-! ## The six buffers that are a re-layout of one argument -/

/-- The activations, reshaped to [8192, 4096]. -/
theorem v14_term : (V3 m c main_v14 : S8192x4096.Idx → EReal)
    = shapeCast _ (m ((c : Thread nD τ).loc main_arg0)) shapeCasts_S4x2048x4096_S8192x4096 := by
  dsimp only [V3, V2, V1, V0]
  after_results
  rfl

/-- Row `r` of the reshaped activations is batch `r / 2048`, position `r % 2048`. -/
theorem v14_apply (r : Fin 8192) (k : Fin 4096) :
    (V3 m c main_v14 : S8192x4096.Idx → EReal) (ix2 r k)
      = m ((c : Thread nD τ).loc main_arg0)
          (ix3 (⟨r.val / 2048, by have := r.isLt; omega⟩ : Fin 4) (⟨r.val % 2048, by omega⟩ : Fin 2048) k) := by
  rw [v14_term]
  exact shapeCast_apply _ shapeCasts_S4x2048x4096_S8192x4096 (ix2 r k) _
    (by rewrite [Shape.rowMajor_val_three, Shape.rowMajor_val_two]
        show (r.val / 2048 * 2048 + r.val % 2048) * 4096 + k.val = r.val * 4096 + k.val
        omega)

/-- The low-rank first factor, transposed. -/
theorem v16_term : (V3 m c main_v16 : S4096x128.Idx → EReal)
    = (truncf .bf16 (transpose S4096x128 [1, 0] (m ((c : Thread nD τ).loc main_arg3)) transposes_S128x4096_S4096x128_1_0 : FVec Ideal S4096x128 .f32) bitsLt_bf16_f32 : FVec Ideal S4096x128 .bf16) := by
  dsimp only [V3, V2, V1, V0]
  after_results

theorem v16_apply (k : Fin 4096) (j : Fin 128) :
    (V3 m c main_v16 : S4096x128.Idx → EReal) (ix2 k j) = m ((c : Thread nD τ).loc main_arg3) (ix2 j k) := by
  rw [v16_term, truncf_apply]
  exact transpose_apply [1, 0] _ transposes_S128x4096_S4096x128_1_0 (ix2 k j) (ix2 j k) (fun b => match b with
    | ⟨0, _⟩ => rfl
    | ⟨1, _⟩ => rfl)

/-- The multiplicative half of the low-rank second factor (rows 0…4095), transposed. -/
theorem v19_term : (V3 m c main_v19 : S128x4096.Idx → EReal)
    = (truncf .bf16 (transpose S128x4096 [1, 0] (extractStridedSlice S4096x128 ![0, 0] (m ((c : Thread nD τ).loc main_arg4)) slices_S8192x128_S4096x128_0_0) transposes_S4096x128_S128x4096_1_0 : FVec Ideal S128x4096 .f32) bitsLt_bf16_f32 : FVec Ideal S128x4096 .bf16) := by
  dsimp only [V3, V2, V1, V0]
  after_results

theorem v19_apply (r : Fin 128) (o : Fin 4096) :
    (V3 m c main_v19 : S128x4096.Idx → EReal) (ix2 r o) = m ((c : Thread nD τ).loc main_arg4) (ix2 (Cert.Spec.lo o) r) := by
  rw [v19_term, truncf_apply]
  rw [transpose_apply [1, 0] _ transposes_S4096x128_S128x4096_1_0 (ix2 r o) (ix2 o r) (fun b => match b with
    | ⟨0, _⟩ => rfl
    | ⟨1, _⟩ => rfl)]
  exact extractStridedSlice_apply ![0, 0] _ slices_S8192x128_S4096x128_0_0 (ix2 o r) (ix2 (Cert.Spec.lo o) r) (fun a => match a with
    | ⟨0, _⟩ => by show o.val = 0 + o.val; omega
    | ⟨1, _⟩ => by show r.val = 0 + r.val; omega)

/-- The additive half of the low-rank second factor (rows 4096…8191), transposed. -/
theorem v22_term : (V3 m c main_v22 : S128x4096.Idx → EReal)
    = (truncf .bf16 (transpose S128x4096 [1, 0] (extractStridedSlice S4096x128 ![4096, 0] (m ((c : Thread nD τ).loc main_arg4)) slices_S8192x128_S4096x128_4096_0) transposes_S4096x128_S128x4096_1_0 : FVec Ideal S128x4096 .f32) bitsLt_bf16_f32 : FVec Ideal S128x4096 .bf16) := by
  dsimp only [V3, V2, V1, V0]
  after_results

theorem v22_apply (r : Fin 128) (o : Fin 4096) :
    (V3 m c main_v22 : S128x4096.Idx → EReal) (ix2 r o) = m ((c : Thread nD τ).loc main_arg4) (ix2 (Cert.Spec.hi o) r) := by
  rw [v22_term, truncf_apply]
  rw [transpose_apply [1, 0] _ transposes_S4096x128_S128x4096_1_0 (ix2 r o) (ix2 o r) (fun b => match b with
    | ⟨0, _⟩ => rfl
    | ⟨1, _⟩ => rfl)]
  exact extractStridedSlice_apply ![4096, 0] _ slices_S8192x128_S4096x128_4096_0 (ix2 o r) (ix2 (Cert.Spec.hi o) r) (fun a => match a with
    | ⟨0, _⟩ => by show 4096 + o.val = 4096 + o.val; rfl
    | ⟨1, _⟩ => by show r.val = 0 + r.val; omega)

/-- The output scale as a one-row array. -/
theorem v23_term : (V3 m c main_v23 : S1x4096.Idx → EReal)
    = shapeCast _ (m ((c : Thread nD τ).loc main_arg7)) shapeCasts_S4096_S1x4096 := by
  dsimp only [V3, V2, V1, V0]
  after_results
  rfl

theorem v23_apply (o : Fin 4096) :
    (V3 m c main_v23 : S1x4096.Idx → EReal) (ix2 (0 : Fin 1) o) = m ((c : Thread nD τ).loc main_arg7) (ix1 o) := by
  rw [v23_term]
  exact shapeCast_apply _ shapeCasts_S4096_S1x4096 (ix2 (0 : Fin 1) o) (ix1 o)
    (by rewrite [Shape.rowMajor_val_one, Shape.rowMajor_val_two]
        show o.val = 0 * 4096 + o.val
        omega)

/-- The output bias as a one-row array. -/
theorem v24_term : (V3 m c main_v24 : S1x4096.Idx → EReal)
    = shapeCast _ (m ((c : Thread nD τ).loc main_arg8)) shapeCasts_S4096_S1x4096 := by
  dsimp only [V3, V2, V1, V0]
  after_results
  rfl

theorem v24_apply (o : Fin 4096) :
    (V3 m c main_v24 : S1x4096.Idx → EReal) (ix2 (0 : Fin 1) o) = m ((c : Thread nD τ).loc main_arg8) (ix1 o) := by
  rw [v24_term]
  exact shapeCast_apply _ shapeCasts_S4096_S1x4096 (ix2 (0 : Fin 1) o) (ix1 o)
    (by rewrite [Shape.rowMajor_val_one, Shape.rowMajor_val_two]
        show o.val = 0 * 4096 + o.val
        omega)

end Cert.KernelIdeal.HostValue

end
-- ==== Proof.LibReshape.lean ====
/-
  Row-major reshapes and one broadcast read at an index given by coordinates.
  • A trailing unit axis added, [a, b] → [a, b, 1]: entry (p, q, u) of the result is entry (p, q) of the operand.
  • That unit axis broadcast, [a, b, 1] → [a, b, c]: entry (p, q, r) of the result is entry (p, q, 0) of the operand.
  • MERGING the two trailing axes, [a, b, c] → [a, d] with d = b · c: entry (o, i) of the result is entry
    (o, i / c, i % c) of the operand.
  • SPLITTING the leading axis, [n, c] → [a, b, c] with n = a · b: entry (p, q, k) of the result is entry
    (p · b + q, k) of the operand.
  The reshapes are the library's `shapeCast_apply` with the row-major positions written out, the broadcast its
  `broadcastTo_apply` axis by axis.
-/
import Idealize.ShloMosaic.Lib.Pipeline.Value
import Idealize.ShloMosaic.Lib.ValueIdx

namespace Idealize.ShloMosaic.ValueIdx

open Idealize.ShloMosaic

variable {α : Type}

/-- `[a, b]` viewed as `[a, b, 1]`: at `(p, q, u)` the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- `[a, b, 1]` broadcast to `[a, b, c]`: at `(p, q, r)` the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- `[a, b, c]` viewed as `[a, d]`, `d = b · c`: at `(o, i)` the operand at `(o, i / c, i % c)`. -/
theorem shapeCast_abc_ad_apply {a b c d : ℕ} (hd : d = b * c) (hc : 0 < c) (x : (⟨3, ![a, b, c]⟩ : Shape).Idx → α)
    (h : (⟨3, ![a, b, c]⟩ : Shape).ShapeCasts ⟨2, ![a, d]⟩) (o : Fin a) (i : Fin d) :
    shapeCast ⟨2, ![a, d]⟩ x h (ix2 o i)
      = x (ix3 o (⟨i.val / c, Nat.div_lt_of_lt_mul (lt_of_lt_of_eq i.isLt (hd.trans (Nat.mul_comm b c)))⟩ : Fin b)
          (⟨i.val % c, Nat.mod_lt _ hc⟩ : Fin c)) :=
  shapeCast_apply x h _ _ (by
    rw [Shape.rowMajor_val_three, Shape.rowMajor_val_two]
    show (o.val * b + i.val / c) * c + i.val % c = o.val * d + i.val
    rw [Nat.add_mul, Nat.add_assoc, Nat.div_add_mod' i.val c, Nat.mul_assoc, ← hd])

/-- `[n, c]` viewed as `[a, b, c]`, `n = a · b`: at `(p, q, k)` the operand at `(p · b + q, k)`. -/
theorem shapeCast_nc_abc_apply {a b c n : ℕ} (hn : n = a * b) (x : (⟨2, ![n, c]⟩ : Shape).Idx → α)
    (h : (⟨2, ![n, c]⟩ : Shape).ShapeCasts ⟨3, ![a, b, c]⟩) (p : Fin a) (q : Fin b) (k : Fin c) :
    shapeCast ⟨3, ![a, b, c]⟩ x h (ix3 p q k)
      = x (ix2 (⟨p.val * b + q.val, by
            rw [hn]
            calc p.val * b + q.val < p.val * b + b := Nat.add_lt_add_left q.isLt _
              _ = (p.val + 1) * b := by rw [Nat.add_mul, Nat.one_mul]
              _ ≤ a * b := Nat.mul_le_mul_right b p.isLt⟩ : Fin n) k) :=
  shapeCast_apply x h _ _ (by
    rw [Shape.rowMajor_val_three, Shape.rowMajor_val_two]
    rfl)

end Idealize.ShloMosaic.ValueIdx
-- ==== Proof.KI.Value.lean ====
/-
  The kernel program's result array, at the extended reals: the last reshape of what the second region leaves, which
  is the combination (Σ_r H·La + bias) + (Σ_r H·Lm + scale) · Σ_k A·Wt of the arrays it was entered with — A the
  activations' 16-bit copy, which over the extended reals is the activations reshaped to [8192, 4096]; H what the
  first region leaves, the activations times the transposed low-rank first factor; Wt the transposed dequantised
  weight; Lm, La the two transposed halves of the low-rank second factor —, each read back to the arguments: the
  specification's function.
-/
import proofs.«108895_j83004537962674_2_alg».proof.Proof.KI.Frame
import proofs.«108895_j83004537962674_2_alg».proof.Proof.KI.HostValue
import proofs.«108895_j83004537962674_2_alg».proof.Proof.Spec
import proofs.«108895_j83004537962674_2_alg».proof.Proof.LibReshape
import Idealize.ShloMosaic.Lib.StableHlo.Run
import Idealize.ShloMosaic.Lib.Pipeline.Value
import Idealize.ShloMosaic.Lib.ValueIdx

noncomputable section

open scoped BigOperators

namespace Cert.KernelIdeal.HandValue

open Cert.KernelIdeal Cert.KernelIdeal.Gen Cert.KernelIdeal.Hand Cert.KernelIdeal.HostValue
open Idealize.ShloMosaic Idealize.ShloMosaic.TcCoe Idealize.ShloMosaic.ValueIdx Idealize.ShloMosaic.Pipeline

variable (m : (ℓ : Loc nD τ sig) → Buf (Elt Ideal) ℓ) (c : Dev nD)

/-- The result buffer is the last reshape of what region 1 leaves in its output array. -/
theorem v27_term : (W6 m c main_v27 : S4x2048x4096.Idx → EReal)
    = shapeCast _ (W5 m c main_v26 : S8192x4096.Idx → EReal) shapeCasts_S8192x4096_S4x2048x4096 := by
  show StableHlo.after hostOps2 (W5 m c) (Proc.devRef .tc main_v27) = _
  after_results
  rfl

/-- Buffers region 0 does not touch, as region 1 finds them. -/
theorem VB_v13 : (VB m c main_v13 : S4096x4096.Idx → EReal) = V3 m c main_v13 := W4_of_ne m c main_v13 (by decide)
theorem VB_v19 : (VB m c main_v19 : S128x4096.Idx → EReal) = V3 m c main_v19 := W4_of_ne m c main_v19 (by decide)
theorem VB_v22 : (VB m c main_v22 : S128x4096.Idx → EReal) = V3 m c main_v22 := W4_of_ne m c main_v22 (by decide)
theorem VB_v23 : (VB m c main_v23 : S1x4096.Idx → EReal) = V3 m c main_v23 := W4_of_ne m c main_v23 (by decide)
theorem VB_v24 : (VB m c main_v24 : S1x4096.Idx → EReal) = V3 m c main_v24 := W4_of_ne m c main_v24 (by decide)

/-- The arrays, each as a function from its indices to the extended reals. -/
abbrev aX : S8192x4096.Idx → EReal := V3 m c main_v14
abbrev aL : S4096x128.Idx → EReal := V3 m c main_v16
abbrev aW : S4096x4096.Idx → EReal := V3 m c main_v13
abbrev aH : S8192x128.Idx → EReal := VB m c main_v25_0
abbrev aA : S8192x4096.Idx → EReal := VB m c main_v25_1
abbrev aWt : S4096x4096.Idx → EReal := VB m c main_v13
abbrev aLm : S128x4096.Idx → EReal := VB m c main_v19
abbrev aLa : S128x4096.Idx → EReal := VB m c main_v22
abbrev aSc : S1x4096.Idx → EReal := VB m c main_v23
abbrev aBi : S1x4096.Idx → EReal := VB m c main_v24
abbrev aOut : S8192x4096.Idx → EReal := W5 m c main_v26

/-- Row `b·2048 + s` of the reshaped activations. -/
def row (b : Fin 4) (s : Fin 2048) : Fin 8192 := ⟨b.val * 2048 + s.val, by have := b.isLt; have := s.isLt; omega⟩

theorem row_div (b : Fin 4) (s : Fin 2048) : (⟨(row b s).val / 2048, by have := (row b s).isLt; omega⟩ : Fin 4) = b := by
  apply Fin.ext; show (b.val * 2048 + s.val) / 2048 = b.val; have := s.isLt; omega
theorem row_mod (b : Fin 4) (s : Fin 2048) : (⟨(row b s).val % 2048, by omega⟩ : Fin 2048) = s := by
  apply Fin.ext; show (b.val * 2048 + s.val) % 2048 = s.val; have := s.isLt; omega

/-- The result from the three arrays the regions leave and the transposed weight, each given at coordinates. -/
theorem final_of
    (gK : S4096x4096.Idx → EReal)
    (h03 : ∀ (r : Fin 8192) (k : Fin 4096), aA m c (ix2 r k) = aX m c (ix2 r k))
    (h02 : ∀ (r : Fin 8192) (q : Fin 128), aH m c (ix2 r q) = ∑ k : Fin 4096, aX m c (ix2 r k) * aL m c (ix2 k q))
    (h17 : ∀ (r : Fin 8192) (o : Fin 4096), aOut m c (ix2 r o)
      = ((∑ q : Fin 128, aH m c (ix2 r q) * aLa m c (ix2 q o)) + aBi m c (ix2 (0 : Fin 1) o))
          + ((∑ q : Fin 128, aH m c (ix2 r q) * aLm m c (ix2 q o)) + aSc m c (ix2 (0 : Fin 1) o))
            * ∑ k : Fin 4096, aA m c (ix2 r k) * aWt m c (ix2 k o))
    (hw : ∀ (i o : Fin 4096), aW m c (ix2 i o)
      = Cert.Spec.w gK (m ((c : Thread nD τ).loc main_arg5)) (m ((c : Thread nD τ).loc main_arg6)) o i) :
    (W6 m c main_v27 : S4x2048x4096.Idx → EReal)
      = Cert.Spec.G (m ((c : Thread nD τ).loc main_arg0)) gK (m ((c : Thread nD τ).loc main_arg5)) (m ((c : Thread nD τ).loc main_arg6))
          (m ((c : Thread nD τ).loc main_arg3)) (m ((c : Thread nD τ).loc main_arg4)) (m ((c : Thread nD τ).loc main_arg7)) (m ((c : Thread nD τ).loc main_arg8)) := by
  rw [v27_term]
  funext j
  obtain ⟨b, s, o, rfl⟩ : ∃ (b : Fin 4) (s : Fin 2048) (o : Fin 4096), j = ix3 b s o := ⟨j 0, j 1, j 2, eq_ix3 j⟩
  refine (shapeCast_nc_abc_apply (a := 4) (b := 2048) (c := 4096) (n := 8192) rfl _ shapeCasts_S8192x4096_S4x2048x4096 b s o).trans ?_
  show aOut m c (ix2 (row b s) o) = _
  rw [h17]
  have hH : ∀ q : Fin 128, aH m c (ix2 (row b s) q)
      = Cert.Spec.h (m ((c : Thread nD τ).loc main_arg0)) (m ((c : Thread nD τ).loc main_arg3)) b s q := by
    intro q
    rw [h02]
    unfold Cert.Spec.h
    refine Finset.sum_congr rfl fun k _ => ?_
    exact congrArg₂ (· * ·) ((v14_apply m c (row b s) k).trans (by rw [row_div, row_mod])) (v16_apply m c k q)
  have hA : ∀ k : Fin 4096, aA m c (ix2 (row b s) k)
      = m ((c : Thread nD τ).loc main_arg0) (ix3 b s k) := by
    intro k
    rw [h03]
    exact (v14_apply m c (row b s) k).trans (by rw [row_div, row_mod])
  unfold Cert.Spec.G
  have eWt : ∀ k : Fin 4096, aWt m c (ix2 k o) = Cert.Spec.w gK (m ((c : Thread nD τ).loc main_arg5)) (m ((c : Thread nD τ).loc main_arg6)) o k := by
    intro k; exact (congrFun (VB_v13 m c) _).trans (hw k o)
  have eLm : ∀ q : Fin 128, aLm m c (ix2 q o) = m ((c : Thread nD τ).loc main_arg4) (ix2 (Cert.Spec.lo o) q) := by
    intro q; exact (congrFun (VB_v19 m c) _).trans (v19_apply m c q o)
  have eLa : ∀ q : Fin 128, aLa m c (ix2 q o) = m ((c : Thread nD τ).loc main_arg4) (ix2 (Cert.Spec.hi o) q) := by
    intro q; exact (congrFun (VB_v22 m c) _).trans (v22_apply m c q o)
  have eSc : aSc m c (ix2 (0 : Fin 1) o) = m ((c : Thread nD τ).loc main_arg7) (ix1 o) := by
    exact (congrFun (VB_v23 m c) _).trans (v23_apply m c o)
  have eBi : aBi m c (ix2 (0 : Fin 1) o) = m ((c : Thread nD τ).loc main_arg8) (ix1 o) := by
    exact (congrFun (VB_v24 m c) _).trans (v24_apply m c o)
  simp only [hH, hA, eWt, eLm, eLa, eSc, eBi]

end Cert.KernelIdeal.HandValue

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.LibSumBlocks.lean ====
/-
  A sum over an index range cut into equal consecutive blocks: the sum over `Fin N`, `N = a·b`, is the sum
  over the `a` blocks of the sums over the `b` positions inside each, position `k` of block `t` being the index
  `t·b + k`. In any commutative additive monoid (the extended reals among them), so no finiteness is asked.
-/
import Mathlib

namespace Cert.LibSumBlocks

/-- Position `k` of block `t` lies inside the range. -/
theorem block_lt {a b : ℕ} (t : Fin a) (k : Fin b) : t.val * b + k.val < a * b := by
  have h1 : t.val + 1 ≤ a := t.isLt
  have h2 : k.val < b := k.isLt
  calc t.val * b + k.val < t.val * b + b := by omega
    _ = (t.val + 1) * b := by ring
    _ ≤ a * b := Nat.mul_le_mul_right b h1

/-- The sum over `Fin N`, `N = a·b`, block by block. -/
theorem sum_blocks {M : Type*} [AddCommMonoid M] (a b N : ℕ) (h : N = a * b) (f : Fin N → M) :
    ∑ n : Fin N, f n = ∑ t : Fin a, ∑ k : Fin b, f ⟨t.val * b + k.val, h ▸ block_lt t k⟩ := by
  subst h
  rw [← Equiv.sum_comp finProdFinEquiv f, Fintype.sum_prod_type]
  refine Finset.sum_congr rfl fun t _ => Finset.sum_congr rfl fun k _ => ?_
  congr 1
  apply Fin.ext
  simp only [finProdFinEquiv_apply_val]
  ring

end Cert.LibSumBlocks
-- ==== Proof.KI.R0Value.lean ====
import proofs.«108895_j83004537962674_2_alg».proof.Proof.KI.R0Body
import Idealize.ShloMosaic.Lib.Pipeline.Value
import Idealize.ShloMosaic.Lib.ValueIdx
import proofs.«108895_j83004537962674_2_alg».proof.Proof.LibDot
import proofs.«108895_j83004537962674_2_alg».proof.Proof.LibSumBlocks

set_option maxRecDepth 16384

noncomputable section

namespace Cert.KernelIdeal.HandValue0

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators
/-! # Region 0: what its two output arrays end holding, over the extended reals

The first output ends at the product of the input with the first low-rank factor, the second at the input itself. -/

/-! ## What each case's stores leave: the payloads of the blocks -/

section Pieces
variable {F : FTy → Type} [FloatOps F]

theorem hz : (![0, 0] : Fin 2 → Nat) = fun _ => 0 := funext fun a => by fin_cases a <;> rfl

/-- Case A leaves the input block, narrowed, in the second output's buffer. -/
theorem out_A_3 (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : cond0_0 i) (hc1 : ¬cond0_1 i)
    (x0 : Vec F S1024x1024 .f32) (x1 : Vec F S1024x128 .bf16) :
    out0_A_3 c i arg2 harg2 arg3 harg3 arg4 harg4 arg5 harg5 arg6 harg6 hc0 hc1 x0 x1 = k0_pay2 x0 := by
  unfold out0_A_3
  rw [View.read_writes_eq_canon _ _ _ (cover0_A_3 c i arg2 harg2 arg3 harg3 arg4 harg4 arg5 harg5 arg6 harg6 hc0 hc1 x0 x1)]
  unfold kernelRun0_A
  dsimp only
  rw [View.canon_unit_zero (S := S1024x1024) hz]
  simp only [View.readAt_eq_ld, harg2.read_unread, View.ld_unit_zero (S := S1024x1024) hz]

/-- Case A leaves in the accumulator the zero block plus the product of the two input blocks. -/
theorem sout_A_0 (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : cond0_0 i) (hc1 : ¬cond0_1 i)
    (x0 : Vec F S1024x1024 .f32) (x1 : Vec F S1024x128 .bf16) :
    sout0_A_0 c i arg2 harg2 arg3 harg3 arg4 harg4 arg5 harg5 arg6 harg6 hc0 hc1 x0 x1 = k0_pay3 x0 (k0_pay1 (F := F)) x1 := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S1024x128) hz, View.readCov_unit_zero (S := S1024x128) _ hz]
  simp only [View.readAt_eq_ld, harg2.read_unread, harg3.read_unread, View.ld_unit_zero (S := S1024x1024) hz, View.ld_unit_zero (S := S1024x128) hz]

/-- Case B leaves the input block, narrowed, in the second output's buffer. -/
theorem out_B_3 (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : ¬cond0_0 i) (hc1 : ¬cond0_1 i)
    (x0 : Vec F S1024x1024 .f32) (x1 : Vec F S1024x128 .bf16) (xs0 : Vec F S1024x128 .f32) :
    out0_B_3 c i arg2 harg2 arg3 harg3 arg4 harg4 arg5 harg5 arg6 harg6 hc0 hc1 x0 x1 xs0 = k0_pay2 x0 := by
  unfold out0_B_3
  rw [View.read_writes_eq_canon _ _ _ (cover0_B_3 c i arg2 harg2 arg3 harg3 arg4 harg4 arg5 harg5 arg6 harg6 hc0 hc1 x0 x1 xs0)]
  unfold kernelRun0_B
  dsimp only
  rw [View.canon_unit_zero (S := S1024x1024) hz]
  simp only [View.readAt_eq_ld, harg2.read_unread, View.ld_unit_zero (S := S1024x1024) hz]

/-- Case B leaves in the accumulator what it held plus the product of the two input blocks. -/
theorem sout_B_0 (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : ¬cond0_0 i) (hc1 : ¬cond0_1 i)
    (x0 : Vec F S1024x1024 .f32) (x1 : Vec F S1024x128 .bf16) (xs0 : Vec F S1024x128 .f32) :
    sout0_B_0 c i arg2 harg2 arg3 harg3 arg4 harg4 arg5 harg5 arg6 harg6 hc0 hc1 x0 x1 xs0 = k0_pay3 x0 xs0 x1 := by
  unfold sout0_B_0
  rw [View.read_writes_eq_canon _ _ _ (scover0_B_0 c i arg2 harg2 arg3 harg3 arg4 harg4 arg5 harg5 arg6 harg6 hc0 hc1 x0 x1 xs0)]
  unfold kernelRun0_B
  dsimp only
  sl_unfold_words
  rw [View.canon_unit_zero (S := S1024x128) hz]
  simp only [View.readAt_eq_ld, harg2.read_unread, harg3.read_unread, harg6.read_unread, View.ld_unit_zero (S := S1024x1024) hz, View.ld_unit_zero (S := S1024x128) hz]

/-- Case C leaves the input block, narrowed, in the second output's buffer. -/
theorem out_C_3 (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : ¬cond0_0 i) (hc1 : cond0_1 i)
    (x0 : Vec F S1024x1024 .f32) (x1 : Vec F S1024x128 .bf16) (xs0 : Vec F S1024x128 .f32) :
    out0_C_3 c i arg2 harg2 arg3 harg3 arg4 harg4 arg5 harg5 arg6 harg6 hc0 hc1 x0 x1 xs0 = k0_pay2 x0 := by
  unfold out0_C_3
  rw [View.read_writes_eq_canon _ _ _ (cover0_C_3 c i arg2 harg2 arg3 harg3 arg4 harg4 arg5 harg5 arg6 harg6 hc0 hc1 x0 x1 xs0)]
  unfold kernelRun0_C
  dsimp only
  rw [View.canon_unit_zero (S := S1024x1024) hz]
  simp only [View.readAt_eq_ld, harg2.read_unread, View.ld_unit_zero (S := S1024x1024) hz]

/-- Case C leaves in the accumulator what it held plus the product of the two input blocks. -/
theorem sout_C_0 (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : ¬cond0_0 i) (hc1 : cond0_1 i)
    (x0 : Vec F S1024x1024 .f32) (x1 : Vec F S1024x128 .bf16) (xs0 : Vec F S1024x128 .f32) :
    sout0_C_0 c i arg2 harg2 arg3 harg3 arg4 harg4 arg5 harg5 arg6 harg6 hc0 hc1 x0 x1 xs0 = k0_pay3 x0 xs0 x1 := by
  unfold sout0_C_0
  rw [View.read_writes_eq_canon _ _ _ (scover0_C_0 c i arg2 harg2 arg3 harg3 arg4 harg4 arg5 harg5 arg6 harg6 hc0 hc1 x0 x1 xs0)]
  unfold kernelRun0_C
  dsimp only
  sl_unfold_words
  rw [View.canon_unit_zero (S := S1024x128) hz]
  simp only [View.readAt_eq_ld, harg2.read_unread, harg3.read_unread, harg6.read_unread, View.ld_unit_zero (S := S1024x1024) hz, View.ld_unit_zero (S := S1024x128) hz]

/-- Case C leaves the new accumulator, narrowed, in the first output's buffer. -/
theorem out_C_2 (c : Dev nD) (i : grid0.Coords) (arg2 : Memref sig .tc .vmem S1024x1024 .f32) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S1024x128 .f32) (harg6 : arg6.IsWhole) (hc0 : ¬cond0_0 i) (hc1 : cond0_1 i)
    (x0 : Vec F S1024x1024 .f32) (x1 : Vec F S1024x128 .bf16) (xs0 : Vec F S1024x128 .f32) :
    out0_C_2 c i arg2 harg2 arg3 harg3 arg4 harg4 arg5 harg5 arg6 harg6 hc0 hc1 x0 x1 xs0 = k0_pay4 (k0_pay3 x0 xs0 x1) := by
  unfold out0_C_2
  rw [View.read_writes_eq_canon _ _ _ (cover0_C_2 c i arg2 harg2 arg3 harg3 arg4 harg4 arg5 harg5 arg6 harg6 hc0 hc1 x0 x1 xs0)]
  unfold kernelRun0_C
  dsimp only
  sl_unfold_words
  rw [View.canon_unit_zero (S := S1024x128) hz, View.readCov_unit_zero (S := S1024x128) _ hz]
  simp only [View.readAt_eq_ld, harg2.read_unread, harg3.read_unread, harg6.read_unread, View.ld_unit_zero (S := S1024x1024) hz, View.ld_unit_zero (S := S1024x128) hz]

end Pieces

/-! ## The payloads at an index, over the extended reals -/

section Payloads

/-- The block product's dimension numbers: rows by columns, one contracted axis. -/
theorem plain0 : Cert.LibDot.Plain (M := 1024) (K := 1024) (N := 128) dot_S1024x1024_S1024x128_S1024x128_1_0_0_1_n_n where
  hrank := rfl
  hs := rfl
  hl0 := fun j k => by
    unfold DotDims.lhsIdx
    rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
    rfl
  hl1 := fun j k => dot_S1024x1024_S1024x128_S1024x128_1_0_0_1_n_n.lhsIdx_val_of_single rfl j k
  hr0 := fun j k => dot_S1024x1024_S1024x128_S1024x128_1_0_0_1_n_n.rhsIdx_val_of_single rfl j k
  hr1 := fun j k => by
    unfold DotDims.rhsIdx
    rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
    rfl

/-- The zero block is zero. -/
theorem pay1_apply (j : S1024x128.Idx) : (k0_pay1 (F := Ideal) j : EReal) = 0 := by
  unfold k0_pay1
  exact (congrFun (shapeCast_self _ _) j).trans Ideal.ofBits_zero_f32

/-- Narrowing changes no extended real. -/
theorem pay2_apply (v3 : Vec Ideal S1024x1024 .f32) (j : S1024x1024.Idx) : (k0_pay2 v3 j : EReal) = v3 j := by
  unfold k0_pay2
  exact congrFun (shapeCast_self v3 _) j

theorem pay4_apply (v18 : Vec Ideal S1024x128 .f32) (j : S1024x128.Idx) : (k0_pay4 v18 j : EReal) = v18 j := rfl

/-- The accumulation step at (r, j): what the accumulator held plus the row-by-column product of the two blocks. -/
theorem pay3_apply (v3 : Vec Ideal S1024x1024 .f32) (v7 : Vec Ideal S1024x128 .f32) (v8 : Vec Ideal S1024x128 .bf16)
    (r : Fin 1024) (j : Fin 128) :
    (k0_pay3 v3 v7 v8 (ix2 r j) : EReal) = (v7 (ix2 r j) : EReal) + ∑ k : Fin 1024, (v3 (ix2 r k) : EReal) * (v8 (ix2 k j) : EReal) := by
  unfold k0_pay3
  refine (congrFun (shapeCast_self _ _) (ix2 r j)).trans ?_
  refine congrArg (fun z : EReal => (v7 (ix2 r j) : EReal) + z) ?_
  refine (Cert.LibDot.matmul_ix2 plain0 none (k0_pay2 v3) (shapeCast S1024x128 v8 shapeCasts_S1024x128_S1024x128) r j).trans ?_
  refine Finset.sum_congr rfl fun k _ => ?_
  exact congr (congrArg (fun a b : EReal => a * b) (pay2_apply v3 (ix2 r k))) (congrFun (shapeCast_self v8 _) (ix2 k j))

end Payloads

/-! ## The index maps, decided over the grid -/

/-- Window 0 is at block (t / 4, t % 4), window 1 at (t % 4, 0), window 2 at (t / 4, 0), window 3 at (t / 4, t % 4). -/
theorem idx0 : ∀ t : Fin cfg0.N, win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = t.val / 4 ∧ win0_3.index t (1 : Fin 2) = t.val % 4 :=
  (by decide +kernel : ∀ t : Fin grid0.N, _)

section Values
variable (V : (c : Dev nD) → (b : Ref sig .tc) → Buf (Elt Ideal) ((c : Thread nD τ).loc b))

/-- The input, and the first low-rank factor, as the region finds them. -/
abbrev X (c : Dev nD) : S8192x4096.Idx → EReal := V c main_v14
abbrev L (c : Dev nD) : S4096x128.Idx → EReal := V c main_v16

/-- Window 0's block at a point, at (r, q): the input at row (t / 4)·1024 + r, column (t % 4)·1024 + q. -/
theorem iblk_0_apply (c : Dev nD) (t : Fin cfg0.N) (r q : Fin 1024) (i : S8192x4096.Idx)
    (h0 : (i 0).val = (t.val / 4) * 1024 + r.val) (h1 : (i 1).val = (t.val % 4) * 1024 + q.val) :
    ((iblk0 V c 0 t : Vec Ideal S1024x1024 .f32) (ix2 r q) : EReal) = X V c i := by
  obtain ⟨e0, e1, -⟩ := idx0 t
  unfold iblk0
  rw [View.read_apply]
  show V c main_v14 _ = V c main_v14 i
  congr 1
  funext a; apply Fin.ext
  match a with
  | ⟨0, _⟩ => show win0_0.index t (0 : Fin 2) * 1024 + 1 * r.val = (i 0).val; omega
  | ⟨1, _⟩ => show win0_0.index t (1 : Fin 2) * 1024 + 1 * q.val = (i 1).val; omega

/-- Window 1's block at a point, at (q, j): the factor at row (t % 4)·1024 + q, column j. -/
theorem iblk_1_apply (c : Dev nD) (t : Fin cfg0.N) (q : Fin 1024) (j : Fin 128) (i : S4096x128.Idx)
    (h0 : (i 0).val = (t.val % 4) * 1024 + q.val) (h1 : (i 1).val = j.val) :
    ((iblk0 V c 1 t : Vec Ideal S1024x128 .bf16) (ix2 q j) : EReal) = L V c i := by
  obtain ⟨-, -, e0, e1, -⟩ := idx0 t
  unfold iblk0
  rw [View.read_apply]
  show V c main_v16 _ = V c main_v16 i
  congr 1
  funext a; apply Fin.ext
  match a with
  | ⟨0, _⟩ => show win0_1.index t (0 : Fin 2) * 1024 + 1 * q.val = (i 0).val; omega
  | ⟨1, _⟩ => show win0_1.index t (1 : Fin 2) * 128 + 1 * j.val = (i 1).val; omega

/-- The product of the two input blocks of point `t`, at (r, j). -/
def blockProd (x0 : Vec Ideal S1024x1024 .f32) (x1 : Vec Ideal S1024x128 .bf16) (r : Fin 1024) (j : Fin 128) : EReal :=
  ∑ q : Fin 1024, (x0 (ix2 r q) : EReal) * (x1 (ix2 q j) : EReal)
def B (c : Dev nD) (t : Fin cfg0.N) (r : Fin 1024) (j : Fin 128) : EReal :=
  blockProd (iblk0 V c 0 t) (iblk0 V c 1 t) r j

set_option maxHeartbeats 4000000 in
/-- After a point of case A the accumulator holds that point's block product. -/
theorem scr_A (c : Dev nD) (t : Fin cfg0.N) (h0 : t.val % 4 = 0) (h1 : ¬t.val % 4 = 3) (r : Fin 1024) (j : Fin 128) :
    ((outsAt0 V c t.val t.isLt).2.2 (ix2 r j) : EReal) = 0 + B V c t r j :=
  ((congrFun (congrArg (fun p => p.2.2) (outsAt0_A V c t h0 h1)) (ix2 r j)).trans
    (congrFun (sout_A_0 (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t)) (ix2 r j))).trans
    ((pay3_apply (iblk0 V c 0 t) (k0_pay1 (F := Ideal)) (iblk0 V c 1 t) r j).trans
      (congrArg (fun z : EReal => z + B V c t r j) (pay1_apply (ix2 r j))))

set_option maxHeartbeats 4000000 in
/-- After a point of case B: what the point before left plus this point's block product. -/
theorem scr_B (c : Dev nD) (t : Fin cfg0.N) (h0 : ¬t.val % 4 = 0) (h1 : ¬t.val % 4 = 3) (r : Fin 1024) (j : Fin 128) :
    ((outsAt0 V c t.val t.isLt).2.2 (ix2 r j) : EReal) = ((outsAt0 V c (t.val - 1) (Nat.lt_of_le_of_lt (Nat.sub_le _ _) t.isLt)).2.2 (ix2 r j) : EReal) + B V c t r j :=
  ((congrFun (congrArg (fun p => p.2.2) (outsAt0_B V c t h0 h1)) (ix2 r j)).trans
    (congrFun (sout_B_0 (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2) (ix2 r j))).trans
    (pay3_apply (iblk0 V c 0 t) (outsAt0 V c (t.val - 1) (Nat.lt_of_le_of_lt (Nat.sub_le _ _) t.isLt)).2.2 (iblk0 V c 1 t) r j)

set_option maxHeartbeats 4000000 in
/-- At a point of case C the first output's buffer is left at: what the point before left plus this point's block product. -/
theorem out2_C (c : Dev nD) (t : Fin cfg0.N) (h0 : ¬t.val % 4 = 0) (h1 : t.val % 4 = 3) (r : Fin 1024) (j : Fin 128) :
    ((outsAt0 V c t.val t.isLt).1 (ix2 r j) : EReal) = ((outsAt0 V c (t.val - 1) (Nat.lt_of_le_of_lt (Nat.sub_le _ _) t.isLt)).2.2 (ix2 r j) : EReal) + B V c t r j :=
  ((congrFun (congrArg (fun p => p.1) (outsAt0_C V c t h0 h1)) (ix2 r j)).trans
    (congrFun (out_C_2 (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2) (ix2 r j))).trans
    (pay3_apply (iblk0 V c 0 t) (outsAt0 V c (t.val - 1) (Nat.lt_of_le_of_lt (Nat.sub_le _ _) t.isLt)).2.2 (iblk0 V c 1 t) r j)

set_option maxHeartbeats 4000000 in
theorem out3_A (c : Dev nD) (t : Fin cfg0.N) (h0 : t.val % 4 = 0) (h1 : ¬t.val % 4 = 3) (y : S1024x1024.Idx) :
    ((outsAt0 V c t.val t.isLt).2.1 y : EReal) = ((iblk0 V c 0 t : Vec Ideal S1024x1024 .f32) y : EReal) :=
  ((congrFun (congrArg (fun p => p.2.1) (outsAt0_A V c t h0 h1)) y).trans
      (congrFun (out_A_3 (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t)) y)).trans (pay2_apply (iblk0 V c 0 t) y)

set_option maxHeartbeats 4000000 in
theorem out3_B (c : Dev nD) (t : Fin cfg0.N) (h0 : ¬t.val % 4 = 0) (h1 : ¬t.val % 4 = 3) (y : S1024x1024.Idx) :
    ((outsAt0 V c t.val t.isLt).2.1 y : EReal) = ((iblk0 V c 0 t : Vec Ideal S1024x1024 .f32) y : EReal) :=
  ((congrFun (congrArg (fun p => p.2.1) (outsAt0_B V c t h0 h1)) y).trans
        (congrFun (out_B_3 (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2) y)).trans (pay2_apply (iblk0 V c 0 t) y)

set_option maxHeartbeats 4000000 in
theorem out3_C (c : Dev nD) (t : Fin cfg0.N) (h0 : ¬t.val % 4 = 0) (h1 : t.val % 4 = 3) (y : S1024x1024.Idx) :
    ((outsAt0 V c t.val t.isLt).2.1 y : EReal) = ((iblk0 V c 0 t : Vec Ideal S1024x1024 .f32) y : EReal) :=
  ((congrFun (congrArg (fun p => p.2.1) (outsAt0_C V c t h0 h1)) y).trans
        (congrFun (out_C_3 (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2) y)).trans (pay2_apply (iblk0 V c 0 t) y)

set_option maxHeartbeats 4000000 in
/-- At every point the second output's buffer is left at the input block. -/
theorem out3_all (c : Dev nD) (t : Fin cfg0.N) (y : S1024x1024.Idx) :
    ((outsAt0 V c t.val t.isLt).2.1 y : EReal) = ((iblk0 V c 0 t : Vec Ideal S1024x1024 .f32) y : EReal) := by
  by_cases h0 : t.val % 4 = 0
  · exact out3_A V c t h0 (by omega) y
  · by_cases h1 : t.val % 4 = 3
    · exact out3_C V c t h0 h1 y
    · exact out3_B V c t h0 h1 y

/-- The block product of point `t` in terms of the arrays: over the columns of column-block `s = t % 4`. -/
theorem B_eq (c : Dev nD) (t : Fin cfg0.N) (r : Fin 1024) (j : Fin 128) (R : Fin 8192) (s : Fin 4)
    (hR : R.val = (t.val / 4) * 1024 + r.val) (hs : s.val = t.val % 4) :
    B V c t r j = ∑ q : Fin 1024, X V c (ix2 R ⟨s.val * 1024 + q.val, Cert.LibSumBlocks.block_lt s q⟩) * L V c (ix2 ⟨s.val * 1024 + q.val, Cert.LibSumBlocks.block_lt s q⟩ j) := by
  unfold B blockProd
  refine Finset.sum_congr rfl fun q _ => ?_
  exact congr (congrArg (fun a b : EReal => a * b)
      (iblk_0_apply V c t r q (ix2 R ⟨s.val * 1024 + q.val, Cert.LibSumBlocks.block_lt s q⟩) hR (by show s.val * 1024 + q.val = _; omega)))
    (iblk_1_apply V c t q j (ix2 ⟨s.val * 1024 + q.val, Cert.LibSumBlocks.block_lt s q⟩ j) (by show s.val * 1024 + q.val = _; omega) rfl)

set_option maxHeartbeats 4000000 in
/-- At a last point of a row of the grid the first output's buffer is left at the whole row-by-column product: the four
    block products of the row, accumulated in order, are the sum over all 4096 columns. -/
theorem acc_last (c : Dev nD) (t : Fin cfg0.N) (h1 : t.val % 4 = 3) (r : Fin 1024) (j : Fin 128) (R : Fin 8192)
    (hR : R.val = (t.val / 4) * 1024 + r.val) :
    ((outsAt0 V c t.val t.isLt).1 (ix2 r j) : EReal) = ∑ k : Fin 4096, X V c (ix2 R k) * L V c (ix2 k j) := by
  have hN : cfg0.N = 32 := N_0
  have hlt := t.isLt
  have hb1 : t.val - 1 < cfg0.N := by omega
  have hb2 : t.val - 1 - 1 < cfg0.N := by omega
  have hb3 : t.val - 1 - 1 - 1 < cfg0.N := by omega
  have e0 := out2_C V c t (by omega) h1 r j
  have e1 := scr_B V c ⟨t.val - 1, hb1⟩ (by show ¬(t.val - 1) % 4 = 0; omega) (by show ¬(t.val - 1) % 4 = 3; omega) r j
  have e2 := scr_B V c ⟨t.val - 1 - 1, hb2⟩ (by show ¬(t.val - 1 - 1) % 4 = 0; omega) (by show ¬(t.val - 1 - 1) % 4 = 3; omega) r j
  have e3 := scr_A V c ⟨t.val - 1 - 1 - 1, hb3⟩ (by show (t.val - 1 - 1 - 1) % 4 = 0; omega) (by show ¬(t.val - 1 - 1 - 1) % 4 = 3; omega) r j
  refine (e0.trans (congrArg (fun z : EReal => z + B V c t r j) (e1.trans (congrArg (fun z : EReal => z + B V c ⟨t.val - 1, hb1⟩ r j)
    (e2.trans (congrArg (fun z : EReal => z + B V c ⟨t.val - 1 - 1, hb2⟩ r j) e3)))))).trans ?_
  refine Eq.trans ?_ (Cert.LibSumBlocks.sum_blocks 4 1024 4096 rfl (fun k : Fin 4096 => X V c (ix2 R k) * L V c (ix2 k j))).symm
  rw [Fin.sum_univ_four, zero_add,
    B_eq V c ⟨t.val - 1 - 1 - 1, hb3⟩ r j R 0 (by show R.val = (t.val - 1 - 1 - 1) / 4 * 1024 + r.val; omega) (by show 0 = (t.val - 1 - 1 - 1) % 4; omega),
    B_eq V c ⟨t.val - 1 - 1, hb2⟩ r j R 1 (by show R.val = (t.val - 1 - 1) / 4 * 1024 + r.val; omega) (by show 1 = (t.val - 1 - 1) % 4; omega),
    B_eq V c ⟨t.val - 1, hb1⟩ r j R 2 (by show R.val = (t.val - 1) / 4 * 1024 + r.val; omega) (by show 2 = (t.val - 1) % 4; omega),
    B_eq V c t r j R 3 hR (by show 3 = t.val % 4; omega)]

/-! ## From blocks to the arrays -/

/-- What the first output array ends holding: the product of the input with the first low-rank factor. -/
def G2 (c : Dev nD) : S8192x128.Idx → EReal := fun i => ∑ k : Fin 4096, X V c (ix2 (i 0) k) * L V c (ix2 k (i 1))
/-- What the second output array ends holding: the input. -/
def G3 (c : Dev nD) : S8192x4096.Idx → EReal := fun i => X V c i

set_option maxHeartbeats 4000000 in
/-- What a last point of a row writes back into the first output is its block of the product. -/
theorem flushed2_eq (c : Dev nD) (t : Fin cfg0.N) (hf : (cfg0.win 2).flush t = true) :
    (dat0 V c).flushed 2 t = ((cfg0.win 2).blk t).view.read (Elt Ideal) (G2 V c) := by
  have h1 : t.val % 4 = 3 := (flush0_2 t).mp hf
  obtain ⟨-, -, -, -, e0, e1, -⟩ := idx0 t
  show (cfg0.win 2).cut (grid0.coords t) ((dat0 V c).after 2 t) = _
  rw [after0_2]
  funext y
  obtain ⟨r, j, rfl⟩ : ∃ (r : Fin 1024) (j : Fin 128), y = ix2 r j := ⟨y 0, y 1, eq_ix2 y⟩
  show ((outsAt0 V c t.val t.isLt).1 (ix2 r j) : EReal) = G2 V c (((cfg0.win 2).blk t).view.emb (ix2 r j))
  unfold G2
  have hj : (((cfg0.win 2).blk t).view.emb (ix2 r j)) 1 = j := by
    apply Fin.ext; show win0_2.index t (1 : Fin 2) * 128 + 1 * j.val = j.val; omega
  rw [hj]
  exact acc_last V c t h1 r j _ (by show win0_2.index t (0 : Fin 2) * 1024 + 1 * r.val = _; omega)

set_option maxHeartbeats 4000000 in
/-- What every point writes back into the second output is its block of the input. -/
theorem flushed3_eq (c : Dev nD) (t : Fin cfg0.N) :
    (dat0 V c).flushed 3 t = ((cfg0.win 3).blk t).view.read (Elt Ideal) (G3 V c) := by
  obtain ⟨-, -, -, -, -, -, e0, e1⟩ := idx0 t
  show (cfg0.win 3).cut (grid0.coords t) ((dat0 V c).after 3 t) = _
  rw [after0_3]
  funext y
  obtain ⟨r, q, rfl⟩ : ∃ (r : Fin 1024) (q : Fin 1024), y = ix2 r q := ⟨y 0, y 1, eq_ix2 y⟩
  show ((outsAt0 V c t.val t.isLt).2.1 (ix2 r q) : EReal) = G3 V c (((cfg0.win 3).blk t).view.emb (ix2 r q))
  refine (out3_all V c t (ix2 r q)).trans ?_
  exact iblk_0_apply V c t r q _ (by show win0_3.index t (0 : Fin 2) * 1024 + 1 * r.val = _; omega)
    (by show win0_3.index t (1 : Fin 2) * 1024 + 1 * q.val = _; omega)

/-- An index of the first output array is in point `t`'s block iff each coordinate is in the block's range. -/
theorem mem_blk2 (t : Fin cfg0.N) (i : S8192x128.Idx) :
    i ∈ ((cfg0.win 2).blk t).view.set ↔ ∀ a : Fin 2, win0_2.index t a * S1024x128.size a ≤ (i a).val ∧ (i a).val < win0_2.index t a * S1024x128.size a + S1024x128.size a := by
  show i ∈ ((View.whole main_v25_0).slice (win0_2.rect t)).set ↔ _
  rw [View.set_slice_whole, Rect.mem_set_unit]
  exact Iff.rfl

theorem mem_blk3 (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v25_1).slice (win0_3.rect t)).set ↔ _
  rw [View.set_slice_whole, Rect.mem_set_unit]
  exact Iff.rfl

/-- Every row of the first output is written back by the last point of its row of the grid. -/
theorem cover2 (i : S8192x128.Idx) : ∃ t : Fin cfg0.N, (cfg0.win 2).flush t = true ∧ i ∈ ((cfg0.win 2).blk t).view.set := by
  have hN : cfg0.N = 32 := N_0
  have hi0 : (i 0).val < 8192 := (i 0).isLt
  have hi1 : (i 1).val < 128 := (i 1).isLt
  have hn : (i 0).val / 1024 * 4 + 3 < cfg0.N := by rw [hN]; omega
  obtain ⟨t, ht⟩ : ∃ t : Fin cfg0.N, t.val = (i 0).val / 1024 * 4 + 3 := ⟨⟨_, hn⟩, rfl⟩
  obtain ⟨-, -, -, -, e0, e1, -⟩ := idx0 t
  refine ⟨t, (flush0_2 t).mpr (by omega), ?_⟩
  rw [mem_blk2]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 128 ≤ (i 1).val ∧ (i 1).val < win0_2.index t (1 : Fin 2) * 128 + 128; omega

/-- Every entry of the second output is written back by the point of its block. -/
theorem cover3 (i : S8192x4096.Idx) : ∃ t : Fin cfg0.N, (cfg0.win 3).flush t = true ∧ i ∈ ((cfg0.win 3).blk t).view.set := by
  have hN : cfg0.N = 32 := N_0
  have hi0 : (i 0).val < 8192 := (i 0).isLt
  have hi1 : (i 1).val < 4096 := (i 1).isLt
  have hn : (i 0).val / 1024 * 4 + (i 1).val / 1024 < cfg0.N := by rw [hN]; omega
  obtain ⟨t, ht⟩ : ∃ t : Fin cfg0.N, t.val = (i 0).val / 1024 * 4 + (i 1).val / 1024 := ⟨⟨_, hn⟩, rfl⟩
  obtain ⟨-, -, -, -, -, -, e0, e1⟩ := idx0 t
  refine ⟨t, flush0_3 t, ?_⟩
  rw [mem_blk3]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

set_option maxHeartbeats 4000000 in
/-- THE SECOND OUTPUT after the region: the input, entry by entry. -/
theorem arr0_3 (c : Dev nD) : (dat0 (F := Ideal) V c).arrAt 3 cfg0.N = fun i => X V c i :=
  (dat0 V c).arrAt_eq_of_cover 3 (G3 V c) (fun t _ => flushed3_eq V c t) (cover3)

set_option maxHeartbeats 4000000 in
/-- THE FIRST OUTPUT after the region: the input times the first low-rank factor, entry by entry. -/
theorem arr0_2 (c : Dev nD) : (dat0 (F := Ideal) V c).arrAt 2 cfg0.N = fun i => ∑ k : Fin 4096, X V c (ix2 (i 0) k) * L V c (ix2 k (i 1)) :=
  (dat0 V c).arrAt_eq_of_cover 2 (G2 V c) (flushed2_eq V c) (cover2)

end Values

end Cert.KernelIdeal.HandValue0

end
-- ==== Proof.KI.R1Pieces.lean ====
import proofs.«108895_j83004537962674_2_alg».proof.Proof.KI.R1Body
import Idealize.ShloMosaic.Lib.Pipeline.Value
import Idealize.ShloMosaic.Lib.ValueIdx
import Idealize.ShloMosaic.Lib.ValueLayout

set_option maxRecDepth 16384

noncomputable section

namespace Cert.KernelIdeal.HandValue1

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

variable {F : FTy → Type} [FloatOps F]

theorem hz : (![0, 0] : Fin 2 → Nat) = fun _ => 0 := funext fun a => by fin_cases a <;> rfl

/-- Case B leaves in the accumulator what it held plus the product of the two operand blocks. -/
theorem sout_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond1_0 i) (hc1 : ¬cond1_1 i) (x0 : Vec F S1024x1024 .bf16) (x1 : Vec F S1024x1024 .bf16) (xs0 : Vec F S1024x1024 .f32) : sout1_B_0 c i arg3 harg3 arg4 harg4 arg5 harg5 arg6 harg6 arg7 harg7 arg8 harg8 arg9 harg9 arg10 harg10 arg11 harg11 hc0 hc1 x0 x1 xs0 = k1_pay2 xs0 x0 x1 := by
  unfold sout1_B_0
  rw [View.read_writes_eq_canon _ _ _ (scover1_B_0 c i arg3 harg3 arg4 harg4 arg5 harg5 arg6 harg6 arg7 harg7 arg8 harg8 arg9 harg9 arg10 harg10 arg11 harg11 hc0 hc1 x0 x1 xs0)]
  unfold kernelRun1_B
  dsimp only
  rw [View.canon_unit_zero hz]
  simp only [View.readAt_eq_ld, harg3.read_unread, harg4.read_unread, harg11.read_unread, View.ld_unit_zero (S := S1024x1024) hz]

/-- Case A zeroes the accumulator, reads the zeros back and adds the product of the two operand blocks. -/
theorem sout_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : cond1_0 i) (hc1 : ¬cond1_1 i) (x0 : Vec F S1024x1024 .bf16) (x1 : Vec F S1024x1024 .bf16) : sout1_A_0 c i arg3 harg3 arg4 harg4 arg5 harg5 arg6 harg6 arg7 harg7 arg8 harg8 arg9 harg9 arg10 harg10 arg11 harg11 hc0 hc1 x0 x1 = k1_pay2 (k1_pay1 (F := F)) x0 x1 := by
  unfold sout1_A_0
  rw [View.read_writes_eq_canon _ _ _ (scover1_A_0 c i arg3 harg3 arg4 harg4 arg5 harg5 arg6 harg6 arg7 harg7 arg8 harg8 arg9 harg9 arg10 harg10 arg11 harg11 hc0 hc1 x0 x1)]
  unfold kernelRun1_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

/-- Case C leaves in the accumulator the same sum as case B. -/
theorem sout_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond1_0 i) (hc1 : cond1_1 i) (x0 : Vec F S1024x1024 .bf16) (x1 : Vec F S1024x1024 .bf16) (x2 : Vec F S1024x128 .bf16) (x3 : Vec F S128x1024 .bf16) (x4 : Vec F S128x1024 .bf16) (x5 : Vec F S1x1024 .f32) (x6 : Vec F S1x1024 .f32) (xs0 : Vec F S1024x1024 .f32) : sout1_C_0 c i arg3 harg3 arg4 harg4 arg5 harg5 arg6 harg6 arg7 harg7 arg8 harg8 arg9 harg9 arg10 harg10 arg11 harg11 hc0 hc1 x0 x1 x2 x3 x4 x5 x6 xs0 = k1_pay2 xs0 x0 x1 := by
  unfold sout1_C_0
  rw [View.read_writes_eq_canon _ _ _ (scover1_C_0 c i arg3 harg3 arg4 harg4 arg5 harg5 arg6 harg6 arg7 harg7 arg8 harg8 arg9 harg9 arg10 harg10 arg11 harg11 hc0 hc1 x0 x1 x2 x3 x4 x5 x6 xs0)]
  unfold kernelRun1_C
  dsimp only
  sl_unfold_words
  rw [View.canon_unit_zero hz]
  simp only [View.readAt_eq_ld, harg3.read_unread, harg4.read_unread, harg11.read_unread, View.ld_unit_zero (S := S1024x1024) hz]

/-- Case C stores into the output the epilogue of the finished accumulator. -/
theorem out_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x128 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole) (hc0 : ¬cond1_0 i) (hc1 : cond1_1 i) (x0 : Vec F S1024x1024 .bf16) (x1 : Vec F S1024x1024 .bf16) (x2 : Vec F S1024x128 .bf16) (x3 : Vec F S128x1024 .bf16) (x4 : Vec F S128x1024 .bf16) (x5 : Vec F S1x1024 .f32) (x6 : Vec F S1x1024 .f32) (xs0 : Vec F S1024x1024 .f32) : out1_C_7 c i arg3 harg3 arg4 harg4 arg5 harg5 arg6 harg6 arg7 harg7 arg8 harg8 arg9 harg9 arg10 harg10 arg11 harg11 hc0 hc1 x0 x1 x2 x3 x4 x5 x6 xs0 = k1_pay3 x2 x3 x5 x4 x6 (k1_pay2 xs0 x0 x1) := by
  unfold out1_C_7
  rw [View.read_writes_eq_canon _ _ _ (cover1_C_7 c i arg3 harg3 arg4 harg4 arg5 harg5 arg6 harg6 arg7 harg7 arg8 harg8 arg9 harg9 arg10 harg10 arg11 harg11 hc0 hc1 x0 x1 x2 x3 x4 x5 x6 xs0)]
  unfold kernelRun1_C
  dsimp only
  sl_unfold_words
  rw [View.canon_unit_zero hz, View.readCov_unit_zero (S := S1024x1024) _ hz]
  simp only [View.readAt_eq_ld, harg3.read_unread, harg4.read_unread, harg5.read_unread, harg6.read_unread, harg7.read_unread,
    harg8.read_unread, harg9.read_unread, harg11.read_unread, View.ld_unit_zero (S := S1024x1024) hz,
    View.ld_unit_zero (S := S1024x128) hz, View.ld_unit_zero (S := S128x1024) hz, View.ld_unit_zero (S := S1x1024) hz]

end Cert.KernelIdeal.HandValue1

end
-- ==== Proof.KI.R1Pay.lean ====
import proofs.«108895_j83004537962674_2_alg».proof.Proof.Gen.KernelIdeal.Skeleton
import proofs.«108895_j83004537962674_2_alg».proof.Proof.LibDot
import Idealize.ShloMosaic.Lib.Pipeline.Value
import Idealize.ShloMosaic.Lib.ValueIdx
import Idealize.ShloMosaic.Lib.ValueLayout

set_option maxRecDepth 16384

noncomputable section

namespace Cert.KernelIdeal.HandValue1

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

/-! ## The payloads as trees of operations (any values) -/

section
variable {F : FTy → Type} [FloatOps F]

theorem pay1_eq : k1_pay1 (F := F) = broadcast S1024x1024 (Scalar.ofBits .f32 0x00000000#32) := by
  unfold k1_pay1; exact shapeCast_self _ _

theorem pay2_eq (v3 : Vec F S1024x1024 .f32) (v4 v6 : Vec F S1024x1024 .bf16) :
    k1_pay2 v3 v4 v6 = addf v3 (matmul dot_S1024x1024_S1024x1024_S1024x1024_1_0_0_1_n_n none v4 v6 (constant S1024x1024 .f32 0x00000000#32)) := by
  unfold k1_pay2; simp only [shapeCast_self]

theorem pay3_eq (v16 : Vec F S1024x128 .bf16) (v18 : Vec F S128x1024 .bf16) (v21 : Vec F S1x1024 .f32) (v25 : Vec F S128x1024 .bf16)
    (v28 : Vec F S1x1024 .f32) (v32 : Vec F S1024x1024 .f32) :
    k1_pay3 v16 v18 v21 v25 v28 v32
      = addf (addf (matmul dot_S1024x128_S128x1024_S1024x1024_1_0_0_1_n_n none v16 v25 (constant S1024x1024 .f32 0x00000000#32))
            (broadcastTo S1024x1024 v28 broadcasts_S1x1024_S1024x1024))
          (mulf (addf (matmul dot_S1024x128_S128x1024_S1024x1024_1_0_0_1_n_n none v16 v18 (constant S1024x1024 .f32 0x00000000#32))
            (broadcastTo S1024x1024 v21 broadcasts_S1x1024_S1024x1024)) v32) := by
  unfold k1_pay3; simp only [shapeCast_self]
end

/-! ## The payloads at an entry, over the extended reals -/

theorem plainBig : Cert.LibDot.Plain (M := 1024) (K := 1024) (N := 1024) dot_S1024x1024_S1024x1024_S1024x1024_1_0_0_1_n_n :=
  ⟨rfl, rfl, fun _ _ => rfl, fun _ _ => rfl, fun _ _ => rfl, fun _ _ => rfl⟩
theorem plainLow : Cert.LibDot.Plain (M := 1024) (K := 128) (N := 1024) dot_S1024x128_S128x1024_S1024x1024_1_0_0_1_n_n :=
  ⟨rfl, rfl, fun _ _ => rfl, fun _ _ => rfl, fun _ _ => rfl, fun _ _ => rfl⟩

/-- The zero block. -/
theorem pay1_apply (r j : Fin 1024) : k1_pay1 (F := Ideal) (ix2 r j) = 0 := by
  rw [pay1_eq]; exact Ideal.ofBits_zero_f32

/-- One accumulation step at entry (r, j): the accumulator there plus row r of the left block times column j of the right. -/
theorem pay2_apply (v3 : Vec Ideal S1024x1024 .f32) (v4 v6 : Vec Ideal S1024x1024 .bf16) (r j : Fin 1024) :
    k1_pay2 v3 v4 v6 (ix2 r j) = v3 (ix2 r j) + ∑ k : Fin 1024, v4 (ix2 r k) * v6 (ix2 k j) := by
  rw [pay2_eq]
  exact congrArg (v3 (ix2 r j) + ·) (Cert.LibDot.matmul_ix2 plainBig (φ₁ := .bf16) (φ₂ := .bf16) none v4 v6 r j)

/-- The epilogue at entry (r, j). -/
theorem pay3_apply (v16 : Vec Ideal S1024x128 .bf16) (v18 : Vec Ideal S128x1024 .bf16) (v21 : Vec Ideal S1x1024 .f32)
    (v25 : Vec Ideal S128x1024 .bf16) (v28 : Vec Ideal S1x1024 .f32) (v32 : Vec Ideal S1024x1024 .f32) (r j : Fin 1024) :
    k1_pay3 v16 v18 v21 v25 v28 v32 (ix2 r j)
      = ((∑ q : Fin 128, v16 (ix2 r q) * v25 (ix2 q j)) + v28 (ix2 (0 : Fin 1) j))
        + ((∑ q : Fin 128, v16 (ix2 r q) * v18 (ix2 q j)) + v21 (ix2 (0 : Fin 1) j)) * v32 (ix2 r j) := by
  rw [pay3_eq]
  have e1 := Cert.LibDot.matmul_ix2 plainLow (φ₁ := .bf16) (φ₂ := .bf16) none v16 v25 r j
  have e2 := Cert.LibDot.matmul_ix2 plainLow (φ₁ := .bf16) (φ₂ := .bf16) none v16 v18 r j
  have e3 := broadcastTo_1b_ab_apply (a := 1024) (b := 1024) v28 broadcasts_S1x1024_S1024x1024 r j
  have e4 := broadcastTo_1b_ab_apply (a := 1024) (b := 1024) v21 broadcasts_S1x1024_S1024x1024 r j
  simp only [addf_apply, mulf_apply]
  rw [e1, e2, e3, e4]

end Cert.KernelIdeal.HandValue1

end
-- ==== Proof.KI.R1Blocks.lean ====
import proofs.«108895_j83004537962674_2_alg».proof.Proof.KI.R1Body
import Idealize.ShloMosaic.Lib.Pipeline.Value
import Idealize.ShloMosaic.Lib.ValueIdx

set_option maxRecDepth 16384

noncomputable section

namespace Cert.KernelIdeal.HandValue1

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

/-! ## The index maps in closed form -/

/-- Every window's block index at point `t = (m·4 + n)·4 + k`: rows by `m`, columns by `n`, the contraction by `k`. -/
theorem idx1 : ∀ t : Fin cfg1.N,
    win1_0.index t (0 : Fin 2) = t.val / 16 ∧ win1_0.index t (1 : Fin 2) = t.val % 4
    ∧ win1_1.index t (0 : Fin 2) = t.val % 4 ∧ win1_1.index t (1 : Fin 2) = t.val / 4 % 4
    ∧ win1_2.index t (0 : Fin 2) = t.val / 16 ∧ win1_2.index t (1 : Fin 2) = 0
    ∧ win1_3.index t (0 : Fin 2) = 0 ∧ win1_3.index t (1 : Fin 2) = t.val / 4 % 4
    ∧ win1_4.index t (0 : Fin 2) = 0 ∧ win1_4.index t (1 : Fin 2) = t.val / 4 % 4
    ∧ win1_5.index t (0 : Fin 2) = 0 ∧ win1_5.index t (1 : Fin 2) = t.val / 4 % 4
    ∧ win1_6.index t (0 : Fin 2) = 0 ∧ win1_6.index t (1 : Fin 2) = t.val / 4 % 4
    ∧ win1_7.index t (0 : Fin 2) = t.val / 16 ∧ win1_7.index t (1 : Fin 2) = t.val / 4 % 4 :=
  (by decide +kernel : ∀ t : Fin grid1.N, _)

/-- Row `p` of the row block of point `n`, in the whole array. -/
def rowOf (n : ℕ) (p : Fin 1024) : Fin 8192 := ⟨n / 16 % 8 * 1024 + p.val, by have := p.isLt; omega⟩
/-- Column `q` of the column block of point `n`. -/
def colOf (n : ℕ) (q : Fin 1024) : Fin 4096 := ⟨n / 4 % 4 * 1024 + q.val, by have := q.isLt; omega⟩
/-- Position `k` of the contraction block of point `n`. -/
def kOf (n : ℕ) (k : Fin 1024) : Fin 4096 := ⟨n % 4 * 1024 + k.val, by have := k.isLt; omega⟩

section
variable (V : (c : Dev nD) → (b : Ref sig .tc) → Buf (Elt Ideal) ((c : Thread nD τ).loc b))

/-! ## Each window's block read at an entry: the array at block index × block size + the place in the block -/

theorem blk0_apply (c : Dev nD) (t : Fin cfg1.N) (p : Fin 1024) (q : Fin 1024) :
    (iblk1 V c 0 t : (⟨2, ![1024, 1024]⟩ : Shape).Idx → EReal) (ix2 p q)
      = (V c main_v25_1 : (⟨2, ![8192, 4096]⟩ : Shape).Idx → EReal) (ix2 (rowOf t.val p) (kOf t.val q)) := by
  have e := idx1 t
  have hN : t.val < 128 := lt_of_lt_of_eq t.isLt (show cfg1.N = 128 from N_1)
  have hp : p.val < 1024 := p.isLt
  have hq : q.val < 1024 := q.isLt
  unfold iblk1
  rw [View.read_apply]
  show (V c main_v25_1 : (⟨2, ![8192, 4096]⟩ : Shape).Idx → EReal) _ = (V c main_v25_1 : (⟨2, ![8192, 4096]⟩ : Shape).Idx → EReal) _
  refine congrArg (V c main_v25_1 : (⟨2, ![8192, 4096]⟩ : Shape).Idx → EReal) ?_
  funext a; apply Fin.ext
  match a with
  | ⟨0, _⟩ => show win1_0.index t (0 : Fin 2) * 1024 + 1 * p.val = t.val / 16 % 8 * 1024 + p.val; omega
  | ⟨1, _⟩ => show win1_0.index t (1 : Fin 2) * 1024 + 1 * q.val = t.val % 4 * 1024 + q.val; omega

theorem blk1_apply (c : Dev nD) (t : Fin cfg1.N) (p : Fin 1024) (q : Fin 1024) :
    (iblk1 V c 1 t : (⟨2, ![1024, 1024]⟩ : Shape).Idx → EReal) (ix2 p q)
      = (V c main_v13 : (⟨2, ![4096, 4096]⟩ : Shape).Idx → EReal) (ix2 (kOf t.val p) (colOf t.val q)) := by
  have e := idx1 t
  have hN : t.val < 128 := lt_of_lt_of_eq t.isLt (show cfg1.N = 128 from N_1)
  have hp : p.val < 1024 := p.isLt
  have hq : q.val < 1024 := q.isLt
  unfold iblk1
  rw [View.read_apply]
  show (V c main_v13 : (⟨2, ![4096, 4096]⟩ : Shape).Idx → EReal) _ = (V c main_v13 : (⟨2, ![4096, 4096]⟩ : Shape).Idx → EReal) _
  refine congrArg (V c main_v13 : (⟨2, ![4096, 4096]⟩ : Shape).Idx → EReal) ?_
  funext a; apply Fin.ext
  match a with
  | ⟨0, _⟩ => show win1_1.index t (0 : Fin 2) * 1024 + 1 * p.val = t.val % 4 * 1024 + p.val; omega
  | ⟨1, _⟩ => show win1_1.index t (1 : Fin 2) * 1024 + 1 * q.val = t.val / 4 % 4 * 1024 + q.val; omega

theorem blk2_apply (c : Dev nD) (t : Fin cfg1.N) (p : Fin 1024) (q : Fin 128) :
    (iblk1 V c 2 t : (⟨2, ![1024, 128]⟩ : Shape).Idx → EReal) (ix2 p q)
      = (V c main_v25_0 : (⟨2, ![8192, 128]⟩ : Shape).Idx → EReal) (ix2 (rowOf t.val p) (q)) := by
  have e := idx1 t
  have hN : t.val < 128 := lt_of_lt_of_eq t.isLt (show cfg1.N = 128 from N_1)
  have hp : p.val < 1024 := p.isLt
  have hq : q.val < 128 := q.isLt
  unfold iblk1
  rw [View.read_apply]
  show (V c main_v25_0 : (⟨2, ![8192, 128]⟩ : Shape).Idx → EReal) _ = (V c main_v25_0 : (⟨2, ![8192, 128]⟩ : Shape).Idx → EReal) _
  refine congrArg (V c main_v25_0 : (⟨2, ![8192, 128]⟩ : Shape).Idx → EReal) ?_
  funext a; apply Fin.ext
  match a with
  | ⟨0, _⟩ => show win1_2.index t (0 : Fin 2) * 1024 + 1 * p.val = t.val / 16 % 8 * 1024 + p.val; omega
  | ⟨1, _⟩ => show win1_2.index t (1 : Fin 2) * 128 + 1 * q.val = q.val; omega

theorem blk3_apply (c : Dev nD) (t : Fin cfg1.N) (p : Fin 128) (q : Fin 1024) :
    (iblk1 V c 3 t : (⟨2, ![128, 1024]⟩ : Shape).Idx → EReal) (ix2 p q)
      = (V c main_v19 : (⟨2, ![128, 4096]⟩ : Shape).Idx → EReal) (ix2 (p) (colOf t.val q)) := by
  have e := idx1 t
  have hN : t.val < 128 := lt_of_lt_of_eq t.isLt (show cfg1.N = 128 from N_1)
  have hp : p.val < 128 := p.isLt
  have hq : q.val < 1024 := q.isLt
  unfold iblk1
  rw [View.read_apply]
  show (V c main_v19 : (⟨2, ![128, 4096]⟩ : Shape).Idx → EReal) _ = (V c main_v19 : (⟨2, ![128, 4096]⟩ : Shape).Idx → EReal) _
  refine congrArg (V c main_v19 : (⟨2, ![128, 4096]⟩ : Shape).Idx → EReal) ?_
  funext a; apply Fin.ext
  match a with
  | ⟨0, _⟩ => show win1_3.index t (0 : Fin 2) * 128 + 1 * p.val = p.val; omega
  | ⟨1, _⟩ => show win1_3.index t (1 : Fin 2) * 1024 + 1 * q.val = t.val / 4 % 4 * 1024 + q.val; omega

theorem blk4_apply (c : Dev nD) (t : Fin cfg1.N) (p : Fin 128) (q : Fin 1024) :
    (iblk1 V c 4 t : (⟨2, ![128, 1024]⟩ : Shape).Idx → EReal) (ix2 p q)
      = (V c main_v22 : (⟨2, ![128, 4096]⟩ : Shape).Idx → EReal) (ix2 (p) (colOf t.val q)) := by
  have e := idx1 t
  have hN : t.val < 128 := lt_of_lt_of_eq t.isLt (show cfg1.N = 128 from N_1)
  have hp : p.val < 128 := p.isLt
  have hq : q.val < 1024 := q.isLt
  unfold iblk1
  rw [View.read_apply]
  show (V c main_v22 : (⟨2, ![128, 4096]⟩ : Shape).Idx → EReal) _ = (V c main_v22 : (⟨2, ![128, 4096]⟩ : Shape).Idx → EReal) _
  refine congrArg (V c main_v22 : (⟨2, ![128, 4096]⟩ : Shape).Idx → EReal) ?_
  funext a; apply Fin.ext
  match a with
  | ⟨0, _⟩ => show win1_4.index t (0 : Fin 2) * 128 + 1 * p.val = p.val; omega
  | ⟨1, _⟩ => show win1_4.index t (1 : Fin 2) * 1024 + 1 * q.val = t.val / 4 % 4 * 1024 + q.val; omega

theorem blk5_apply (c : Dev nD) (t : Fin cfg1.N) (p : Fin 1) (q : Fin 1024) :
    (iblk1 V c 5 t : (⟨2, ![1, 1024]⟩ : Shape).Idx → EReal) (ix2 p q)
      = (V c main_v23 : (⟨2, ![1, 4096]⟩ : Shape).Idx → EReal) (ix2 (p) (colOf t.val q)) := by
  have e := idx1 t
  have hN : t.val < 128 := lt_of_lt_of_eq t.isLt (show cfg1.N = 128 from N_1)
  have hp : p.val < 1 := p.isLt
  have hq : q.val < 1024 := q.isLt
  unfold iblk1
  rw [View.read_apply]
  show (V c main_v23 : (⟨2, ![1, 4096]⟩ : Shape).Idx → EReal) _ = (V c main_v23 : (⟨2, ![1, 4096]⟩ : Shape).Idx → EReal) _
  refine congrArg (V c main_v23 : (⟨2, ![1, 4096]⟩ : Shape).Idx → EReal) ?_
  funext a; apply Fin.ext
  match a with
  | ⟨0, _⟩ => show win1_5.index t (0 : Fin 2) * 1 + 1 * p.val = p.val; omega
  | ⟨1, _⟩ => show win1_5.index t (1 : Fin 2) * 1024 + 1 * q.val = t.val / 4 % 4 * 1024 + q.val; omega

theorem blk6_apply (c : Dev nD) (t : Fin cfg1.N) (p : Fin 1) (q : Fin 1024) :
    (iblk1 V c 6 t : (⟨2, ![1, 1024]⟩ : Shape).Idx → EReal) (ix2 p q)
      = (V c main_v24 : (⟨2, ![1, 4096]⟩ : Shape).Idx → EReal) (ix2 (p) (colOf t.val q)) := by
  have e := idx1 t
  have hN : t.val < 128 := lt_of_lt_of_eq t.isLt (show cfg1.N = 128 from N_1)
  have hp : p.val < 1 := p.isLt
  have hq : q.val < 1024 := q.isLt
  unfold iblk1
  rw [View.read_apply]
  show (V c main_v24 : (⟨2, ![1, 4096]⟩ : Shape).Idx → EReal) _ = (V c main_v24 : (⟨2, ![1, 4096]⟩ : Shape).Idx → EReal) _
  refine congrArg (V c main_v24 : (⟨2, ![1, 4096]⟩ : Shape).Idx → EReal) ?_
  funext a; apply Fin.ext
  match a with
  | ⟨0, _⟩ => show win1_6.index t (0 : Fin 2) * 1 + 1 * p.val = p.val; omega
  | ⟨1, _⟩ => show win1_6.index t (1 : Fin 2) * 1024 + 1 * q.val = t.val / 4 % 4 * 1024 + q.val; omega

/-- The output window's block of any array `G`, at an entry. -/
theorem blk7_apply (c : Dev nD) (t : Fin cfg1.N) (G : (⟨2, ![8192, 4096]⟩ : Shape).Idx → EReal) (p q : Fin 1024) :
    (((cfg1.win 7).blk t).view.read (Elt Ideal) G : (⟨2, ![1024, 1024]⟩ : Shape).Idx → EReal) (ix2 p q) = G (ix2 (rowOf t.val p) (colOf t.val q)) := by
  have e := idx1 t
  have hN : t.val < 128 := lt_of_lt_of_eq t.isLt (show cfg1.N = 128 from N_1)
  have hp : p.val < 1024 := p.isLt
  have hq : q.val < 1024 := q.isLt
  rw [View.read_apply]
  show G _ = G _
  refine congrArg G ?_
  funext a; apply Fin.ext
  match a with
  | ⟨0, _⟩ => show win1_7.index t (0 : Fin 2) * 1024 + 1 * p.val = t.val / 16 % 8 * 1024 + p.val; omega
  | ⟨1, _⟩ => show win1_7.index t (1 : Fin 2) * 1024 + 1 * q.val = t.val / 4 % 4 * 1024 + q.val; omega

end

end Cert.KernelIdeal.HandValue1

end
-- ==== Proof.KI.R1Value.lean ====
import proofs.«108895_j83004537962674_2_alg».proof.Proof.KI.R1Pieces
import proofs.«108895_j83004537962674_2_alg».proof.Proof.KI.R1Pay
import proofs.«108895_j83004537962674_2_alg».proof.Proof.KI.R1Blocks

set_option maxRecDepth 16384

noncomputable section

namespace Cert.KernelIdeal.HandValue1

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

section
variable (V : (c : Dev nD) → (b : Ref sig .tc) → Buf (Elt Ideal) ((c : Thread nD τ).loc b))

/-! ## The arrays and the blocks, as functions to the extended reals -/

abbrev aA (c : Dev nD) : (⟨2, ![8192, 4096]⟩ : Shape).Idx → EReal := V c main_v25_1
abbrev aW (c : Dev nD) : (⟨2, ![4096, 4096]⟩ : Shape).Idx → EReal := V c main_v13
abbrev aH (c : Dev nD) : (⟨2, ![8192, 128]⟩ : Shape).Idx → EReal := V c main_v25_0
abbrev aLm (c : Dev nD) : (⟨2, ![128, 4096]⟩ : Shape).Idx → EReal := V c main_v19
abbrev aLa (c : Dev nD) : (⟨2, ![128, 4096]⟩ : Shape).Idx → EReal := V c main_v22
abbrev aSc (c : Dev nD) : (⟨2, ![1, 4096]⟩ : Shape).Idx → EReal := V c main_v23
abbrev aBi (c : Dev nD) : (⟨2, ![1, 4096]⟩ : Shape).Idx → EReal := V c main_v24
abbrev b0 (c : Dev nD) (t : Fin cfg1.N) : Vec Ideal S1024x1024 .bf16 := iblk1 V c 0 t
abbrev b1 (c : Dev nD) (t : Fin cfg1.N) : Vec Ideal S1024x1024 .bf16 := iblk1 V c 1 t
abbrev b2 (c : Dev nD) (t : Fin cfg1.N) : Vec Ideal S1024x128 .bf16 := iblk1 V c 2 t
abbrev b3 (c : Dev nD) (t : Fin cfg1.N) : Vec Ideal S128x1024 .bf16 := iblk1 V c 3 t
abbrev b4 (c : Dev nD) (t : Fin cfg1.N) : Vec Ideal S128x1024 .bf16 := iblk1 V c 4 t
abbrev b5 (c : Dev nD) (t : Fin cfg1.N) : Vec Ideal S1x1024 .f32 := iblk1 V c 5 t
abbrev b6 (c : Dev nD) (t : Fin cfg1.N) : Vec Ideal S1x1024 .f32 := iblk1 V c 6 t
/-- The accumulator after position `n`. -/
abbrev acc (c : Dev nD) (n : ℕ) (hn : n < cfg1.N) : Vec Ideal S1024x1024 .f32 := (outsAt1 V c n hn).2

theorem b0_apply (c : Dev nD) (t : Fin cfg1.N) (p q : Fin 1024) : b0 V c t (ix2 p q) = aA V c (ix2 (rowOf t.val p) (kOf t.val q)) := blk0_apply V c t p q
theorem b1_apply (c : Dev nD) (t : Fin cfg1.N) (p q : Fin 1024) : b1 V c t (ix2 p q) = aW V c (ix2 (kOf t.val p) (colOf t.val q)) := blk1_apply V c t p q
theorem b2_apply (c : Dev nD) (t : Fin cfg1.N) (p : Fin 1024) (q : Fin 128) : b2 V c t (ix2 p q) = aH V c (ix2 (rowOf t.val p) q) := blk2_apply V c t p q
theorem b3_apply (c : Dev nD) (t : Fin cfg1.N) (p : Fin 128) (q : Fin 1024) : b3 V c t (ix2 p q) = aLm V c (ix2 p (colOf t.val q)) := blk3_apply V c t p q
theorem b4_apply (c : Dev nD) (t : Fin cfg1.N) (p : Fin 128) (q : Fin 1024) : b4 V c t (ix2 p q) = aLa V c (ix2 p (colOf t.val q)) := blk4_apply V c t p q
theorem b5_apply (c : Dev nD) (t : Fin cfg1.N) (p : Fin 1) (q : Fin 1024) : b5 V c t (ix2 p q) = aSc V c (ix2 p (colOf t.val q)) := blk5_apply V c t p q
theorem b6_apply (c : Dev nD) (t : Fin cfg1.N) (p : Fin 1) (q : Fin 1024) : b6 V c t (ix2 p q) = aBi V c (ix2 p (colOf t.val q)) := blk6_apply V c t p q

/-! ## The accumulator after each point: the contraction's partial sum -/

/-- Product number `k` of the long contraction for entry (R, C) of the result (zero past its end). -/
def term (c : Dev nD) (R : Fin 8192) (C : Fin 4096) (k : ℕ) : EReal :=
  if h : k < 4096 then aA V c (ix2 R ⟨k, h⟩) * aW V c (ix2 ⟨k, h⟩ C) else 0

/-- The product of the two operand blocks of point `t` at an entry: the 1024 products of contraction block `t % 4`. -/
theorem blockProd (c : Dev nD) (t : Fin cfg1.N) (p q : Fin 1024) :
    ∑ k : Fin 1024, b0 V c t (ix2 p k) * b1 V c t (ix2 k q)
      = ∑ k ∈ Finset.range 1024, term V c (rowOf t.val p) (colOf t.val q) (t.val % 4 * 1024 + k) := by
  rw [Finset.sum_range]
  refine Finset.sum_congr rfl fun k _ => ?_
  rw [b0_apply, b1_apply]
  unfold term
  rw [dif_pos (by have := k.isLt; omega)]
  rfl

/-- Case A's accumulator. -/
theorem acc_A (c : Dev nD) (n : ℕ) (hn : n < cfg1.N) (h0 : n % 4 = 0) (h1 : ¬ n % 4 = 3) :
    acc V c n hn = k1_pay2 (k1_pay1 (F := Ideal)) (b0 V c ⟨n, hn⟩) (b1 V c ⟨n, hn⟩) := by
  show (outsAt1 V c n hn).2 = _
  rw [outsAt1_A V c ⟨n, hn⟩ h0 h1]
  dsimp only
  exact sout_A (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) (ms1_6 ⟨n, hn⟩) (hs1_6 ⟨n, hn⟩) (ms1_7 ⟨n, hn⟩) (hs1_7 ⟨n, hn⟩) scM1_0 (Memref.isWhole_whole _) ((hcond1_0 ⟨n, hn⟩).mpr h0) (fun h => h1 ((hcond1_1 ⟨n, hn⟩).mp h)) (iblk1 V c 0 ⟨n, hn⟩) (iblk1 V c 1 ⟨n, hn⟩)

/-- Cases B and C's accumulator. -/
theorem acc_BC (c : Dev nD) (n : ℕ) (hn : n < cfg1.N) (h0 : ¬ n % 4 = 0) :
    acc V c n hn = k1_pay2 (acc V c (n - 1) (by omega)) (b0 V c ⟨n, hn⟩) (b1 V c ⟨n, hn⟩) := by
  show (outsAt1 V c n hn).2 = _
  by_cases h1 : n % 4 = 3
  · rw [outsAt1_C V c ⟨n, hn⟩ h0 h1]
    dsimp only
    exact sout_C (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) (ms1_6 ⟨n, hn⟩) (hs1_6 ⟨n, hn⟩) (ms1_7 ⟨n, hn⟩) (hs1_7 ⟨n, hn⟩) scM1_0 (Memref.isWhole_whole _) (fun h => h0 ((hcond1_0 ⟨n, hn⟩).mp h)) ((hcond1_1 ⟨n, hn⟩).mpr h1) (iblk1 V c 0 ⟨n, hn⟩) (iblk1 V c 1 ⟨n, hn⟩) (iblk1 V c 2 ⟨n, hn⟩) (iblk1 V c 3 ⟨n, hn⟩) (iblk1 V c 4 ⟨n, hn⟩) (iblk1 V c 5 ⟨n, hn⟩) (iblk1 V c 6 ⟨n, hn⟩) (outsAt1 V c (n - 1) (by omega)).2
  · rw [outsAt1_B V c ⟨n, hn⟩ h0 h1]
    dsimp only
    exact sout_B (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) (ms1_6 ⟨n, hn⟩) (hs1_6 ⟨n, hn⟩) (ms1_7 ⟨n, hn⟩) (hs1_7 ⟨n, hn⟩) scM1_0 (Memref.isWhole_whole _) (fun h => h0 ((hcond1_0 ⟨n, hn⟩).mp h)) (fun h => h1 ((hcond1_1 ⟨n, hn⟩).mp h)) (iblk1 V c 0 ⟨n, hn⟩) (iblk1 V c 1 ⟨n, hn⟩) (outsAt1 V c (n - 1) (by omega)).2

/-- Case C's output block. -/
theorem out_at_C (c : Dev nD) (t : Fin cfg1.N) (h0 : ¬ t.val % 4 = 0) (h1 : t.val % 4 = 3) :
    ((outsAt1 V c t.val t.isLt).1 : Vec Ideal S1024x1024 .f32)
      = k1_pay3 (b2 V c t) (b3 V c t) (b5 V c t) (b4 V c t) (b6 V c t) (acc V c t.val t.isLt) := by
  have hs : acc V c t.val t.isLt = k1_pay2 (acc V c (t.val - 1) (by omega)) (b0 V c t) (b1 V c t) := acc_BC V c t.val t.isLt h0
  rw [hs]
  rw [outsAt1_C V c t h0 h1]
  dsimp only
  exact out_C (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2

/-- After point `n` the accumulator holds, at each entry, the products of contraction blocks 0 … n % 4. -/
theorem acc_eq (c : Dev nD) (n : ℕ) : ∀ (hn : n < cfg1.N) (p q : Fin 1024),
    acc V c n hn (ix2 p q) = ∑ k ∈ Finset.range ((n % 4 + 1) * 1024), term V c (rowOf n p) (colOf n q) k := by
  induction n using Nat.strong_induction_on with
  | _ n ih =>
    intro hn p q
    have hN : n < 128 := lt_of_lt_of_eq hn (show cfg1.N = 128 from N_1)
    by_cases h0 : n % 4 = 0
    · have h1 : ¬ n % 4 = 3 := by omega
      rw [acc_A V c n hn h0 h1]
      refine (pay2_apply _ _ _ p q).trans ?_
      rw [pay1_apply p q]
      refine (zero_add _).trans ?_
      refine (blockProd V c ⟨n, hn⟩ p q).trans ?_
      show ∑ k ∈ Finset.range 1024, term V c (rowOf n p) (colOf n q) (n % 4 * 1024 + k) = _
      rw [h0]
      simp only [Nat.zero_mul, Nat.zero_add, Nat.one_mul]
    · have hpos : n ≠ 0 := by intro h; subst h; exact h0 rfl
      have hprev := ih (n - 1) (by omega) (by omega) p q
      have hrow : rowOf (n - 1) p = rowOf n p := by
        unfold rowOf; apply Fin.ext; show (n - 1) / 16 % 8 * 1024 + p.val = n / 16 % 8 * 1024 + p.val; omega
      have hcol : colOf (n - 1) q = colOf n q := by
        unfold colOf; apply Fin.ext; show (n - 1) / 4 % 4 * 1024 + q.val = n / 4 % 4 * 1024 + q.val; omega
      rw [hrow, hcol, show ((n - 1) % 4 + 1) * 1024 = n % 4 * 1024 by omega] at hprev
      rw [acc_BC V c n hn h0]
      refine (pay2_apply _ _ _ p q).trans ?_
      rw [hprev]
      refine (congrArg (_ + ·) (blockProd V c ⟨n, hn⟩ p q)).trans ?_
      show _ + ∑ k ∈ Finset.range 1024, term V c (rowOf n p) (colOf n q) (n % 4 * 1024 + k) = _
      rw [show (n % 4 + 1) * 1024 = n % 4 * 1024 + 1024 by omega, Finset.sum_range_add]

/-- The whole contraction as a sum over its 4096 positions. -/
theorem term_sum (c : Dev nD) (R : Fin 8192) (C : Fin 4096) :
    ∑ k ∈ Finset.range 4096, term V c R C k = ∑ k : Fin 4096, aA V c (ix2 R k) * aW V c (ix2 k C) := by
  rw [Finset.sum_range]
  refine Finset.sum_congr rfl fun k _ => ?_
  unfold term
  rw [dif_pos k.isLt]

/-! ## The result array -/

/-- Entry (R, C) of the result: the low-rank additive part plus the low-rank multiplicative part times the long
    contraction. -/
def G1c (c : Dev nD) (R : Fin 8192) (C : Fin 4096) : EReal :=
  ((∑ r : Fin 128, aH V c (ix2 R r) * aLa V c (ix2 r C)) + aBi V c (ix2 (0 : Fin 1) C))
    + ((∑ r : Fin 128, aH V c (ix2 R r) * aLm V c (ix2 r C)) + aSc V c (ix2 (0 : Fin 1) C))
      * ∑ k : Fin 4096, aA V c (ix2 R k) * aW V c (ix2 k C)

/-- The result array. -/
def G1 (c : Dev nD) : (⟨2, ![8192, 4096]⟩ : Shape).Idx → EReal := fun i => G1c V c (i 0) (i 1)

set_option maxHeartbeats 1000000 in
/-- What a last-step point writes back is its block of the result array. -/
theorem flushed_eq (c : Dev nD) (t : Fin cfg1.N) (hf : (cfg1.win 7).flush t = true) :
    (dat1 V c).flushed 7 t = ((cfg1.win 7).blk t).view.read (Elt Ideal) (G1 V c) := by
  have h1 : t.val % 4 = 3 := (flush1_7 t).mp hf
  have h0 : ¬ t.val % 4 = 0 := by omega
  have hN : t.val < 128 := lt_of_lt_of_eq t.isLt (show cfg1.N = 128 from N_1)
  show (cfg1.win 7).cut (grid1.coords t) ((dat1 V c).after 7 t) = _
  rw [after1_7, out_at_C V c t h0 h1]
  funext y
  obtain ⟨p, q, rfl⟩ : ∃ (p q : Fin 1024), y = ix2 p q := ⟨y 0, y 1, eq_ix2 y⟩
  refine Eq.trans ?_ (blk7_apply c t (G1 V c) p q).symm
  show k1_pay3 (b2 V c t) (b3 V c t) (b5 V c t) (b4 V c t) (b6 V c t) (acc V c t.val t.isLt) (ix2 p q)
    = G1c V c (rowOf t.val p) (colOf t.val q)
  refine (pay3_apply _ _ _ _ _ _ p q).trans ?_
  have s1 : ∑ r : Fin 128, b2 V c t (ix2 p r) * b4 V c t (ix2 r q)
      = ∑ r : Fin 128, aH V c (ix2 (rowOf t.val p) r) * aLa V c (ix2 r (colOf t.val q)) :=
    Finset.sum_congr rfl fun r _ => by rw [b2_apply, b4_apply]
  have s2 : ∑ r : Fin 128, b2 V c t (ix2 p r) * b3 V c t (ix2 r q)
      = ∑ r : Fin 128, aH V c (ix2 (rowOf t.val p) r) * aLm V c (ix2 r (colOf t.val q)) :=
    Finset.sum_congr rfl fun r _ => by rw [b2_apply, b3_apply]
  have s3 : acc V c t.val t.isLt (ix2 p q) = ∑ k : Fin 4096, aA V c (ix2 (rowOf t.val p) k) * aW V c (ix2 k (colOf t.val q)) := by
    rw [acc_eq V c t.val t.isLt p q, show (t.val % 4 + 1) * 1024 = 4096 by omega, term_sum]
  rw [s1, s2, s3, b6_apply, b5_apply]
  rfl

/-- An index of the array is in point `t`'s block iff each coordinate is in the block's range on its axis. -/
theorem mem_blk7 (t : Fin cfg1.N) (i : (⟨2, ![8192, 4096]⟩ : Shape).Idx) :
    i ∈ ((cfg1.win 7).blk t).view.set ↔ ∀ a : Fin 2, win1_7.index t a * S1024x1024.size a ≤ (i a).val ∧ (i a).val < win1_7.index t a * S1024x1024.size a + S1024x1024.size a := by
  show i ∈ ((View.whole main_v26).slice (win1_7.rect t)).set ↔ _
  rw [View.set_slice_whole, Rect.mem_set_unit]
  exact Iff.rfl

/-- Every entry of the array is written back by the last-step point of its row block and column block. -/
theorem cover (i : (⟨2, ![8192, 4096]⟩ : Shape).Idx) :
    ∃ t : Fin cfg1.N, (cfg1.win 7).flush t = true ∧ i ∈ ((cfg1.win 7).blk t).view.set := by
  have hi0 : (i 0).val < 8192 := (i 0).isLt
  have hi1 : (i 1).val < 4096 := (i 1).isLt
  obtain ⟨tv, htv⟩ : ∃ tv : ℕ, tv = (i 0).val / 1024 * 16 + (i 1).val / 1024 * 4 + 3 := ⟨_, rfl⟩
  have hlt : tv < cfg1.N := by rw [show cfg1.N = 128 from N_1]; omega
  refine ⟨⟨tv, hlt⟩, (flush1_7 _).mpr (by show tv % 4 = 3; omega), ?_⟩
  rw [mem_blk7]
  have e := idx1 ⟨tv, hlt⟩
  intro a
  match a with
  | ⟨0, _⟩ =>
    show win1_7.index ⟨tv, hlt⟩ (0 : Fin 2) * 1024 ≤ (i 0).val ∧ (i 0).val < win1_7.index ⟨tv, hlt⟩ (0 : Fin 2) * 1024 + 1024
    have e' : win1_7.index ⟨tv, hlt⟩ (0 : Fin 2) = tv / 16 := e.2.2.2.2.2.2.2.2.2.2.2.2.2.2.1
    omega
  | ⟨1, _⟩ =>
    show win1_7.index ⟨tv, hlt⟩ (1 : Fin 2) * 1024 ≤ (i 1).val ∧ (i 1).val < win1_7.index ⟨tv, hlt⟩ (1 : Fin 2) * 1024 + 1024
    have e' : win1_7.index ⟨tv, hlt⟩ (1 : Fin 2) = tv / 4 % 4 := e.2.2.2.2.2.2.2.2.2.2.2.2.2.2.2
    omega

/-- The output array after the region. -/
theorem arr1_7_G (c : Dev nD) : (dat1 (F := Ideal) V c).arrAt 7 cfg1.N = G1 V c :=
  (dat1 (F := Ideal) V c).arrAt_eq_of_cover 7 (G1 V c) (flushed_eq V c) cover

/-- The same, entry by entry. -/
theorem arr1_7 (c : Dev nD) : (dat1 (F := Ideal) V c).arrAt 7 cfg1.N = fun i =>
    ((∑ r : Fin 128, aH V c (ix2 (i 0) r) * aLa V c (ix2 r (i 1))) + aBi V c (ix2 (0 : Fin 1) (i 1)))
      + ((∑ r : Fin 128, aH V c (ix2 (i 0) r) * aLm V c (ix2 r (i 1))) + aSc V c (ix2 (0 : Fin 1) (i 1)))
        * ∑ k : Fin 4096, aA V c (ix2 (i 0) k) * aW V c (ix2 k (i 1)) :=
  arr1_7_G V c

end

end Cert.KernelIdeal.HandValue1

end
-- ==== Proof.LibLineOfOps.lean ====
/-
  A straight line of host operations in which every operation writes one buffer of its own (as a printed @main does:
  each tensor value has its buffer), read one operation at a time.

  `after ops V` is what the buffers hold once the line has run from the contents `V`.  If the k-th operation writes
  exactly the k-th reference of a list `wr`, then a reference that is not written from position k on holds, after the
  whole line, what it holds after the first k operations; so the k-th operation's result buffer holds, after the whole
  line, the operation's function of what its operand buffers hold after the whole line (operands are written earlier,
  the result by no later operation).  Each side condition is a non-membership in a literal list of references.
-/
import Idealize.ShloMosaic.Lib.StableHlo.Run
import Mathlib.Data.List.Forall2

noncomputable section

namespace Idealize.ShloMosaic.StableHlo

open Idealize.ShloMosaic.TcCoe

variable {τ : Topo} {sig : RefSig} {Val : EltTy → Type}

/-- The line run in two parts. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Every operation of a line related entry by entry to a list has its partner in the list. -/
theorem exists_of_forall₂_mem {α β : Type*} {R : α → β → Prop} :
    ∀ {l₁ : List α} {l₂ : List β}, List.Forall₂ R l₁ l₂ → ∀ a ∈ l₁, ∃ b ∈ l₂, R a b
  | _, _, .nil, a, ha => absurd ha List.not_mem_nil
  | _, _, .cons hab h, a, ha => by
    rcases List.mem_cons.mp ha with rfl | ha
    · exact ⟨_, List.mem_cons_self, hab⟩
    · obtain ⟨b, hb, hr⟩ := exists_of_forall₂_mem h a ha
      exact ⟨b, List.mem_cons_of_mem _ hb, hr⟩

/-- "The k-th operation writes exactly the k-th reference." -/
abbrev WritesEach (ops : List (HloOp τ sig Val)) (wr : List (Ref sig .tc)) : Prop :=
  List.Forall₂ (fun (op : HloOp τ sig Val) (r : Ref sig .tc) => op.writes = {Proc.devRef .tc r}) ops wr

variable {ops : List (HloOp τ sig Val)} {wr : List (Ref sig .tc)}

/-- A reference not written from position `k` on holds after the line what it holds after the first `k` operations. -/
theorem after_eq_after_take (h : WritesEach ops wr) (V : Valuation τ sig Val) (k : ℕ) (r : Ref sig .tc)
    (hr : r ∉ wr.drop k) : after ops V (Proc.devRef .tc r) = after (ops.take k) V (Proc.devRef .tc r) := by
  have h' := List.forall₂_drop k h
  have e : after ops V = after (ops.drop k) (after (ops.take k) V) := by
    rw [← after_append, List.take_append_drop]
  rw [e]
  refine after_of_forall_not_mem _ _ fun op hop hb => ?_
  obtain ⟨r', hr', hw⟩ := exists_of_forall₂_mem h' op hop
  rw [hw, Finset.mem_singleton] at hb
  exact hr (Proc.devRef_injective _ hb ▸ hr')

/-- A reference the line never writes keeps its launch contents. -/
theorem after_of_not_written (h : WritesEach ops wr) (V : Valuation τ sig Val) (r : Ref sig .tc) (hr : r ∉ wr) :
    after ops V (Proc.devRef .tc r) = V (Proc.devRef .tc r) :=
  (after_eq_after_take h V 0 r hr).trans rfl

/-- The k-th operation's result buffer, not written later, holds what the operation leaves there. -/
theorem after_at (h : WritesEach ops wr) (V : Valuation τ sig Val) (k : ℕ) (op : HloOp τ sig Val) (y : Ref sig .tc)
    (hk : ops[k]? = some op) (hy : y ∉ wr.drop (k + 1)) :
    after ops V (Proc.devRef .tc y) = op.result (after (ops.take k) V) (Proc.devRef .tc y) := by
  rw [after_eq_after_take h V (k + 1) y hy]
  have e : ops.take (k + 1) = ops.take k ++ [op] := by rw [List.take_succ, hk]; rfl
  rw [e, after_append]
  rfl

theorem after_nullary (h : WritesEach ops wr) (V : Valuation τ sig Val) (k : ℕ) (y : Ref sig .tc) (v : y.ty.Contents Val)
    (hy) (hk : ops[k]? = some (nullary y v hy)) (hy' : y ∉ wr.drop (k + 1)) :
    after ops V (Proc.devRef .tc y) = v := by
  rw [after_at h V k _ y hk hy']
  exact nullary_result y v hy _

theorem after_unary (h : WritesEach ops wr) (V : Valuation τ sig Val) (k : ℕ) (x y : Ref sig .tc)
    (f : x.ty.Contents Val → y.ty.Contents Val) (hx hy) (hk : ops[k]? = some (unary x y f hx hy))
    (hy' : y ∉ wr.drop (k + 1)) (hx' : x ∉ wr.drop k) :
    after ops V (Proc.devRef .tc y) = f (after ops V (Proc.devRef .tc x)) := by
  rw [after_at h V k _ y hk hy', after_eq_after_take h V k x hx']
  exact unary_result x y f hx hy _

theorem after_binary (h : WritesEach ops wr) (V : Valuation τ sig Val) (k : ℕ) (a b y : Ref sig .tc)
    (f : a.ty.Contents Val → b.ty.Contents Val → y.ty.Contents Val) (ha hb hy)
    (hk : ops[k]? = some (binary a b y f ha hb hy))
    (hy' : y ∉ wr.drop (k + 1)) (ha' : a ∉ wr.drop k) (hb' : b ∉ wr.drop k) :
    after ops V (Proc.devRef .tc y) = f (after ops V (Proc.devRef .tc a)) (after ops V (Proc.devRef .tc b)) := by
  rw [after_at h V k _ y hk hy', after_eq_after_take h V k a ha', after_eq_after_take h V k b hb']
  exact binary_result a b y f ha hb hy _

theorem after_ternary (h : WritesEach ops wr) (V : Valuation τ sig Val) (k : ℕ) (c a b y : Ref sig .tc)
    (f : c.ty.Contents Val → a.ty.Contents Val → b.ty.Contents Val → y.ty.Contents Val) (hc ha hb hy)
    (hk : ops[k]? = some (ternary c a b y f hc ha hb hy))
    (hy' : y ∉ wr.drop (k + 1)) (hc' : c ∉ wr.drop k) (ha' : a ∉ wr.drop k) (hb' : b ∉ wr.drop k) :
    after ops V (Proc.devRef .tc y)
      = f (after ops V (Proc.devRef .tc c)) (after ops V (Proc.devRef .tc a)) (after ops V (Proc.devRef .tc b)) := by
  rw [after_at h V k _ y hk hy', after_eq_after_take h V k c hc', after_eq_after_take h V k a ha',
    after_eq_after_take h V k b hb']
  exact ternary_result c a b y f hc ha hb hy _

theorem after_reshape (h : WritesEach ops wr) (V : Valuation τ sig Val) (k : ℕ) (x y : Ref sig .tc)
    (he : x.ty.elt = y.ty.elt) (hn : x.ty.shape.ShapeCasts y.ty.shape) (hx hy)
    (hk : ops[k]? = some (reshape x y he hn hx hy)) (hy' : y ∉ wr.drop (k + 1)) (hx' : x ∉ wr.drop k) :
    after ops V (Proc.devRef .tc y)
      = fun i => he ▸ shapeCast y.ty.shape (after ops V (Proc.devRef .tc x)) hn i := by
  rw [after_at h V k _ y hk hy', after_eq_after_take h V k x hx']
  exact reshape_result x y he hn hx hy _

theorem after_nary4 (h : WritesEach ops wr) (V : Valuation τ sig Val) (k : ℕ) (x a b c y : Ref sig .tc)
    (f : ((j : Fin 4) → ((![x, a, b, c] : Fin 4 → Ref sig .tc) j).ty.Contents Val) → y.ty.Contents Val) (hxs hy)
    (hk : ops[k]? = some (nary ![x, a, b, c] y f hxs hy)) (hy' : y ∉ wr.drop (k + 1))
    (hx' : x ∉ wr.drop k) (ha' : a ∉ wr.drop k) (hb' : b ∉ wr.drop k) (hc' : c ∉ wr.drop k) :
    after ops V (Proc.devRef .tc y)
      = f (Fin.cons (after ops V (Proc.devRef .tc x)) (Fin.cons (after ops V (Proc.devRef .tc a))
          (Fin.cons (after ops V (Proc.devRef .tc b)) (Fin.cons (after ops V (Proc.devRef .tc c)) (fun i => i.elim0))))) := by
  rw [after_at h V k _ y hk hy', after_eq_after_take h V k x hx', after_eq_after_take h V k a ha',
    after_eq_after_take h V k b hb', after_eq_after_take h V k c hc']
  exact nary4_result f hxs hy _

end Idealize.ShloMosaic.StableHlo

end
-- ==== Proof.KI.HostGather.lean ====
/-
  The gathered codebook entries the dequantised weight is built from, as one function of the index array and the
  codebooks: what the first two host stretches (the reshape of the index array and the 22 operations of the
  take-along-axis: index normalisation, gather, bounds mask) leave in the gathered array's buffer.
-/
import proofs.«108895_j83004537962674_2_alg».proof.Proof.Gen.KernelIdeal.Regions
import Idealize.ShloMosaic.Lib.StableHlo.Run
import proofs.«108895_j83004537962674_2_alg».proof.Proof.LibLineOfOps
import Idealize.ShloMosaic.Lib.ValueIdx

noncomputable section

namespace Cert.KernelIdeal.HostValue

open Cert.KernelIdeal Cert.KernelIdeal.Gen Idealize.ShloMosaic Idealize.ShloMosaic.TcCoe Idealize.ShloMosaic.ValueIdx

/-- The gathered codebook entries as one function of the index array `zm` and the codebooks `cb`: the index array
    flattened to [4096, 4096], a negative index moved up by 256, the codebook row's entry at that index taken, and
    a not-a-number put wherever the index is outside 0…255. -/
def gthK (zm : (⟨S64x64x64x64, .i32⟩ : BufTy).Contents (Elt Ideal)) (cb : (⟨S4096x256, .f32⟩ : BufTy).Contents (Elt Ideal)) :
    (⟨S4096x4096, .f32⟩ : BufTy).Contents (Elt Ideal) :=
  select (Host.reduce IntOp.andi (andi (cmpi .sge (shapeCast _ (select (cmpi .slt (shapeCast _ zm shapeCasts_S64x64x64x64_S4096x4096) (broadcastInDim S4096x4096 ![] bcast_S_S4096x4096 (constantI S_ 32 0#32))) (addi (shapeCast _ zm shapeCasts_S64x64x64x64_S4096x4096) (broadcastInDim S4096x4096 ![] bcast_S_S4096x4096 (constantI S_ 32 256#32))) (shapeCast _ zm shapeCasts_S64x64x64x64_S4096x4096)) shapeCasts_S4096x4096_S4096x4096x1) (broadcastInDim S4096x4096x1 ![] bcast_S_S4096x4096x1 (constantI S_ 32 0#32))) (cmpi .sle (shapeCast _ (select (cmpi .slt (shapeCast _ zm shapeCasts_S64x64x64x64_S4096x4096) (broadcastInDim S4096x4096 ![] bcast_S_S4096x4096 (constantI S_ 32 0#32))) (addi (shapeCast _ zm shapeCasts_S64x64x64x64_S4096x4096) (broadcastInDim S4096x4096 ![] bcast_S_S4096x4096 (constantI S_ 32 256#32))) (shapeCast _ zm shapeCasts_S64x64x64x64_S4096x4096)) shapeCasts_S4096x4096_S4096x4096x1) (broadcastInDim S4096x4096x1 ![0, 1, 2] bcast_S1x1x1_S4096x4096x1_0_1_2 (broadcastInDim S1x1x1 ![2] bcast_S1_S1x1x1_2 (constantI S1 32 255#32))))) (constantI S_ 1 1#1) reducesTo_S4096x4096x1_S4096x4096_d2 h_S_) (Host.gather gather_S4096x256_S4096x4096x1_S4096x4096_n_1_0_0_1_2_11 cb (shapeCast _ (select (cmpi .slt (shapeCast _ zm shapeCasts_S64x64x64x64_S4096x4096) (broadcastInDim S4096x4096 ![] bcast_S_S4096x4096 (constantI S_ 32 0#32))) (addi (shapeCast _ zm shapeCasts_S64x64x64x64_S4096x4096) (broadcastInDim S4096x4096 ![] bcast_S_S4096x4096 (constantI S_ 32 256#32))) (shapeCast _ zm shapeCasts_S64x64x64x64_S4096x4096)) shapeCasts_S4096x4096_S4096x4096x1)) (broadcastInDim S4096x4096 ![] bcast_S_S4096x4096 (constant (F := Ideal) S_ .f32 0x7FC00000#32))

variable (m : (ℓ : Loc nD τ sig) → Buf (Elt Ideal) ℓ) (c : Dev nD)

/-! The buffers the last three operations read, each as its composed term of the two arguments. -/

set_option maxRecDepth 65536 in
theorem call_v11_eq : (V2 m c main_call0_v11 : (⟨S4096x4096x1, .i1⟩ : BufTy).Contents (Elt Ideal)) = (andi (cmpi .sge (shapeCast _ (select (cmpi .slt (shapeCast _ (m ((c : Thread nD τ).loc main_arg1)) shapeCasts_S64x64x64x64_S4096x4096) (broadcastInDim S4096x4096 ![] bcast_S_S4096x4096 (constantI S_ 32 0#32))) (addi (shapeCast _ (m ((c : Thread nD τ).loc main_arg1)) shapeCasts_S64x64x64x64_S4096x4096) (broadcastInDim S4096x4096 ![] bcast_S_S4096x4096 (constantI S_ 32 256#32))) (shapeCast _ (m ((c : Thread nD τ).loc main_arg1)) shapeCasts_S64x64x64x64_S4096x4096)) shapeCasts_S4096x4096_S4096x4096x1) (broadcastInDim S4096x4096x1 ![] bcast_S_S4096x4096x1 (constantI S_ 32 0#32))) (cmpi .sle (shapeCast _ (select (cmpi .slt (shapeCast _ (m ((c : Thread nD τ).loc main_arg1)) shapeCasts_S64x64x64x64_S4096x4096) (broadcastInDim S4096x4096 ![] bcast_S_S4096x4096 (constantI S_ 32 0#32))) (addi (shapeCast _ (m ((c : Thread nD τ).loc main_arg1)) shapeCasts_S64x64x64x64_S4096x4096) (broadcastInDim S4096x4096 ![] bcast_S_S4096x4096 (constantI S_ 32 256#32))) (shapeCast _ (m ((c : Thread nD τ).loc main_arg1)) shapeCasts_S64x64x64x64_S4096x4096)) shapeCasts_S4096x4096_S4096x4096x1) (broadcastInDim S4096x4096x1 ![0, 1, 2] bcast_S1x1x1_S4096x4096x1_0_1_2 (broadcastInDim S1x1x1 ![2] bcast_S1_S1x1x1_2 (constantI S1 32 255#32))))) := by
  dsimp only [V2, V1, V0]
  after_results_simp
  rfl

set_option maxRecDepth 65536 in
theorem call_c_3_eq : (V2 m c main_call0_c_3 : (⟨S_, .i1⟩ : BufTy).Contents (Elt Ideal)) = (constantI S_ 1 1#1) := by
  dsimp only [V2, V1, V0]
  after_results_simp
  rfl

set_option maxRecDepth 65536 in
theorem call_v13_eq : (V2 m c main_call0_v13 : (⟨S4096x4096, .f32⟩ : BufTy).Contents (Elt Ideal)) = (Host.gather gather_S4096x256_S4096x4096x1_S4096x4096_n_1_0_0_1_2_11 (m ((c : Thread nD τ).loc main_arg2)) (shapeCast _ (select (cmpi .slt (shapeCast _ (m ((c : Thread nD τ).loc main_arg1)) shapeCasts_S64x64x64x64_S4096x4096) (broadcastInDim S4096x4096 ![] bcast_S_S4096x4096 (constantI S_ 32 0#32))) (addi (shapeCast _ (m ((c : Thread nD τ).loc main_arg1)) shapeCasts_S64x64x64x64_S4096x4096) (broadcastInDim S4096x4096 ![] bcast_S_S4096x4096 (constantI S_ 32 256#32))) (shapeCast _ (m ((c : Thread nD τ).loc main_arg1)) shapeCasts_S64x64x64x64_S4096x4096)) shapeCasts_S4096x4096_S4096x4096x1)) := by
  dsimp only [V2, V1, V0]
  after_results_simp
  rfl

set_option maxRecDepth 65536 in
theorem call_v14_eq : (V2 m c main_call0_v14 : (⟨S4096x4096, .f32⟩ : BufTy).Contents (Elt Ideal)) = (broadcastInDim S4096x4096 ![] bcast_S_S4096x4096 (constant (F := Ideal) S_ .f32 0x7FC00000#32)) := by
  dsimp only [V2, V1, V0]
  after_results_simp
  rfl

/-! The bounds mask and the final selection, each read from the buffers its operation reads: in the line of 22
    operations every operation writes one buffer of its own, so an operation's result buffer holds, after the whole
    line, the operation's function of what its operand buffers hold after the whole line. -/

open Idealize.ShloMosaic.StableHlo in
theorem hostOps0_1_each : WritesEach (hostOps0_1 : List (HloOp τ sig (Elt Ideal))) hostOps0_1_W :=
  (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))

/-- Contents carried to a buffer's own type and back are the contents. -/
theorem ofBuf_toBuf {T : BufTy} (y : StableHlo.TRef sig T) (w : T.Contents (Elt Ideal)) : y.ofBuf (y.toBuf w) = w := by
  obtain ⟨r, rfl, _, _⟩ := y
  rfl

/-- For any buffer contents, reading one of these three buffers at its value's type changes nothing. -/
theorem strip_v12 (W : Valuation τ sig (Elt Ideal)) : (StableHlo.TRef.of main_call0_v12 : StableHlo.TRef sig ⟨S4096x4096, .i1⟩).ofBuf (W main_call0_v12) = (W main_call0_v12 : (⟨S4096x4096, .i1⟩ : BufTy).Contents (Elt Ideal)) := rfl
theorem strip_v11 (W : Valuation τ sig (Elt Ideal)) : (StableHlo.TRef.of main_call0_v11 : StableHlo.TRef sig ⟨S4096x4096x1, .i1⟩).ofBuf (W main_call0_v11) = (W main_call0_v11 : (⟨S4096x4096x1, .i1⟩ : BufTy).Contents (Elt Ideal)) := rfl
theorem strip_c_3 (W : Valuation τ sig (Elt Ideal)) : (StableHlo.TRef.of main_call0_c_3 : StableHlo.TRef sig ⟨S_, .i1⟩).ofBuf (W main_call0_c_3) = (W main_call0_c_3 : (⟨S_, .i1⟩ : BufTy).Contents (Elt Ideal)) := rfl

set_option maxRecDepth 65536 in
open Idealize.ShloMosaic.StableHlo in
theorem call_v12_step : (V2 m c main_call0_v12 : (⟨S4096x4096, .i1⟩ : BufTy).Contents (Elt Ideal))
    = Host.reduce IntOp.andi (V2 m c main_call0_v11 : (⟨S4096x4096x1, .i1⟩ : BufTy).Contents (Elt Ideal)) (V2 m c main_call0_c_3 : (⟨S_, .i1⟩ : BufTy).Contents (Elt Ideal)) reducesTo_S4096x4096x1_S4096x4096_d2 h_S_ := by
  have h := after_binary hostOps0_1_each (V1 m c) 17 main_call0_v11 main_call0_c_3 main_call0_v12 _ _ _ _ rfl (by decide) (by decide) (by decide)
  have e : (StableHlo.TRef.of main_call0_v12 : StableHlo.TRef sig ⟨S4096x4096, .i1⟩).ofBuf (V2 m c main_call0_v12)
      = Host.reduce IntOp.andi ((StableHlo.TRef.of main_call0_v11 : StableHlo.TRef sig ⟨S4096x4096x1, .i1⟩).ofBuf (V2 m c main_call0_v11)) ((StableHlo.TRef.of main_call0_c_3 : StableHlo.TRef sig ⟨S_, .i1⟩).ofBuf (V2 m c main_call0_c_3)) reducesTo_S4096x4096x1_S4096x4096_d2 h_S_ :=
    (congrArg (StableHlo.TRef.of main_call0_v12 : StableHlo.TRef sig ⟨S4096x4096, .i1⟩).ofBuf h).trans (ofBuf_toBuf (StableHlo.TRef.of main_call0_v12 : StableHlo.TRef sig ⟨S4096x4096, .i1⟩) _)
  rw [strip_v12 (V2 m c), strip_v11 (V2 m c), strip_c_3 (V2 m c)] at e
  exact e

set_option maxRecDepth 65536 in
open Idealize.ShloMosaic.StableHlo in
theorem v1_step : (V2 m c main_v1 : (⟨S4096x4096, .f32⟩ : BufTy).Contents (Elt Ideal))
    = select (V2 m c main_call0_v12 : (⟨S4096x4096, .i1⟩ : BufTy).Contents (Elt Ideal)) (V2 m c main_call0_v13 : (⟨S4096x4096, .f32⟩ : BufTy).Contents (Elt Ideal)) (V2 m c main_call0_v14 : (⟨S4096x4096, .f32⟩ : BufTy).Contents (Elt Ideal)) := by
  have h := after_ternary hostOps0_1_each (V1 m c) 21 main_call0_v12 main_call0_v13 main_call0_v14 main_v1 _ _ _ _ _ rfl (by decide) (by decide) (by decide) (by decide)
  dsimp only [V2]
  generalize after hostOps0_1 (V1 m c) = W at h ⊢
  exact h.trans rfl

/-- After the first two host stretches the gathered array holds `gthK` of the two arguments. -/
theorem v1_eq : (V2 m c main_v1 : (⟨S4096x4096, .f32⟩ : BufTy).Contents (Elt Ideal))
    = gthK (m ((c : Thread nD τ).loc main_arg1)) (m ((c : Thread nD τ).loc main_arg2)) := by
  rw [v1_step, call_v12_step, call_v11_eq, call_c_3_eq, call_v13_eq, call_v14_eq]
  rfl

end Cert.KernelIdeal.HostValue

end
-- ==== Proof.KI.HostWeight.lean ====
/-
  The dequantised, transposed weight the second kernel reads, at an index: entry (i, o) of the [4096, 4096] array is
  w(o, i) = gb(o/8, i/8) + g(row, col) · gs(o/8, i/8) with g the gathered codebook entries, row = (o/64)·64 + i/64 the
  pair of 64×64 blocks and col = (o%64)·64 + i%64 the place inside the block. Only the layout operations' index
  arithmetic is involved; over the extended reals the cast to the 16-bit format is the identity.
-/
import proofs.«108895_j83004537962674_2_alg».proof.Proof.KI.HostGather
import proofs.«108895_j83004537962674_2_alg».proof.Proof.Spec
import Idealize.ShloMosaic.Lib.Pipeline.Value

noncomputable section

namespace Cert.KernelIdeal.HostValue

open Cert.KernelIdeal Cert.KernelIdeal.Gen Idealize.ShloMosaic Idealize.ShloMosaic.TcCoe Idealize.ShloMosaic.ValueIdx

/-- The weight array as a function of the gathered entries `g` and the tile parameters `gs`, `gb`: the operations of
    the third host stretch that lead to it, composed. -/
def wT (g : FVec Ideal S4096x4096 .f32) (gs gb : FVec Ideal S512x1x512x1 .f32) : FVec Ideal S4096x4096 .bf16 :=
  truncf .bf16 (shapeCast _ (addf (broadcastInDim S512x8x512x8 ![0, 1, 2, 3] bcast_S512x1x512x1_S512x8x512x8_0_1_2_3 (transpose S512x1x512x1 [2, 1, 0, 3] gb transposes_S512x1x512x1_S512x1x512x1_2_1_0_3)) (mulf (shapeCast _ (shapeCast _ (transpose S64x64x64x64 [1, 3, 0, 2] (shapeCast _ g shapeCasts_S4096x4096_S64x64x64x64) transposes_S64x64x64x64_S64x64x64x64_1_3_0_2) shapeCasts_S64x64x64x64_S4096x4096) shapeCasts_S4096x4096_S512x8x512x8) (broadcastInDim S512x8x512x8 ![0, 1, 2, 3] bcast_S512x1x512x1_S512x8x512x8_0_1_2_3 (transpose S512x1x512x1 [2, 1, 0, 3] gs transposes_S512x1x512x1_S512x1x512x1_2_1_0_3)))) shapeCasts_S512x8x512x8_S4096x4096) bitsLt_bf16_f32

/-- The last reshape: entry (i, o) of the [4096, 4096] array is entry (i/8, i%8, o/8, o%8) of the tiled one. -/
theorem untile_apply (y : FVec Ideal S512x8x512x8 .f32) (i o : Fin 4096) :
    (shapeCast _ y shapeCasts_S512x8x512x8_S4096x4096 : FVec Ideal S4096x4096 .f32) (ix2 i o)
      = y (ix4 (⟨i.val / 8, by have := i.isLt; omega⟩ : Fin 512) (⟨i.val % 8, by omega⟩ : Fin 8)
              (⟨o.val / 8, by have := o.isLt; omega⟩ : Fin 512) (⟨o.val % 8, by omega⟩ : Fin 8)) :=
  shapeCast_apply y shapeCasts_S512x8x512x8_S4096x4096 (ix2 i o) _
    (by rewrite [Shape.rowMajor_val_four, Shape.rowMajor_val_two]
        show ((i.val / 8 * 8 + i.val % 8) * 512 + o.val / 8) * 8 + o.val % 8 = i.val * 4096 + o.val
        omega)

/-- A tile parameter, transposed and spread over its 8×8 tile: at (a, b, c, d) it is the parameter of tile (c, a). -/
theorem spread_apply (p : FVec Ideal S512x1x512x1 .f32) (a : Fin 512) (b : Fin 8) (c' : Fin 512) (d : Fin 8) :
    (broadcastInDim S512x8x512x8 ![0, 1, 2, 3] bcast_S512x1x512x1_S512x8x512x8_0_1_2_3 (transpose S512x1x512x1 [2, 1, 0, 3] p transposes_S512x1x512x1_S512x1x512x1_2_1_0_3) : FVec Ideal S512x8x512x8 .f32) (ix4 a b c' d)
      = p (ix4 c' (0 : Fin 1) a (0 : Fin 1)) := by
  rw [broadcastInDim_apply _ bcast_S512x1x512x1_S512x8x512x8_0_1_2_3 _ (ix4 a b c' d) (ix4 a (0 : Fin 1) c' (0 : Fin 1)) (fun x => match x with
    | ⟨0, _⟩ => by show a.val = if (512 : Nat) = 1 then 0 else a.val; rw [if_neg (by decide)]
    | ⟨1, _⟩ => by show 0 = if (1 : Nat) = 1 then 0 else b.val; rw [if_pos rfl]
    | ⟨2, _⟩ => by show c'.val = if (512 : Nat) = 1 then 0 else c'.val; rw [if_neg (by decide)]
    | ⟨3, _⟩ => by show 0 = if (1 : Nat) = 1 then 0 else d.val; rw [if_pos rfl])]
  exact transpose_apply [2, 1, 0, 3] p transposes_S512x1x512x1_S512x1x512x1_2_1_0_3 (ix4 a (0 : Fin 1) c' (0 : Fin 1)) (ix4 c' (0 : Fin 1) a (0 : Fin 1)) (fun x => match x with
    | ⟨0, _⟩ => rfl
    | ⟨1, _⟩ => rfl
    | ⟨2, _⟩ => rfl
    | ⟨3, _⟩ => rfl)

/-- The gathered entries re-laid out as the transposed weight: entry (i/8, i%8, o/8, o%8) of the tiled array is the
    gathered entry of block pair (o/64, i/64) at place (o%64, i%64). -/
theorem relayout_apply (g : FVec Ideal S4096x4096 .f32) (i o : Fin 4096) :
    (shapeCast _ (shapeCast _ (transpose S64x64x64x64 [1, 3, 0, 2] (shapeCast _ g shapeCasts_S4096x4096_S64x64x64x64) transposes_S64x64x64x64_S64x64x64x64_1_3_0_2) shapeCasts_S64x64x64x64_S4096x4096) shapeCasts_S4096x4096_S512x8x512x8 : FVec Ideal S512x8x512x8 .f32)
        (ix4 (⟨i.val / 8, by have := i.isLt; omega⟩ : Fin 512) (⟨i.val % 8, by omega⟩ : Fin 8)
             (⟨o.val / 8, by have := o.isLt; omega⟩ : Fin 512) (⟨o.val % 8, by omega⟩ : Fin 8))
      = g (ix2 (Cert.Spec.gRow o i) (Cert.Spec.gCol o i)) := by
  have hi := i.isLt
  have ho := o.isLt
  rw [shapeCast_apply _ shapeCasts_S4096x4096_S512x8x512x8 _ (ix2 i o)
    (by rewrite [Shape.rowMajor_val_two, Shape.rowMajor_val_four]
        show i.val * 4096 + o.val = ((i.val / 8 * 8 + i.val % 8) * 512 + o.val / 8) * 8 + o.val % 8
        omega)]
  rw [shapeCast_apply _ shapeCasts_S64x64x64x64_S4096x4096 (ix2 i o)
    (ix4 (⟨i.val / 64, by omega⟩ : Fin 64) (⟨i.val % 64, by omega⟩ : Fin 64) (⟨o.val / 64, by omega⟩ : Fin 64) (⟨o.val % 64, by omega⟩ : Fin 64))
    (by rewrite [Shape.rowMajor_val_four, Shape.rowMajor_val_two]
        show ((i.val / 64 * 64 + i.val % 64) * 64 + o.val / 64) * 64 + o.val % 64 = i.val * 4096 + o.val
        omega)]
  rw [transpose_apply [1, 3, 0, 2] _ transposes_S64x64x64x64_S64x64x64x64_1_3_0_2
    (ix4 (⟨i.val / 64, by omega⟩ : Fin 64) (⟨i.val % 64, by omega⟩ : Fin 64) (⟨o.val / 64, by omega⟩ : Fin 64) (⟨o.val % 64, by omega⟩ : Fin 64))
    (ix4 (⟨o.val / 64, by omega⟩ : Fin 64) (⟨i.val / 64, by omega⟩ : Fin 64) (⟨o.val % 64, by omega⟩ : Fin 64) (⟨i.val % 64, by omega⟩ : Fin 64))
    (fun x => match x with
      | ⟨0, _⟩ => rfl
      | ⟨1, _⟩ => rfl
      | ⟨2, _⟩ => rfl
      | ⟨3, _⟩ => rfl)]
  exact shapeCast_apply g shapeCasts_S4096x4096_S64x64x64x64 _ (ix2 (Cert.Spec.gRow o i) (Cert.Spec.gCol o i))
    (by rewrite [Shape.rowMajor_val_two, Shape.rowMajor_val_four]
        show (o.val / 64 * 64 + i.val / 64) * 4096 + (o.val % 64 * 64 + i.val % 64)
          = ((o.val / 64 * 64 + i.val / 64) * 64 + o.val % 64) * 64 + i.val % 64
        omega)

/-- Entry (i, o) of the weight array is the dequantised weight w(o, i). -/
theorem wT_apply (g : FVec Ideal S4096x4096 .f32) (gs gb : FVec Ideal S512x1x512x1 .f32) (i o : Fin 4096) :
    wT g gs gb (ix2 i o) = Cert.Spec.w g gs gb o i := by
  unfold wT
  rw [truncf_apply, untile_apply, addf_apply, mulf_apply, spread_apply, spread_apply, relayout_apply]
  rfl

variable (m : (ℓ : Loc nD τ sig) → Buf (Elt Ideal) ℓ) (c : Dev nD)

/-- The third host stretch leaves `wT` of the gathered array and the two tile-parameter arguments in the weight buffer. -/
theorem v13_term : (V3 m c main_v13 : S4096x4096.Idx → EReal)
    = wT (V2 m c main_v1) (V2 m c main_arg5) (V2 m c main_arg6) := by
  show StableHlo.after hostOps0_2 (V2 m c) main_v13 = _
  generalize V2 m c = W
  unfold wT
  after_results
  rfl

theorem v13_apply (i o : Fin 4096) :
    (V3 m c main_v13 : S4096x4096.Idx → EReal) (ix2 i o)
      = Cert.Spec.w (gthK (m ((c : Thread nD τ).loc main_arg1)) (m ((c : Thread nD τ).loc main_arg2)))
          (m ((c : Thread nD τ).loc main_arg5)) (m ((c : Thread nD τ).loc main_arg6)) o i := by
  rw [v13_term, wT_apply, v1_eq, V2_of m c main_arg5 (by decide), V1_of m c main_arg5 (by decide),
    V2_of m c main_arg6 (by decide), V1_of m c main_arg6 (by decide)]

end Cert.KernelIdeal.HostValue

end
-- ==== Proof.RefGather.lean ====
/-
  The gathered codebook entries, as one function of the index array and the codebooks.

  The reference's first stage takes, for every pair of 64×64 blocks (a row of the [4096, 4096] array) and every place
  in the block (a column), the codebook entry the index array names there: the index is normalised (a negative index
  has the codebook size added), the entry is gathered, and a place whose normalised index falls outside 0…255 gets a
  NaN instead. Nothing below depends on what this function is: it is the same composition of operations on both
  sides, so it is kept closed and only named. Its closed term is stated once for the comparison of the two texts.
-/
import proofs.«108895_j83004537962674_2_alg».proof.Proof.RefReadP

noncomputable section

namespace Cert.RefValue

open Cert.ReferenceIdeal Cert.ReferenceIdeal.Gen Idealize.ShloMosaic Idealize.ShloMosaic.TcCoe Idealize.SL.Sem Idealize.ShloMosaic.StableHlo

/-- The gathered array [4096, 4096]: row = block pair, column = place in the block. -/
def gthR (zm : (⟨Cert.ReferenceIdeal.S64x64x64x64, .i32⟩ : BufTy).Contents (Elt Ideal))
    (cb : (⟨Cert.ReferenceIdeal.S4096x256, .f32⟩ : BufTy).Contents (Elt Ideal)) :
    (⟨Cert.ReferenceIdeal.S4096x4096, .f32⟩ : BufTy).Contents (Elt Ideal) :=
  Cert.ReferenceIdeal.ReadP.val_main_v1 (F := Ideal) zm cb

/-- The same function as the composition of its operations: normalise the index, gather, mask out-of-range places. -/
theorem gthR_eq (zm : (⟨Cert.ReferenceIdeal.S64x64x64x64, .i32⟩ : BufTy).Contents (Elt Ideal))
    (cb : (⟨Cert.ReferenceIdeal.S4096x256, .f32⟩ : BufTy).Contents (Elt Ideal)) :
    gthR zm cb =
      select (Host.reduce IntOp.andi (andi (cmpi .sge (shapeCast _ (select (cmpi .slt (shapeCast _ zm shapeCasts_S64x64x64x64_S4096x4096) (broadcastInDim S4096x4096 ![] bcast_S_S4096x4096 (constantI S_ 32 0#32))) (addi (shapeCast _ zm shapeCasts_S64x64x64x64_S4096x4096) (broadcastInDim S4096x4096 ![] bcast_S_S4096x4096 (constantI S_ 32 256#32))) (shapeCast _ zm shapeCasts_S64x64x64x64_S4096x4096)) shapeCasts_S4096x4096_S4096x4096x1) (broadcastInDim S4096x4096x1 ![] bcast_S_S4096x4096x1 (constantI S_ 32 0#32))) (cmpi .sle (shapeCast _ (select (cmpi .slt (shapeCast _ zm shapeCasts_S64x64x64x64_S4096x4096) (broadcastInDim S4096x4096 ![] bcast_S_S4096x4096 (constantI S_ 32 0#32))) (addi (shapeCast _ zm shapeCasts_S64x64x64x64_S4096x4096) (broadcastInDim S4096x4096 ![] bcast_S_S4096x4096 (constantI S_ 32 256#32))) (shapeCast _ zm shapeCasts_S64x64x64x64_S4096x4096)) shapeCasts_S4096x4096_S4096x4096x1) (broadcastInDim S4096x4096x1 ![0, 1, 2] bcast_S1x1x1_S4096x4096x1_0_1_2 (broadcastInDim S1x1x1 ![2] bcast_S1_S1x1x1_2 (constantI S1 32 255#32))))) (constantI S_ 1 1#1) reducesTo_S4096x4096x1_S4096x4096_d2 h_S_)
      (Host.gather gather_S4096x256_S4096x4096x1_S4096x4096_n_1_0_0_1_2_11 cb (shapeCast _ (select (cmpi .slt (shapeCast _ zm shapeCasts_S64x64x64x64_S4096x4096) (broadcastInDim S4096x4096 ![] bcast_S_S4096x4096 (constantI S_ 32 0#32))) (addi (shapeCast _ zm shapeCasts_S64x64x64x64_S4096x4096) (broadcastInDim S4096x4096 ![] bcast_S_S4096x4096 (constantI S_ 32 256#32))) (shapeCast _ zm shapeCasts_S64x64x64x64_S4096x4096)) shapeCasts_S4096x4096_S4096x4096x1))
      (broadcastInDim S4096x4096 ![] bcast_S_S4096x4096 (constant (F := Ideal) S_ .f32 0x7FC00000#32)) := by
  unfold gthR
  simp only [Cert.ReferenceIdeal.ReadP.val_main_v1, Cert.ReferenceIdeal.ReadP.val_main_call0_v12,
    Cert.ReferenceIdeal.ReadP.val_main_call0_v13, Cert.ReferenceIdeal.ReadP.val_main_call0_v14,
    Cert.ReferenceIdeal.ReadP.val_main_call0_v11, Cert.ReferenceIdeal.ReadP.val_main_call0_v10,
    Cert.ReferenceIdeal.ReadP.val_main_call0_v9, Cert.ReferenceIdeal.ReadP.val_main_call0_v8,
    Cert.ReferenceIdeal.ReadP.val_main_call0_v7, Cert.ReferenceIdeal.ReadP.val_main_call0_v6,
    Cert.ReferenceIdeal.ReadP.val_main_call0_v5, Cert.ReferenceIdeal.ReadP.val_main_call0_v4,
    Cert.ReferenceIdeal.ReadP.val_main_call0_v3, Cert.ReferenceIdeal.ReadP.val_main_call0_v2,
    Cert.ReferenceIdeal.ReadP.val_main_call0_v1, Cert.ReferenceIdeal.ReadP.val_main_call0_v0,
    Cert.ReferenceIdeal.ReadP.val_main_call0_c, Cert.ReferenceIdeal.ReadP.val_main_call0_c_0,
    Cert.ReferenceIdeal.ReadP.val_main_call0_c_1, Cert.ReferenceIdeal.ReadP.val_main_call0_c_2,
    Cert.ReferenceIdeal.ReadP.val_main_call0_c_3, Cert.ReferenceIdeal.ReadP.val_main_call0_cst,
    Cert.ReferenceIdeal.ReadP.val_main_v0]

end Cert.RefValue

end
-- ==== Proof.RefIsG.lean ====
/-
  The reference program's result is the common function: at every (b, s, o)
      (Σ_r h(b,s,r) · ls(4096 + o, r) + bi(o)) + (Σ_r h(b,s,r) · ls(o, r) + sc(o)) · Σ_i x(b,s,i) · w(o, i).

  The reference builds the dequantised weight by two reshapes and a transposition of the gathered array and a
  reshape to 8×8 tiles and back; read at (o, i) these compose to the gathered entry at row (o/64)·64 + i/64, column
  (o%64)·64 + i%64, and to the tile (o/8, i/8) of the affine parameters. The concatenation of scale and bias is read
  at its two halves. Everything else is pointwise, so the two sides agree term by term with no rearrangement.
-/
import proofs.«108895_j83004537962674_2_alg».proof.Proof.RefGather
import proofs.«108895_j83004537962674_2_alg».proof.Proof.Spec

noncomputable section

open scoped BigOperators

namespace Cert.RefValue

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.ReadP

/-! ## Index equations -/

/-- Reshaping [4096,4096] to 8×8 tiles and reading the tile parameters: the tile of (o, i) is (o/8, i/8). -/
theorem tile6 (o i : Fin 4096) : idx_main_v6 (idx_main_v10 (ix2 o i)) = Cert.Spec.tile o i := by
  have ho := o.isLt; have hi := i.isLt
  funext a
  match a with
  | ⟨0, _⟩ => exact Fin.ext (by show (o.val * 4096 + i.val) / 32768 = o.val / 8; omega)
  | ⟨1, _⟩ => rfl
  | ⟨2, _⟩ => exact Fin.ext (by show (o.val * 4096 + i.val) / 8 % 512 = i.val / 8; omega)
  | ⟨3, _⟩ => rfl

theorem tile8 (o i : Fin 4096) : idx_main_v8 (idx_main_v10 (ix2 o i)) = Cert.Spec.tile o i := tile6 o i

/-- Reshaping to tiles and back is the identity on indices. -/
theorem tiles_back (o i : Fin 4096) : idx_main_v5 (idx_main_v10 (ix2 o i)) = ix2 o i := by
  have ho := o.isLt; have hi := i.isLt
  funext a
  match a with
  | ⟨0, _⟩ => exact Fin.ext (by
      show ((((o.val * 4096 + i.val) / 32768 * 8 + (o.val * 4096 + i.val) / 4096 % 8) * 512 + (o.val * 4096 + i.val) / 8 % 512) * 8 + (o.val * 4096 + i.val) % 8) / 4096 = o.val
      omega)
  | ⟨1, _⟩ => exact Fin.ext (by
      show ((((o.val * 4096 + i.val) / 32768 * 8 + (o.val * 4096 + i.val) / 4096 % 8) * 512 + (o.val * 4096 + i.val) / 8 % 512) * 8 + (o.val * 4096 + i.val) % 8) % 4096 = i.val
      omega)

/-- Splitting (o, i) into blocks, swapping the two middle axes and flattening: the gathered entry behind (o, i). -/
theorem blocks_swap (o i : Fin 4096) :
    idx_main_v2 (idx_main_v3 (idx_main_v4 (ix2 o i))) = ix2 (Cert.Spec.gRow o i) (Cert.Spec.gCol o i) := by
  have ho := o.isLt; have hi := i.isLt
  have e1 : (o.val * 4096 + i.val) / 262144 = o.val / 64 := by omega
  have e2 : (o.val * 4096 + i.val) / 64 % 64 = i.val / 64 := by omega
  have e3 : (o.val * 4096 + i.val) / 4096 % 64 = o.val % 64 := by omega
  have e4 : (o.val * 4096 + i.val) % 64 = i.val % 64 := by omega
  funext a
  match a with
  | ⟨0, _⟩ => exact Fin.ext (by
      show ((((o.val * 4096 + i.val) / 262144 * 64 + (o.val * 4096 + i.val) / 64 % 64) * 64 + (o.val * 4096 + i.val) / 4096 % 64) * 64 + (o.val * 4096 + i.val) % 64) / 4096 = o.val / 64 * 64 + i.val / 64
      rw [e1, e2, e3, e4]; omega)
  | ⟨1, _⟩ => exact Fin.ext (by
      show ((((o.val * 4096 + i.val) / 262144 * 64 + (o.val * 4096 + i.val) / 64 % 64) * 64 + (o.val * 4096 + i.val) / 4096 % 64) * 64 + (o.val * 4096 + i.val) % 64) % 4096 = o.val % 64 * 64 + i.val % 64
      rw [e1, e2, e3, e4]; omega)

/-! ## The dequantised weight -/

/-- The reference's weight array at (o, i) is the specification's weight of the gathered entries. -/
theorem weight_eq (x1 : (⟨S64x64x64x64, .i32⟩ : BufTy).Contents (Elt Ideal)) (x2 : (⟨S4096x256, .f32⟩ : BufTy).Contents (Elt Ideal))
    (x5 x6 : (⟨S512x1x512x1, .f32⟩ : BufTy).Contents (Elt Ideal)) (o i : Fin 4096) :
    val_main_v10 (F := Ideal) x1 x2 x5 x6 (ix2 o i) = Cert.Spec.w (gthR x1 x2) x5 x6 o i := by
  rw [val_main_v10_apply, val_main_v9_apply, val_main_v8_apply, val_main_v7_apply, val_main_v6_apply,
    val_main_v5_apply, val_main_v4_apply, val_main_v3_apply, val_main_v2_apply, tile8, tile6, tiles_back, blocks_swap]
  rfl

/-! ## The low-rank hidden state and its two products -/

theorem hidden_eq (x0 : (⟨S4x2048x4096, .f32⟩ : BufTy).Contents (Elt Ideal)) (x3 : (⟨S128x4096, .f32⟩ : BufTy).Contents (Elt Ideal))
    (b : Fin 4) (s : Fin 2048) (r : Fin 128) :
    val_main_v12 (F := Ideal) x0 x3 (ix3 b s r) = Cert.Spec.h x0 x3 b s r := by
  rw [val_main_v12_apply]
  unfold Cert.Spec.h
  refine Finset.sum_congr rfl fun k _ => ?_
  have el : lidx_main_v12 (ix3 b s r) k = ix3 b s k := funext fun a => by
    match a with
    | ⟨0, _⟩ => rfl
    | ⟨1, _⟩ => rfl
    | ⟨2, _⟩ => rfl
  have er : ridx_main_v12 (ix3 b s r) k = ix2 r k := funext fun a => by
    match a with
    | ⟨0, _⟩ => rfl
    | ⟨1, _⟩ => rfl
  rw [el, er]

/-- The product of the hidden state with row `p` of the second factor. -/
theorem lowrank_eq (x0 : (⟨S4x2048x4096, .f32⟩ : BufTy).Contents (Elt Ideal)) (x3 : (⟨S128x4096, .f32⟩ : BufTy).Contents (Elt Ideal))
    (x4 : (⟨S8192x128, .f32⟩ : BufTy).Contents (Elt Ideal)) (b : Fin 4) (s : Fin 2048) (p : Fin 8192) :
    val_main_v14 (F := Ideal) x0 x3 x4 (ix3 b s p) = ∑ r : Fin 128, Cert.Spec.h x0 x3 b s r * x4 (ix2 p r) := by
  rw [val_main_v14_apply]
  refine Finset.sum_congr rfl fun k _ => ?_
  have el : lidx_main_v14 (ix3 b s p) k = ix3 b s k := funext fun a => by
    match a with
    | ⟨0, _⟩ => rfl
    | ⟨1, _⟩ => rfl
    | ⟨2, _⟩ => rfl
  have er : ridx_main_v14 (ix3 b s p) k = ix2 p k := funext fun a => by
    match a with
    | ⟨0, _⟩ => rfl
    | ⟨1, _⟩ => rfl
  rw [el, er, hidden_eq]

/-! ## The intercept: scale below 4096, bias from 4096 on -/

theorem intercept_lo (x7 x8 : (⟨S4096, .f32⟩ : BufTy).Contents (Elt Ideal)) (b : Fin 4) (s : Fin 2048) (o : Fin 4096) :
    val_main_v16 (F := Ideal) x7 x8 (ix3 b s (Cert.Spec.lo o)) = x7 (ix1 o) := by
  rw [val_main_v16_apply, val_main_v15_apply]
  unfold val_main_v13
  exact concatenate_pair_apply_left (0 : Fin S8192.rank) x7 x8 concatenates_S4096_S4096_S8192_d0 _ rfl (ix1 o)
    (fun a => by match a with | ⟨0, _⟩ => rfl)

theorem intercept_hi (x7 x8 : (⟨S4096, .f32⟩ : BufTy).Contents (Elt Ideal)) (b : Fin 4) (s : Fin 2048) (o : Fin 4096) :
    val_main_v16 (F := Ideal) x7 x8 (ix3 b s (Cert.Spec.hi o)) = x8 (ix1 o) := by
  rw [val_main_v16_apply, val_main_v15_apply]
  unfold val_main_v13
  exact concatenate_pair_apply_right (0 : Fin S8192.rank) x7 x8 concatenates_S4096_S4096_S8192_d0 _ rfl rfl (ix1 o)
    (fun a ha => by match a with | ⟨0, _⟩ => exact absurd rfl ha)
    (by show o.val + 4096 = 4096 + o.val; omega)

/-! ## The result -/

theorem slice_lo (b : Fin 4) (s : Fin 2048) (o : Fin 4096) : idx_main_v18 (ix3 b s o) = ix3 b s (Cert.Spec.lo o) := funext fun a => by
  match a with
  | ⟨0, _⟩ => rfl
  | ⟨1, _⟩ => rfl
  | ⟨2, _⟩ => rfl

theorem slice_hi (b : Fin 4) (s : Fin 2048) (o : Fin 4096) : idx_main_v19 (ix3 b s o) = ix3 b s (Cert.Spec.hi o) := funext fun a => by
  match a with
  | ⟨0, _⟩ => rfl
  | ⟨1, _⟩ => rfl
  | ⟨2, _⟩ => rfl

theorem baseline_eq (x0 : (⟨S4x2048x4096, .f32⟩ : BufTy).Contents (Elt Ideal)) (x1 : (⟨S64x64x64x64, .i32⟩ : BufTy).Contents (Elt Ideal))
    (x2 : (⟨S4096x256, .f32⟩ : BufTy).Contents (Elt Ideal)) (x5 x6 : (⟨S512x1x512x1, .f32⟩ : BufTy).Contents (Elt Ideal))
    (b : Fin 4) (s : Fin 2048) (o : Fin 4096) :
    val_main_v11 (F := Ideal) x0 x1 x2 x5 x6 (ix3 b s o) = ∑ i : Fin 4096, x0 (ix3 b s i) * Cert.Spec.w (gthR x1 x2) x5 x6 o i := by
  rw [val_main_v11_apply]
  refine Finset.sum_congr rfl fun k _ => ?_
  have el : lidx_main_v11 (ix3 b s o) k = ix3 b s k := funext fun a => by
    match a with
    | ⟨0, _⟩ => rfl
    | ⟨1, _⟩ => rfl
    | ⟨2, _⟩ => rfl
  have er : ridx_main_v11 (ix3 b s o) k = ix2 o k := funext fun a => by
    match a with
    | ⟨0, _⟩ => rfl
    | ⟨1, _⟩ => rfl
  rw [el, er, weight_eq]

/-- The reference's result, as the run states it, is the common function of the arguments and the gathered entries. -/
theorem ref_is_G (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v21 (F := Ideal) m c
      = Cert.Spec.G (m ((c.tc : Thread nD τ).loc main_arg0))
          (gthR (m ((c.tc : Thread nD τ).loc main_arg1)) (m ((c.tc : Thread nD τ).loc main_arg2)))
          (m ((c.tc : Thread nD τ).loc main_arg5)) (m ((c.tc : Thread nD τ).loc main_arg6))
          (m ((c.tc : Thread nD τ).loc main_arg3)) (m ((c.tc : Thread nD τ).loc main_arg4))
          (m ((c.tc : Thread nD τ).loc main_arg7)) (m ((c.tc : Thread nD τ).loc main_arg8)) := by
  rw [val_main_v21_eq]
  funext j
  obtain ⟨b, s, o, rfl⟩ : ∃ (b : Fin 4) (s : Fin 2048) (o : Fin 4096), j = ix3 b s o := ⟨j 0, j 1, j 2, eq_ix3 j⟩
  rw [val_main_v21_apply, val_main_v20_apply, val_main_v19_apply, val_main_v18_apply, slice_lo, slice_hi,
    val_main_v17_apply, val_main_v17_apply, lowrank_eq, lowrank_eq, intercept_lo, intercept_hi, baseline_eq]
  rfl

end Cert.RefValue

end
-- ==== Proof.RefRun.lean ====
/-
  The reference program's run, read one operation at a time.

  The reference is a straight line of 43 host operations, each writing a buffer of its own. After the line has run,
  the buffer an operation writes holds the operation's function of what its operand buffers hold, and an argument
  buffer, written by no operation, holds its launch contents. Going down the line in program order, every buffer
  holds the stage named for it as a function of the arguments; the last one is the result.
-/
import proofs.«108895_j83004537962674_2_alg».proof.Proof.RefReadP
import proofs.«108895_j83004537962674_2_alg».proof.Proof.LibLineOfOps

noncomputable section

namespace Cert.RefValue

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

section Line

variable {τ' : Topo} {sig' : RefSig} {Val : EltTy → Type} {ops' : List (HloOp τ' sig' Val)} {wr' : List (Ref sig' .tc)}

/-- A one-operand operation's result buffer, given what the operand buffer holds. -/
theorem after_unary_eq (h : WritesEach ops' wr') (V : Valuation τ' sig' Val) (k : ℕ) (x y : Ref sig' .tc)
    (f : x.ty.Contents Val → y.ty.Contents Val) (hx hy) (hk : ops'[k]? = some (unary x y f hx hy))
    (hy' : y ∉ wr'.drop (k + 1)) (hx' : x ∉ wr'.drop k) {vx : x.ty.Contents Val}
    (Ex : after ops' V (Proc.devRef .tc x) = vx) :
    after ops' V (Proc.devRef .tc y) = f vx := by
  rw [after_unary h V k x y f hx hy hk hy' hx', Ex]

theorem after_binary_eq (h : WritesEach ops' wr') (V : Valuation τ' sig' Val) (k : ℕ) (a b y : Ref sig' .tc)
    (f : a.ty.Contents Val → b.ty.Contents Val → y.ty.Contents Val) (ha hb hy)
    (hk : ops'[k]? = some (binary a b y f ha hb hy))
    (hy' : y ∉ wr'.drop (k + 1)) (ha' : a ∉ wr'.drop k) (hb' : b ∉ wr'.drop k)
    {va : a.ty.Contents Val} {vb : b.ty.Contents Val}
    (Ea : after ops' V (Proc.devRef .tc a) = va) (Eb : after ops' V (Proc.devRef .tc b) = vb) :
    after ops' V (Proc.devRef .tc y) = f va vb := by
  rw [after_binary h V k a b y f ha hb hy hk hy' ha' hb', Ea, Eb]

theorem after_ternary_eq (h : WritesEach ops' wr') (V : Valuation τ' sig' Val) (k : ℕ) (c a b y : Ref sig' .tc)
    (f : c.ty.Contents Val → a.ty.Contents Val → b.ty.Contents Val → y.ty.Contents Val) (hc ha hb hy)
    (hk : ops'[k]? = some (ternary c a b y f hc ha hb hy))
    (hy' : y ∉ wr'.drop (k + 1)) (hc' : c ∉ wr'.drop k) (ha' : a ∉ wr'.drop k) (hb' : b ∉ wr'.drop k)
    {vc : c.ty.Contents Val} {va : a.ty.Contents Val} {vb : b.ty.Contents Val}
    (Ec : after ops' V (Proc.devRef .tc c) = vc) (Ea : after ops' V (Proc.devRef .tc a) = va)
    (Eb : after ops' V (Proc.devRef .tc b) = vb) :
    after ops' V (Proc.devRef .tc y) = f vc va vb := by
  rw [after_ternary h V k c a b y f hc ha hb hy hk hy' hc' ha' hb', Ec, Ea, Eb]

theorem after_reshape_eq (h : WritesEach ops' wr') (V : Valuation τ' sig' Val) (k : ℕ) (x y : Ref sig' .tc)
    (he : x.ty.elt = y.ty.elt) (hn : x.ty.shape.ShapeCasts y.ty.shape) (hx hy)
    (hk : ops'[k]? = some (reshape x y he hn hx hy)) (hy' : y ∉ wr'.drop (k + 1)) (hx' : x ∉ wr'.drop k)
    {vx : x.ty.Contents Val} (Ex : after ops' V (Proc.devRef .tc x) = vx) :
    after ops' V (Proc.devRef .tc y) = fun i => he ▸ shapeCast y.ty.shape vx hn i := by
  rw [after_reshape h V k x y he hn hx hy hk hy' hx', Ex]

end Line

section TypedLine

variable {τ' : Topo} {sig' : RefSig} {Val : EltTy → Type} {ops' : List (HloOp τ' sig' Val)} {wr' : List (Ref sig' .tc)}
variable {T Tx Ta Tb Tc Ty : BufTy}

/-- Contents moved to a typed reference's buffer and back are the contents. -/
theorem ofBuf_toBuf (x : TRef sig' T) (v : T.Contents Val) : x.ofBuf (x.toBuf v) = v := by
  obtain ⟨r, h, h1, h2⟩ := x
  subst h
  rfl

theorem after_tnullary_eq (h : WritesEach ops' wr') (V : Valuation τ' sig' Val) (k : ℕ) (y : TRef sig' Ty)
    (v : Ty.Contents Val) (hk : ops'[k]? = some (TRef.nullary y v)) (hy' : y.ref ∉ wr'.drop (k + 1)) :
    y.ofBuf (after ops' V (Proc.devRef .tc y.ref)) = v :=
  (congrArg y.ofBuf (after_nullary h V k y.ref (y.toBuf v) y.dev hk hy')).trans (ofBuf_toBuf y v)

theorem after_tunary_eq (h : WritesEach ops' wr') (V : Valuation τ' sig' Val) (k : ℕ) (x : TRef sig' Tx) (y : TRef sig' Ty)
    (f : Tx.Contents Val → Ty.Contents Val) (hk : ops'[k]? = some (TRef.unary x y f))
    (hy' : y.ref ∉ wr'.drop (k + 1)) (hx' : x.ref ∉ wr'.drop k) {vx : Tx.Contents Val}
    (Ex : x.ofBuf (after ops' V (Proc.devRef .tc x.ref)) = vx) :
    y.ofBuf (after ops' V (Proc.devRef .tc y.ref)) = f vx :=
  (congrArg y.ofBuf (after_unary h V k x.ref y.ref (fun u => y.toBuf (f (x.ofBuf u))) x.dev y.dev hk hy' hx')).trans
    ((ofBuf_toBuf y _).trans (congrArg f Ex))

theorem after_tbinary_eq (h : WritesEach ops' wr') (V : Valuation τ' sig' Val) (k : ℕ) (a : TRef sig' Ta) (b : TRef sig' Tb)
    (y : TRef sig' Ty) (f : Ta.Contents Val → Tb.Contents Val → Ty.Contents Val)
    (hk : ops'[k]? = some (TRef.binary a b y f))
    (hy' : y.ref ∉ wr'.drop (k + 1)) (ha' : a.ref ∉ wr'.drop k) (hb' : b.ref ∉ wr'.drop k)
    {va : Ta.Contents Val} {vb : Tb.Contents Val}
    (Ea : a.ofBuf (after ops' V (Proc.devRef .tc a.ref)) = va) (Eb : b.ofBuf (after ops' V (Proc.devRef .tc b.ref)) = vb) :
    y.ofBuf (after ops' V (Proc.devRef .tc y.ref)) = f va vb :=
  (congrArg y.ofBuf (after_binary h V k a.ref b.ref y.ref (fun u v => y.toBuf (f (a.ofBuf u) (b.ofBuf v)))
      a.dev b.dev y.dev hk hy' ha' hb')).trans
    ((ofBuf_toBuf y _).trans (by rw [Ea, Eb]))

theorem after_tternary_eq (h : WritesEach ops' wr') (V : Valuation τ' sig' Val) (k : ℕ) (c : TRef sig' Tc) (a : TRef sig' Ta)
    (b : TRef sig' Tb) (y : TRef sig' Ty) (f : Tc.Contents Val → Ta.Contents Val → Tb.Contents Val → Ty.Contents Val)
    (hk : ops'[k]? = some (TRef.ternary c a b y f))
    (hy' : y.ref ∉ wr'.drop (k + 1)) (hc' : c.ref ∉ wr'.drop k) (ha' : a.ref ∉ wr'.drop k) (hb' : b.ref ∉ wr'.drop k)
    {vc : Tc.Contents Val} {va : Ta.Contents Val} {vb : Tb.Contents Val}
    (Ec : c.ofBuf (after ops' V (Proc.devRef .tc c.ref)) = vc) (Ea : a.ofBuf (after ops' V (Proc.devRef .tc a.ref)) = va)
    (Eb : b.ofBuf (after ops' V (Proc.devRef .tc b.ref)) = vb) :
    y.ofBuf (after ops' V (Proc.devRef .tc y.ref)) = f vc va vb :=
  (congrArg y.ofBuf (after_ternary h V k c.ref a.ref b.ref y.ref (fun w u v => y.toBuf (f (c.ofBuf w) (a.ofBuf u) (b.ofBuf v)))
      c.dev a.dev b.dev y.dev hk hy' hc' ha' hb')).trans
    ((ofBuf_toBuf y _).trans (by rw [Ec, Ea, Eb]))

end TypedLine

variable {F : FTy → Type} [FloatOps F]

/-- The buffers the 43 operations write, in program order. -/
abbrev wr : List (Ref sig .tc) :=
  [main_v0, main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_cst, main_call0_v14, main_v1, main_v2, main_v3, main_v4, main_v5, main_v6, main_v7, main_v8, main_v9, main_v10, main_v11, main_v12, main_v13, main_v14, main_v15, main_v16, main_v17, main_v18, main_v19, main_v20, main_v21]

theorem writesEach : WritesEach (ops (F := F)) wr :=
  List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.cons rfl (List.Forall₂.nil)))))))))))))))))))))))))))))))))))))))))))

/-- After the line, the result buffer holds the composed term of the arguments' launch contents. -/
theorem ref_line (m : (ℓ : Loc nD τ sig) → Buf (Elt F) ℓ) (c : Dev nD) :
    after (ops (F := F)) (launchContents m c) (Proc.devRef .tc main_v21) = res_main_v21 m c := by
  have hW := writesEach (F := F)
  generalize hV : launchContents m c = V
  have E_main_arg0 : after (ops (F := F)) V (Proc.devRef .tc main_arg0) = m ((c.tc : Thread nD τ).loc main_arg0) :=
    (after_of_not_written hW V main_arg0 (by decide)).trans (by rw [← hV])
  have E_main_arg1 : after (ops (F := F)) V (Proc.devRef .tc main_arg1) = m ((c.tc : Thread nD τ).loc main_arg1) :=
    (after_of_not_written hW V main_arg1 (by decide)).trans (by rw [← hV])
  have E_main_arg2 : after (ops (F := F)) V (Proc.devRef .tc main_arg2) = m ((c.tc : Thread nD τ).loc main_arg2) :=
    (after_of_not_written hW V main_arg2 (by decide)).trans (by rw [← hV])
  have E_main_arg3 : after (ops (F := F)) V (Proc.devRef .tc main_arg3) = m ((c.tc : Thread nD τ).loc main_arg3) :=
    (after_of_not_written hW V main_arg3 (by decide)).trans (by rw [← hV])
  have E_main_arg4 : after (ops (F := F)) V (Proc.devRef .tc main_arg4) = m ((c.tc : Thread nD τ).loc main_arg4) :=
    (after_of_not_written hW V main_arg4 (by decide)).trans (by rw [← hV])
  have E_main_arg5 : after (ops (F := F)) V (Proc.devRef .tc main_arg5) = m ((c.tc : Thread nD τ).loc main_arg5) :=
    (after_of_not_written hW V main_arg5 (by decide)).trans (by rw [← hV])
  have E_main_arg6 : after (ops (F := F)) V (Proc.devRef .tc main_arg6) = m ((c.tc : Thread nD τ).loc main_arg6) :=
    (after_of_not_written hW V main_arg6 (by decide)).trans (by rw [← hV])
  have E_main_arg7 : after (ops (F := F)) V (Proc.devRef .tc main_arg7) = m ((c.tc : Thread nD τ).loc main_arg7) :=
    (after_of_not_written hW V main_arg7 (by decide)).trans (by rw [← hV])
  have E_main_arg8 : after (ops (F := F)) V (Proc.devRef .tc main_arg8) = m ((c.tc : Thread nD τ).loc main_arg8) :=
    (after_of_not_written hW V main_arg8 (by decide)).trans (by rw [← hV])
  have E_main_v0 : after (ops (F := F)) V (Proc.devRef .tc main_v0) = (val_main_v0 (F := F) (m ((c.tc : Thread nD τ).loc main_arg1))) :=
    (after_reshape_eq hW V 0 _ _ _ _ _ _ rfl (by decide) (by decide) E_main_arg1).trans rfl
  have E_main_call0_c : after (ops (F := F)) V (Proc.devRef .tc main_call0_c) = (val_main_call0_c (F := F)) :=
    ((cast_eq _ _).symm.trans (after_tnullary_eq hW V 1 _ _ rfl (by decide))).trans rfl
  have E_main_call0_v0 : after (ops (F := F)) V (Proc.devRef .tc main_call0_v0) = (val_main_call0_v0 (F := F)) :=
    ((cast_eq _ _).symm.trans (after_tunary_eq hW V 2 _ _ _ rfl (by decide) (by decide) ((cast_eq _ _).trans E_main_call0_c))).trans rfl
  have E_main_call0_v1 : after (ops (F := F)) V (Proc.devRef .tc main_call0_v1) = (val_main_call0_v1 (F := F) (m ((c.tc : Thread nD τ).loc main_arg1))) :=
    ((cast_eq _ _).symm.trans (after_tbinary_eq hW V 3 _ _ _ _ rfl (by decide) (by decide) (by decide) ((cast_eq _ _).trans E_main_v0) ((cast_eq _ _).trans E_main_call0_v0))).trans rfl
  have E_main_call0_c_0 : after (ops (F := F)) V (Proc.devRef .tc main_call0_c_0) = (val_main_call0_c_0 (F := F)) :=
    ((cast_eq _ _).symm.trans (after_tnullary_eq hW V 4 _ _ rfl (by decide))).trans rfl
  have E_main_call0_v2 : after (ops (F := F)) V (Proc.devRef .tc main_call0_v2) = (val_main_call0_v2 (F := F)) :=
    ((cast_eq _ _).symm.trans (after_tunary_eq hW V 5 _ _ _ rfl (by decide) (by decide) ((cast_eq _ _).trans E_main_call0_c_0))).trans rfl
  have E_main_call0_v3 : after (ops (F := F)) V (Proc.devRef .tc main_call0_v3) = (val_main_call0_v3 (F := F) (m ((c.tc : Thread nD τ).loc main_arg1))) :=
    ((cast_eq _ _).symm.trans (after_tbinary_eq hW V 6 _ _ _ _ rfl (by decide) (by decide) (by decide) ((cast_eq _ _).trans E_main_v0) ((cast_eq _ _).trans E_main_call0_v2))).trans rfl
  have E_main_call0_v4 : after (ops (F := F)) V (Proc.devRef .tc main_call0_v4) = (val_main_call0_v4 (F := F) (m ((c.tc : Thread nD τ).loc main_arg1))) :=
    ((cast_eq _ _).symm.trans (after_tternary_eq hW V 7 _ _ _ _ _ rfl (by decide) (by decide) (by decide) (by decide) ((cast_eq _ _).trans E_main_call0_v1) ((cast_eq _ _).trans E_main_call0_v3) ((cast_eq _ _).trans E_main_v0))).trans rfl
  have E_main_call0_v5 : after (ops (F := F)) V (Proc.devRef .tc main_call0_v5) = (val_main_call0_v5 (F := F) (m ((c.tc : Thread nD τ).loc main_arg1))) :=
    (after_reshape_eq hW V 8 _ _ _ _ _ _ rfl (by decide) (by decide) E_main_call0_v4).trans rfl
  have E_main_call0_c_1 : after (ops (F := F)) V (Proc.devRef .tc main_call0_c_1) = (val_main_call0_c_1 (F := F)) :=
    ((cast_eq _ _).symm.trans (after_tnullary_eq hW V 9 _ _ rfl (by decide))).trans rfl
  have E_main_call0_c_2 : after (ops (F := F)) V (Proc.devRef .tc main_call0_c_2) = (val_main_call0_c_2 (F := F)) :=
    ((cast_eq _ _).symm.trans (after_tnullary_eq hW V 10 _ _ rfl (by decide))).trans rfl
  have E_main_call0_v6 : after (ops (F := F)) V (Proc.devRef .tc main_call0_v6) = (val_main_call0_v6 (F := F)) :=
    ((cast_eq _ _).symm.trans (after_tunary_eq hW V 11 _ _ _ rfl (by decide) (by decide) ((cast_eq _ _).trans E_main_call0_c_2))).trans rfl
  have E_main_call0_v7 : after (ops (F := F)) V (Proc.devRef .tc main_call0_v7) = (val_main_call0_v7 (F := F) (m ((c.tc : Thread nD τ).loc main_arg1))) :=
    ((cast_eq _ _).symm.trans (after_tbinary_eq hW V 12 _ _ _ _ rfl (by decide) (by decide) (by decide) ((cast_eq _ _).trans E_main_call0_v5) ((cast_eq _ _).trans E_main_call0_v6))).trans rfl
  have E_main_call0_v8 : after (ops (F := F)) V (Proc.devRef .tc main_call0_v8) = (val_main_call0_v8 (F := F)) :=
    ((cast_eq _ _).symm.trans (after_tunary_eq hW V 13 _ _ _ rfl (by decide) (by decide) ((cast_eq _ _).trans E_main_call0_c_1))).trans rfl
  have E_main_call0_v9 : after (ops (F := F)) V (Proc.devRef .tc main_call0_v9) = (val_main_call0_v9 (F := F)) :=
    ((cast_eq _ _).symm.trans (after_tunary_eq hW V 14 _ _ _ rfl (by decide) (by decide) ((cast_eq _ _).trans E_main_call0_v8))).trans rfl
  have E_main_call0_v10 : after (ops (F := F)) V (Proc.devRef .tc main_call0_v10) = (val_main_call0_v10 (F := F) (m ((c.tc : Thread nD τ).loc main_arg1))) :=
    ((cast_eq _ _).symm.trans (after_tbinary_eq hW V 15 _ _ _ _ rfl (by decide) (by decide) (by decide) ((cast_eq _ _).trans E_main_call0_v5) ((cast_eq _ _).trans E_main_call0_v9))).trans rfl
  have E_main_call0_v11 : after (ops (F := F)) V (Proc.devRef .tc main_call0_v11) = (val_main_call0_v11 (F := F) (m ((c.tc : Thread nD τ).loc main_arg1))) :=
    ((cast_eq _ _).symm.trans (after_tbinary_eq hW V 16 _ _ _ _ rfl (by decide) (by decide) (by decide) ((cast_eq _ _).trans E_main_call0_v7) ((cast_eq _ _).trans E_main_call0_v10))).trans rfl
  have E_main_call0_c_3 : after (ops (F := F)) V (Proc.devRef .tc main_call0_c_3) = (val_main_call0_c_3 (F := F)) :=
    ((cast_eq _ _).symm.trans (after_tnullary_eq hW V 17 _ _ rfl (by decide))).trans rfl
  have E_main_call0_v12 : after (ops (F := F)) V (Proc.devRef .tc main_call0_v12) = (val_main_call0_v12 (F := F) (m ((c.tc : Thread nD τ).loc main_arg1))) :=
    ((cast_eq _ _).symm.trans (after_tbinary_eq hW V 18 _ _ _ _ rfl (by decide) (by decide) (by decide) ((cast_eq _ _).trans E_main_call0_v11) ((cast_eq _ _).trans E_main_call0_c_3))).trans rfl
  have E_main_call0_v13 : after (ops (F := F)) V (Proc.devRef .tc main_call0_v13) = (val_main_call0_v13 (F := F) (m ((c.tc : Thread nD τ).loc main_arg1)) (m ((c.tc : Thread nD τ).loc main_arg2))) :=
    ((cast_eq _ _).symm.trans (after_tbinary_eq hW V 19 _ _ _ _ rfl (by decide) (by decide) (by decide) ((cast_eq _ _).trans E_main_arg2) ((cast_eq _ _).trans E_main_call0_v5))).trans rfl
  have E_main_call0_cst : after (ops (F := F)) V (Proc.devRef .tc main_call0_cst) = (val_main_call0_cst (F := F)) :=
    ((cast_eq _ _).symm.trans (after_tnullary_eq hW V 20 _ _ rfl (by decide))).trans rfl
  have E_main_call0_v14 : after (ops (F := F)) V (Proc.devRef .tc main_call0_v14) = (val_main_call0_v14 (F := F)) :=
    ((cast_eq _ _).symm.trans (after_tunary_eq hW V 21 _ _ _ rfl (by decide) (by decide) ((cast_eq _ _).trans E_main_call0_cst))).trans rfl
  have E_main_v1 : after (ops (F := F)) V (Proc.devRef .tc main_v1) = (val_main_v1 (F := F) (m ((c.tc : Thread nD τ).loc main_arg1)) (m ((c.tc : Thread nD τ).loc main_arg2))) :=
    ((cast_eq _ _).symm.trans (after_tternary_eq hW V 22 _ _ _ _ _ rfl (by decide) (by decide) (by decide) (by decide) ((cast_eq _ _).trans E_main_call0_v12) ((cast_eq _ _).trans E_main_call0_v13) ((cast_eq _ _).trans E_main_call0_v14))).trans rfl
  have E_main_v2 : after (ops (F := F)) V (Proc.devRef .tc main_v2) = (val_main_v2 (F := F) (m ((c.tc : Thread nD τ).loc main_arg1)) (m ((c.tc : Thread nD τ).loc main_arg2))) :=
    (after_reshape_eq hW V 23 _ _ _ _ _ _ rfl (by decide) (by decide) E_main_v1).trans rfl
  have E_main_v3 : after (ops (F := F)) V (Proc.devRef .tc main_v3) = (val_main_v3 (F := F) (m ((c.tc : Thread nD τ).loc main_arg1)) (m ((c.tc : Thread nD τ).loc main_arg2))) :=
    (after_unary_eq hW V 24 _ _ _ _ _ rfl (by decide) (by decide) E_main_v2).trans rfl
  have E_main_v4 : after (ops (F := F)) V (Proc.devRef .tc main_v4) = (val_main_v4 (F := F) (m ((c.tc : Thread nD τ).loc main_arg1)) (m ((c.tc : Thread nD τ).loc main_arg2))) :=
    (after_reshape_eq hW V 25 _ _ _ _ _ _ rfl (by decide) (by decide) E_main_v3).trans rfl
  have E_main_v5 : after (ops (F := F)) V (Proc.devRef .tc main_v5) = (val_main_v5 (F := F) (m ((c.tc : Thread nD τ).loc main_arg1)) (m ((c.tc : Thread nD τ).loc main_arg2))) :=
    (after_reshape_eq hW V 26 _ _ _ _ _ _ rfl (by decide) (by decide) E_main_v4).trans rfl
  have E_main_v6 : after (ops (F := F)) V (Proc.devRef .tc main_v6) = (val_main_v6 (F := F) (m ((c.tc : Thread nD τ).loc main_arg5))) :=
    (after_unary_eq hW V 27 _ _ _ _ _ rfl (by decide) (by decide) E_main_arg5).trans rfl
  have E_main_v7 : after (ops (F := F)) V (Proc.devRef .tc main_v7) = (val_main_v7 (F := F) (m ((c.tc : Thread nD τ).loc main_arg1)) (m ((c.tc : Thread nD τ).loc main_arg2)) (m ((c.tc : Thread nD τ).loc main_arg5))) :=
    (after_binary_eq hW V 28 _ _ _ _ _ _ _ rfl (by decide) (by decide) (by decide) E_main_v5 E_main_v6).trans rfl
  have E_main_v8 : after (ops (F := F)) V (Proc.devRef .tc main_v8) = (val_main_v8 (F := F) (m ((c.tc : Thread nD τ).loc main_arg6))) :=
    (after_unary_eq hW V 29 _ _ _ _ _ rfl (by decide) (by decide) E_main_arg6).trans rfl
  have E_main_v9 : after (ops (F := F)) V (Proc.devRef .tc main_v9) = (val_main_v9 (F := F) (m ((c.tc : Thread nD τ).loc main_arg1)) (m ((c.tc : Thread nD τ).loc main_arg2)) (m ((c.tc : Thread nD τ).loc main_arg5)) (m ((c.tc : Thread nD τ).loc main_arg6))) :=
    (after_binary_eq hW V 30 _ _ _ _ _ _ _ rfl (by decide) (by decide) (by decide) E_main_v8 E_main_v7).trans rfl
  have E_main_v10 : after (ops (F := F)) V (Proc.devRef .tc main_v10) = (val_main_v10 (F := F) (m ((c.tc : Thread nD τ).loc main_arg1)) (m ((c.tc : Thread nD τ).loc main_arg2)) (m ((c.tc : Thread nD τ).loc main_arg5)) (m ((c.tc : Thread nD τ).loc main_arg6))) :=
    (after_reshape_eq hW V 31 _ _ _ _ _ _ rfl (by decide) (by decide) E_main_v9).trans rfl
  have E_main_v11 : after (ops (F := F)) V (Proc.devRef .tc main_v11) = (val_main_v11 (F := F) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6))) :=
    (after_binary_eq hW V 32 _ _ _ _ _ _ _ rfl (by decide) (by decide) (by decide) E_main_arg0 E_main_v10).trans rfl
  have E_main_v12 : after (ops (F := F)) V (Proc.devRef .tc main_v12) = (val_main_v12 (F := F) (m ((c.tc : Thread nD τ).loc main_arg0)) (m ((c.tc : Thread nD τ).loc main_arg3))) :=
    (after_binary_eq hW V 33 _ _ _ _ _ _ _ rfl (by decide) (by decide) (by decide) E_main_arg0 E_main_arg3).trans rfl
  have E_main_v13 : after (ops (F := F)) V (Proc.devRef .tc main_v13) = (val_main_v13 (F := F) (m ((c.tc : Thread nD τ).loc main_arg7)) (m ((c.tc : Thread nD τ).loc main_arg8))) :=
    (after_binary_eq hW V 34 _ _ _ _ _ _ _ rfl (by decide) (by decide) (by decide) E_main_arg7 E_main_arg8).trans rfl
  have E_main_v14 : after (ops (F := F)) V (Proc.devRef .tc main_v14) = (val_main_v14 (F := F) (m ((c.tc : Thread nD τ).loc main_arg0)) (m ((c.tc : Thread nD τ).loc main_arg3)) (m ((c.tc : Thread nD τ).loc main_arg4))) :=
    (after_binary_eq hW V 35 _ _ _ _ _ _ _ rfl (by decide) (by decide) (by decide) E_main_v12 E_main_arg4).trans rfl
  have E_main_v15 : after (ops (F := F)) V (Proc.devRef .tc main_v15) = (val_main_v15 (F := F) (m ((c.tc : Thread nD τ).loc main_arg7)) (m ((c.tc : Thread nD τ).loc main_arg8))) :=
    (after_unary_eq hW V 36 _ _ _ _ _ rfl (by decide) (by decide) E_main_v13).trans rfl
  have E_main_v16 : after (ops (F := F)) V (Proc.devRef .tc main_v16) = (val_main_v16 (F := F) (m ((c.tc : Thread nD τ).loc main_arg7)) (m ((c.tc : Thread nD τ).loc main_arg8))) :=
    (after_unary_eq hW V 37 _ _ _ _ _ rfl (by decide) (by decide) E_main_v15).trans rfl
  have E_main_v17 : after (ops (F := F)) V (Proc.devRef .tc main_v17) = (val_main_v17 (F := F) (m ((c.tc : Thread nD τ).loc main_arg0)) (m ((c.tc : Thread nD τ).loc main_arg3)) (m ((c.tc : Thread nD τ).loc main_arg4)) (m ((c.tc : Thread nD τ).loc main_arg7)) (m ((c.tc : Thread nD τ).loc main_arg8))) :=
    (after_binary_eq hW V 38 _ _ _ _ _ _ _ rfl (by decide) (by decide) (by decide) E_main_v14 E_main_v16).trans rfl
  have E_main_v18 : after (ops (F := F)) V (Proc.devRef .tc main_v18) = (val_main_v18 (F := F) (m ((c.tc : Thread nD τ).loc main_arg0)) (m ((c.tc : Thread nD τ).loc main_arg3)) (m ((c.tc : Thread nD τ).loc main_arg4)) (m ((c.tc : Thread nD τ).loc main_arg7)) (m ((c.tc : Thread nD τ).loc main_arg8))) :=
    (after_unary_eq hW V 39 _ _ _ _ _ rfl (by decide) (by decide) E_main_v17).trans rfl
  have E_main_v19 : after (ops (F := F)) V (Proc.devRef .tc main_v19) = (val_main_v19 (F := F) (m ((c.tc : Thread nD τ).loc main_arg0)) (m ((c.tc : Thread nD τ).loc main_arg3)) (m ((c.tc : Thread nD τ).loc main_arg4)) (m ((c.tc : Thread nD τ).loc main_arg7)) (m ((c.tc : Thread nD τ).loc main_arg8))) :=
    (after_unary_eq hW V 40 _ _ _ _ _ rfl (by decide) (by decide) E_main_v17).trans rfl
  have E_main_v20 : after (ops (F := F)) V (Proc.devRef .tc main_v20) = (val_main_v20 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :=
    (after_binary_eq hW V 41 _ _ _ _ _ _ _ rfl (by decide) (by decide) (by decide) E_main_v18 E_main_v11).trans rfl
  have E_main_v21 : after (ops (F := F)) V (Proc.devRef .tc main_v21) = (val_main_v21 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :=
    (after_binary_eq hW V 42 _ _ _ _ _ _ _ rfl (by decide) (by decide) (by decide) E_main_v19 E_main_v20).trans rfl
  exact E_main_v21.trans (val_main_v21_eq m c).symm

/-- After the line, a buffer no operation writes holds its launch contents. -/
theorem arg_line (m : (ℓ : Loc nD τ sig) → Buf (Elt F) ℓ) (c : Dev nD) (r : Ref sig .tc) (hr : r ∉ wr) :
    after (ops (F := F)) (launchContents m c) (Proc.devRef .tc r) = m ((c.tc : Thread nD τ).loc r) :=
  (after_of_not_written (writesEach (F := F)) (launchContents m c) r hr).trans rfl

/-- On every device, for any float values, from any memory with zero counters: every weakly fair execution of
    the reference terminates with the result at the operations' composed term of the arguments and the arguments
    unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21) = res_main_v21 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v21).trans (ref_line m c),
      (h c main_arg0).trans (arg_line m c main_arg0 (by decide)),
      (h c main_arg1).trans (arg_line m c main_arg1 (by decide)),
      (h c main_arg2).trans (arg_line m c main_arg2 (by decide)),
      (h c main_arg3).trans (arg_line m c main_arg3 (by decide)),
      (h c main_arg4).trans (arg_line m c main_arg4 (by decide)),
      (h c main_arg5).trans (arg_line m c main_arg5 (by decide)),
      (h c main_arg6).trans (arg_line m c main_arg6 (by decide)),
      (h c main_arg7).trans (arg_line m c main_arg7 (by decide)),
      (h c main_arg8).trans (arg_line m c main_arg8 (by decide))⟩)
    (run_seq scopedRefs_eq scopedSems_eq defs main (fun _ => ops) main_eq (fun _ => ops_sub) m ρ)

end Cert.RefValue

end
-- ==== Proof.Final.lean ====
/-
  The two idealised programs end with the same result array. The kernel program's result is the specification's
  function of its arguments (the two regions' arrays read back through the host operations); the reference's is the
  same function of its own arguments; the arguments agree, and the gathered codebook entries — the one stage
  neither side opens — are the same composition of operations in both texts.
-/
import proofs.«108895_j83004537962674_2_alg».proof.Proof.KI.Value
import proofs.«108895_j83004537962674_2_alg».proof.Proof.KI.R0Value
import proofs.«108895_j83004537962674_2_alg».proof.Proof.KI.R1Value
import proofs.«108895_j83004537962674_2_alg».proof.Proof.KI.HostGather
import proofs.«108895_j83004537962674_2_alg».proof.Proof.KI.HostWeight
import proofs.«108895_j83004537962674_2_alg».proof.Proof.RefIsG
import proofs.«108895_j83004537962674_2_alg».proof.Proof.RefRun
import proofs.«108895_j83004537962674_2_alg».proof.Defs
import proofs.«108895_j83004537962674_2_alg».proof.Proof.Gen.KernelIdeal
import proofs.«108895_j83004537962674_2_alg».proof.Proof.Gen.ReferenceIdeal
import proofs.«108895_j83004537962674_2_alg».proof.Proof.Gen.Pre_finite_inputs

noncomputable section

namespace Cert.Final

open Idealize.ShloMosaic Idealize.ShloMosaic.TcCoe Idealize.SL.Sem Idealize.ShloMosaic.ValueIdx

open Cert.KernelIdeal.Hand Cert.KernelIdeal.HandValue Cert.KernelIdeal.HostValue in
/-- The kernel program's result buffer holds the specification's function of its arguments. -/
theorem kernel_is_G (m : (ℓ : Loc Cert.KernelIdeal.nD Cert.KernelIdeal.τ Cert.KernelIdeal.sig) → Buf (Elt Ideal) ℓ) (c : Dev Cert.KernelIdeal.nD) :
    (Cert.KernelIdeal.Hand.W6 m c Cert.KernelIdeal.main_v27 : Cert.KernelIdeal.S4x2048x4096.Idx → EReal)
      = Cert.Spec.G (m ((c : Thread Cert.KernelIdeal.nD Cert.KernelIdeal.τ).loc Cert.KernelIdeal.main_arg0))
          (Cert.KernelIdeal.HostValue.gthK (m ((c : Thread Cert.KernelIdeal.nD Cert.KernelIdeal.τ).loc Cert.KernelIdeal.main_arg1)) (m ((c : Thread Cert.KernelIdeal.nD Cert.KernelIdeal.τ).loc Cert.KernelIdeal.main_arg2)))
          (m ((c : Thread Cert.KernelIdeal.nD Cert.KernelIdeal.τ).loc Cert.KernelIdeal.main_arg5)) (m ((c : Thread Cert.KernelIdeal.nD Cert.KernelIdeal.τ).loc Cert.KernelIdeal.main_arg6))
          (m ((c : Thread Cert.KernelIdeal.nD Cert.KernelIdeal.τ).loc Cert.KernelIdeal.main_arg3)) (m ((c : Thread Cert.KernelIdeal.nD Cert.KernelIdeal.τ).loc Cert.KernelIdeal.main_arg4))
          (m ((c : Thread Cert.KernelIdeal.nD Cert.KernelIdeal.τ).loc Cert.KernelIdeal.main_arg7)) (m ((c : Thread Cert.KernelIdeal.nD Cert.KernelIdeal.τ).loc Cert.KernelIdeal.main_arg8)) :=
  Cert.KernelIdeal.HandValue.final_of m c _
    (fun r k => congrFun ((Cert.KernelIdeal.Hand.W4_arr m c 3).trans (Cert.KernelIdeal.HandValue0.arr0_3 (Cert.KernelIdeal.Hand.VA m) c)) (ix2 r k))
    (fun r q => congrFun ((Cert.KernelIdeal.Hand.W4_arr m c 2).trans (Cert.KernelIdeal.HandValue0.arr0_2 (Cert.KernelIdeal.Hand.VA m) c)) (ix2 r q))
    (fun r o => congrFun ((Cert.KernelIdeal.Hand.W5_arr m c 7).trans (Cert.KernelIdeal.HandValue1.arr1_7 (Cert.KernelIdeal.Hand.VB m) c)) (ix2 r o))
    (fun i o => Cert.KernelIdeal.HostValue.v13_apply m c i o)

/-- The gathered codebook entries are the same composition of operations in the two programs' texts. -/
theorem gth_eq (zm : (⟨Cert.ReferenceIdeal.S64x64x64x64, .i32⟩ : BufTy).Contents (Elt Ideal)) (cb : (⟨Cert.ReferenceIdeal.S4096x256, .f32⟩ : BufTy).Contents (Elt Ideal)) :
    Cert.RefValue.gthR zm cb = Cert.KernelIdeal.HostValue.gthK zm cb := by
  rw [Cert.RefValue.gthR_eq]
  rfl

theorem algebraic : Cert.algebraic_KernelIdeal_ReferenceIdeal := by
  intro m ρ m' ρ' _ hagree
  refine ⟨fun c => Cert.KernelIdeal.Hand.W6 m c (Proc.devRef .tc Cert.KernelIdeal.main_v27), ?_, ?_⟩
  · exact (θ_run Cert.KernelIdeal.defs _ _).mono (fun r h c => ⟨h c _ (Cert.KernelIdeal.Hand.mem_uc Cert.KernelIdeal.main_v27 (by decide)),
      (h c _ (Cert.KernelIdeal.Hand.mem_uc Cert.KernelIdeal.main_arg0 (by decide))).trans (Cert.KernelIdeal.Hand.W6_main_arg0 m c),
      (h c _ (Cert.KernelIdeal.Hand.mem_uc Cert.KernelIdeal.main_arg1 (by decide))).trans (Cert.KernelIdeal.Hand.W6_main_arg1 m c),
      (h c _ (Cert.KernelIdeal.Hand.mem_uc Cert.KernelIdeal.main_arg2 (by decide))).trans (Cert.KernelIdeal.Hand.W6_main_arg2 m c),
      (h c _ (Cert.KernelIdeal.Hand.mem_uc Cert.KernelIdeal.main_arg3 (by decide))).trans (Cert.KernelIdeal.Hand.W6_main_arg3 m c),
      (h c _ (Cert.KernelIdeal.Hand.mem_uc Cert.KernelIdeal.main_arg4 (by decide))).trans (Cert.KernelIdeal.Hand.W6_main_arg4 m c),
      (h c _ (Cert.KernelIdeal.Hand.mem_uc Cert.KernelIdeal.main_arg5 (by decide))).trans (Cert.KernelIdeal.Hand.W6_main_arg5 m c),
      (h c _ (Cert.KernelIdeal.Hand.mem_uc Cert.KernelIdeal.main_arg6 (by decide))).trans (Cert.KernelIdeal.Hand.W6_main_arg6 m c),
      (h c _ (Cert.KernelIdeal.Hand.mem_uc Cert.KernelIdeal.main_arg7 (by decide))).trans (Cert.KernelIdeal.Hand.W6_main_arg7 m c),
      (h c _ (Cert.KernelIdeal.Hand.mem_uc Cert.KernelIdeal.main_arg8 (by decide))).trans (Cert.KernelIdeal.Hand.W6_main_arg8 m c)⟩) (Cert.KernelIdeal.Hand.run_all m ρ)
  · refine (θ_run Cert.ReferenceIdeal.defs _ _).mono (fun r h c => ⟨(h c).1.trans ?_, (h c).2⟩) (Cert.RefValue.ref_run m' ρ')
    rw [Cert.RefValue.ref_is_G]
    refine Eq.trans ?_ (kernel_is_G m c).symm
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2, gth_eq]

end Cert.Final

end
-- ==== Proof.lean ====
/-
  The certificate's claim: the kernel program (a host-side dequantisation of the weight, then two pipelined kernels —
  the low-rank hidden state with the activations' cast, and the main product with the low-rank multiplicative and
  additive terms folded in) and its idealisation run to the end with their arguments unchanged; the reference runs
  likewise; the idealisation rewrote nothing; and at the extended reals the idealised kernel program and the
  idealised reference end with the same result array. Both compute, at (b, s, o),
      (Σ_r h·ls(4096+o, r) + bias o) + (Σ_r h·ls(o, r) + scale o) · Σ_i x(b,s,i) · w(o, i),
  h the low-rank hidden state and w the dequantised weight; the kernel accumulates each sum over i in four blocks of
  1024 and reads the weight transposed, which commutativity and associativity of + alone account for.
-/
import proofs.«108895_j83004537962674_2_alg».proof.Defs
import proofs.«108895_j83004537962674_2_alg».proof.Proof.Gen.Kernel
import proofs.«108895_j83004537962674_2_alg».proof.Proof.Gen.KernelIdeal
import proofs.«108895_j83004537962674_2_alg».proof.Proof.Gen.ReferenceIdeal
import proofs.«108895_j83004537962674_2_alg».proof.Proof.Gen.Pre_finite_inputs
import proofs.«108895_j83004537962674_2_alg».proof.Proof.K.Frame
import proofs.«108895_j83004537962674_2_alg».proof.Proof.KI.Frame
import proofs.«108895_j83004537962674_2_alg».proof.Proof.Final
import Idealize.ShloMosaic.Adequacy
import Idealize.ShloMosaic.Init

noncomputable section

namespace Cert.Proof

open Idealize.ShloMosaic Idealize.SL.Sem

theorem frame_p : Cert.frame_Kernel := fun m ρ _ => Cert.Kernel.Hand.frame m ρ
theorem frame_pi : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.RefValue.ref_run m ρ)

theorem claim : Cert.Claim := ⟨Cert.Kernel.Gen.facts, Cert.KernelIdeal.Gen.facts, Cert.ReferenceIdeal.Gen.facts, Cert.Pre_finite_inputs.Gen.facts,
  frame_p, frame_pi, frame_ri, trivial, Cert.Final.algebraic⟩

end Cert.Proof

end
